-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128 : Shape := ⟨2, ![32, 128]⟩
abbrev S32 : Shape := ⟨1, ![32]⟩
abbrev S32768x128 : Shape := ⟨2, ![32768, 128]⟩
abbrev S_ : Shape := ⟨0, ![]⟩

class Facts : Prop where
  bcast_S_S32x128 : S_.BroadcastsInDim S32x128 (![] : Fin 0 → Fin S32x128.rank)
  reducesTo_S32x128_S_d0_1 : S32x128.ReducesTo [0, 1] S_
  h_S_ : 0 < S_.numel
  bcast_S_S32 : S_.BroadcastsInDim S32 (![] : Fin 0 → Fin S32.rank)
  reducesTo_S32_S_d0 : S32.ReducesTo [0] S_
  bcast_S_S32768x128 : S_.BroadcastsInDim S32768x128 (![] : Fin 0 → Fin S32768x128.rank)
  reducesTo_S32768x128_S_d0_1 : S32768x128.ReducesTo [0, 1] S_

variable [Facts]

def fn_part1 {F : FTy → Type} [FloatOps F] (main_arg1 : FVec F S32 .f32) (main_v13 : IVec S_ 1) (main_v15 : IVec S32 1) (main_c_5 : IVec S_ 1) : IVec S_ 1 :=
  let main_v16 : IVec S_ 1 := (fun x v => Host.reduce IntOp.andi x v reducesTo_S32_S_d0 h_S_) main_v15 main_c_5
  let main_v17 : IVec S_ 1 := andi main_v13 main_v16
  let main_cst_6 : FVec F S_ .f32 := constant S_ .f32 0x3F800000#32
  let main_v18 : FVec F S32 .f32 := broadcastInDim S32 ![] bcast_S_S32 main_cst_6
  let main_v19 : IVec S32 1 := cmpf .olt main_arg1 main_v18
  let main_c_7 : IVec S_ 1 := constantI S_ 1 1#1
  let main_v20 : IVec S_ 1 := (fun x v => Host.reduce IntOp.andi x v reducesTo_S32_S_d0 h_S_) main_v19 main_c_7
  let main_v21 : IVec S_ 1 := andi main_v17 main_v20
  main_v21

def fn {F : FTy → Type} [FloatOps F] (main_arg0 : FVec F S32x128 .f32) (main_arg1 : FVec F S32 .f32) (main_arg2 : FVec F S32768x128 .f32) : IVec S_ 1 :=
  let main_v0 : FVec F S32x128 .f32 := Host.absf main_arg0
  let main_cst : FVec F S_ .f32 := constant S_ .f32 0x7F800000#32
  let main_v1 : FVec F S32x128 .f32 := broadcastInDim S32x128 ![] bcast_S_S32x128 main_cst
  let main_v2 : IVec S32x128 1 := cmpf .olt main_v0 main_v1
  let main_c : IVec S_ 1 := constantI S_ 1 1#1
  let main_v3 : IVec S_ 1 := (fun x v => Host.reduce IntOp.andi x v reducesTo_S32x128_S_d0_1 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32768x128 .f32 := Host.absf main_arg2
  let main_cst_2 : FVec F S_ .f32 := constant S_ .f32 0x7F800000#32
  let main_v10 : FVec F S32768x128 .f32 := broadcastInDim S32768x128 ![] bcast_S_S32768x128 main_cst_2
  let main_v11 : IVec S32768x128 1 := cmpf .olt main_v9 main_v10
  let main_c_3 : IVec S_ 1 := constantI S_ 1 1#1
  let main_v12 : IVec S_ 1 := (fun x v => Host.reduce IntOp.andi x v reducesTo_S32768x128_S_d0_1 h_S_) main_v11 main_c_3
  let main_v13 : IVec S_ 1 := andi main_v8 main_v12
  let main_cst_4 : FVec F S_ .f32 := constant S_ .f32 0x00000000#32
  let main_v14 : FVec F S32 .f32 := broadcastInDim S32 ![] bcast_S_S32 main_cst_4
  let main_v15 : IVec S32 1 := cmpf .oge main_arg1 main_v14
  let main_c_5 : IVec S_ 1 := constantI S_ 1 1#1
  fn_part1 (F := F) main_arg1 main_v13 main_v15 main_c_5
-- ==== Kernel.lean ====
abbrev S32x128 : Shape := ⟨2, ![32, 128]⟩
abbrev S32 : Shape := ⟨1, ![32]⟩
abbrev S32768x128 : Shape := ⟨2, ![32768, 128]⟩
abbrev S_ : Shape := ⟨0, ![]⟩
abbrev S32x1 : Shape := ⟨2, ![32, 1]⟩
abbrev S32x3 : Shape := ⟨2, ![32, 3]⟩
abbrev S2x32x128 : Shape := ⟨3, ![2, 32, 128]⟩
abbrev S2x32x1 : Shape := ⟨3, ![2, 32, 1]⟩
abbrev S4096x128 : Shape := ⟨2, ![4096, 128]⟩
abbrev S1x32x128 : Shape := ⟨3, ![1, 32, 128]⟩
abbrev S1x32x1 : Shape := ⟨3, ![1, 32, 1]⟩
abbrev S128x4096 : Shape := ⟨2, ![128, 4096]⟩
abbrev S32x4096 : Shape := ⟨2, ![32, 4096]⟩
abbrev S4096 : Shape := ⟨1, ![4096]⟩
abbrev S1x4096 : Shape := ⟨2, ![1, 4096]⟩

abbrev nBuf : Space → Nat
  | .hbm => 67
  | .vmem => 13
  | .smem => 0
  | _ => 0

abbrev bufTy : (tb : Table) → Fin (tcTables nBuf tb) → BufTy
  | .hbm, ⟨0, _⟩ => ⟨S32x128, .f32⟩
  | .hbm, ⟨1, _⟩ => ⟨S32, .f32⟩
  | .hbm, ⟨2, _⟩ => ⟨S32768x128, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32x128, .f32⟩
  | .hbm, ⟨9, _⟩ => ⟨S_, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S32x1, .f32⟩
  | .hbm, ⟨26, _⟩ => ⟨S32x1, .f32⟩
  | .hbm, ⟨27, _⟩ => ⟨S32x1, .f32⟩
  | .hbm, ⟨28, _⟩ => ⟨S32x3, .f32⟩
  | .hbm, ⟨29, _⟩ => ⟨S32x1, .f32⟩
  | .hbm, ⟨30, _⟩ => ⟨S32x1, .f32⟩
  | .hbm, ⟨31, _⟩ => ⟨S2x32x128, .f32⟩
  | .hbm, ⟨32, _⟩ => ⟨S2x32x1, .f32⟩
  | .hbm, ⟨33, _⟩ => ⟨S2x32x1, .f32⟩
  | .hbm, ⟨34, _⟩ => ⟨S1x32x1, .f32⟩
  | .hbm, ⟨35, _⟩ => ⟨S32x1, .f32⟩
  | .hbm, ⟨36, _⟩ => ⟨S1x32x1, .f32⟩
  | .hbm, ⟨37, _⟩ => ⟨S32x1, .f32⟩
  | .hbm, ⟨38, _⟩ => ⟨S32x1, .f32⟩
  | .hbm, ⟨39, _⟩ => ⟨S32x1, .f32⟩
  | .hbm, ⟨40, _⟩ => ⟨S32x1, .f32⟩
  | .hbm, ⟨41, _⟩ => ⟨S32x1, .f32⟩
  | .hbm, ⟨42, _⟩ => ⟨S32x1, .f32⟩
  | .hbm, ⟨43, _⟩ => ⟨S1x32x1, .f32⟩
  | .hbm, ⟨44, _⟩ => ⟨S32x1, .f32⟩
  | .hbm, ⟨45, _⟩ => ⟨S32x1, .f32⟩
  | .hbm, ⟨46, _⟩ => ⟨S1x32x1, .f32⟩
  | .hbm, ⟨47, _⟩ => ⟨S32x1, .f32⟩
  | .hbm, ⟨48, _⟩ => ⟨S32x1, .f32⟩
  | .hbm, ⟨49, _⟩ => ⟨S32x1, .f32⟩
  | .hbm, ⟨50, _⟩ => ⟨S1x32x128, .f32⟩
  | .hbm, ⟨51, _⟩ => ⟨S32x128, .f32⟩
  | .hbm, ⟨52, _⟩ => ⟨S32x128, .f32⟩
  | .hbm, ⟨53, _⟩ => ⟨S32x128, .f32⟩
  | .hbm, ⟨54, _⟩ => ⟨S1x32x128, .f32⟩
  | .hbm, ⟨55, _⟩ => ⟨S32x128, .f32⟩
  | .hbm, ⟨56, _⟩ => ⟨S32x128, .f32⟩
  | .hbm, ⟨57, _⟩ => ⟨S32x128, .f32⟩
  | .hbm, ⟨58, _⟩ => ⟨S32x128, .f32⟩
  | .hbm, ⟨59, _⟩ => ⟨S32x128, .f32⟩
  | .hbm, ⟨60, _⟩ => ⟨S32x128, .f32⟩
  | .hbm, ⟨61, _⟩ => ⟨S32x128, .f32⟩
  | .hbm, ⟨62, _⟩ => ⟨S32x128, .f32⟩
  | .hbm, ⟨63, _⟩ => ⟨S32x128, .f32⟩
  | .hbm, ⟨64, _⟩ => ⟨S32x1, .f32⟩
  | .hbm, ⟨65, _⟩ => ⟨S32x128, .f32⟩
  | .hbm, ⟨66, _⟩ => ⟨S32x128, .f32⟩
  | .local _ .vmem, ⟨0, _⟩ => ⟨S32x128, .f32⟩
  | .local _ .vmem, ⟨1, _⟩ => ⟨S4096x128, .f32⟩
  | .local _ .vmem, ⟨2, _⟩ => ⟨S4096x128, .f32⟩
  | .local _ .vmem, ⟨3, _⟩ => ⟨S32x3, .f32⟩
  | .local _ .vmem, ⟨4, _⟩ => ⟨S1x32x128, .f32⟩
  | .local _ .vmem, ⟨5, _⟩ => ⟨S1x32x128, .f32⟩
  | .local _ .vmem, ⟨6, _⟩ => ⟨S1x32x1, .f32⟩
  | .local _ .vmem, ⟨7, _⟩ => ⟨S1x32x1, .f32⟩
  | .local _ .vmem, ⟨8, _⟩ => ⟨S1x32x1, .f32⟩
  | .local _ .vmem, ⟨9, _⟩ => ⟨S1x32x1, .f32⟩
  | .local _ .vmem, ⟨10, _⟩ => ⟨S32x128, .f32⟩
  | .local _ .vmem, ⟨11, _⟩ => ⟨S32x1, .f32⟩
  | .local _ .vmem, ⟨12, _⟩ => ⟨S32x1, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v53 : BitVec 1 := Scalar.cmpi .eq arg1 c3_i32
  let v54 : BitVec 32 := Scalar.extui v53
  let c0_i32_22 : BitVec 32 := 0#32
  let v55 : BitVec 1 := Scalar.cmpi .ne v54 c0_i32_22
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S32 : S_.BroadcastsInDim S32 (![] : Fin 0 → Fin S32.rank)
  reducesTo_S32x128_S32_d1 : S32x128.ReducesTo [1] S32
  h_S_ : 0 < S_.numel
  bcast_S32_S32x1_0 : S32.BroadcastsInDim S32x1 (![0] : Fin 1 → Fin S32x1.rank)
  concatenates_S32x1_S32x1_S32x1_S32x3_d1 : Shape.Concatenates [S32x1, S32x1, S32x1] S32x3 1
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S4096x128_S4096x128_0_0 : ∀ a, (![0, 0] : Fin 2 → Nat) a + S4096x128.size a ≤ S4096x128.size a
  h_S4096x128 : 0 < S4096x128.numel
  transposes_S4096x128_p1_0_S128x4096 : S4096x128.Transposes [1, 0] S128x4096
  reduces_S4096x128_S4096 : S4096x128.Reduces [1] S4096
  shapeCasts_S4096_S1x4096 : S4096.ShapeCasts S1x4096
  inb_S32x3_S32x3_0_0 : ∀ a, (![0, 0] : Fin 2 → Nat) a + S32x3.size a ≤ S32x3.size a
  h_S32x3 : 0 < S32x3.numel
  shapeCasts_S32x3_S32x3 : S32x3.ShapeCasts S32x3
  slices_S32x3_o0_0_S32x1 : S32x3.Slices ![0, 0] S32x1
  slices_S32x3_o0_1_S32x1 : S32x3.Slices ![0, 1] S32x1
  slices_S32x3_o0_2_S32x1 : S32x3.Slices ![0, 2] S32x1
  broadcasts_S32x1_S32x4096 : S32x1.Broadcasts S32x4096
  broadcasts_S1x4096_S32x4096 : S1x4096.Broadcasts S32x4096
  reduces_S32x4096_S32 : S32x4096.Reduces [1] S32
  shapeCasts_S32_S32x1 : S32.ShapeCasts S32x1
  bitsLt_bf16_f32 : FTy.bits .bf16 < FTy.bits .f32
  broadcasts_S32x1_S32x128 : S32x1.Broadcasts S32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  shapeCasts_S32x1_S1x32x1 : S32x1.ShapeCasts S1x32x1
  slices_S2x32x1_S1x32x1_0_0_0 : S2x32x1.Slices ![0, 0, 0] S1x32x1
  slices_S2x32x1_S1x32x1_1_0_0 : S2x32x1.Slices ![1, 0, 0] S1x32x1
  slices_S2x32x128_S1x32x128_0_0_0 : S2x32x128.Slices ![0, 0, 0] S1x32x128
  bcast_S32x1_S32x128_0_1 : S32x1.BroadcastsInDim S32x128 (![0, 1] : Fin 2 → Fin S32x128.rank)
  slices_S2x32x128_S1x32x128_1_0_0 : S2x32x128.Slices ![1, 0, 0] S1x32x128
  dot_S32x128_S128x4096_S32x4096_1_0_0_1_n_n_wf : DotDims.WF S32x128 S128x4096 S32x4096 [1] [0] [0] [1] [] []
  dot_S32x4096_S4096x128_S32x128_1_0_0_1_n_n_wf : DotDims.WF S32x4096 S4096x128 S32x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S32x128.size a
  hwx0_0 : ∀ i : grid0.Coords, EltTy.bits .f32 = 32 ∨ (Rect.block (s := S32x128) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S32768x128.size a
  hwx0_1 : ∀ i : grid0.Coords, EltTy.bits .f32 = 32 ∨ (Rect.block (s := S32768x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x3.size a ≤ S32x3.size a
  hwx0_2 : ∀ i : grid0.Coords, EltTy.bits .f32 = 32 ∨ (Rect.block (s := S32x3) S32x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128.size a ≤ S2x32x128.size a
  hwx0_3 : ∀ i : grid0.Coords, EltTy.bits .f32 = 32 ∨ (Rect.block (s := S2x32x128) S1x32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x1.size a ≤ S2x32x1.size a
  hwx0_4 : ∀ i : grid0.Coords, EltTy.bits .f32 = 32 ∨ (Rect.block (s := S2x32x1) S1x32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x1.size a ≤ S2x32x1.size a
  hwx0_5 : ∀ i : grid0.Coords, EltTy.bits .f32 = 32 ∨ (Rect.block (s := S2x32x1) S1x32x1.size (cc0_transform_5 i) (hinb0_5 i)).WholeWords (EltTy.packing .f32)

variable [Facts₀]

def dot_S32x128_S128x4096_S32x4096_1_0_0_1_n_n : DotDims S32x128 S128x4096 S32x4096 where
  lhsContracting := [1]
  rhsContracting := [0]
  lhsNonContracting := [0]
  rhsNonContracting := [1]
  lhsBatch := []
  rhsBatch := []
  wf := dot_S32x128_S128x4096_S32x4096_1_0_0_1_n_n_wf
def dot_S32x4096_S4096x128_S32x128_1_0_0_1_n_n : DotDims S32x4096 S4096x128 S32x128 where
  lhsContracting := [1]
  rhsContracting := [0]
  lhsNonContracting := [0]
  rhsNonContracting := [1]
  lhsBatch := []
  rhsBatch := []
  wf := dot_S32x4096_S4096x128_S32x128_1_0_0_1_n_n_wf

abbrev win0_0 : Pipeline.Window sig grid0 :=
  Pipeline.Window.ofSpec (Memref.whole main_arg0) S32x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S32x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23_0) S1x32x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23_1) S1x32x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23_2) S1x32x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S32x128 : Shape := ⟨2, ![32, 128]⟩
abbrev S32 : Shape := ⟨1, ![32]⟩
abbrev S32768x128 : Shape := ⟨2, ![32768, 128]⟩
abbrev S32x1 : Shape := ⟨2, ![32, 1]⟩
abbrev S_ : Shape := ⟨0, ![]⟩
abbrev S32x1x128 : Shape := ⟨3, ![32, 1, 128]⟩
abbrev S32x1x1 : Shape := ⟨3, ![32, 1, 1]⟩
abbrev S1x32768x128 : Shape := ⟨3, ![1, 32768, 128]⟩
abbrev S32x32768x128 : Shape := ⟨3, ![32, 32768, 128]⟩
abbrev S32x32768 : Shape := ⟨2, ![32, 32768]⟩

abbrev nBuf : Space → Nat
  | .hbm => 53
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S32, .f32⟩
  | .hbm, ⟨2, _⟩ => ⟨S32768x128, .f32⟩
  | .hbm, ⟨3, _⟩ => ⟨S32, .f32⟩
  | .hbm, ⟨4, _⟩ => ⟨S32x1, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32x1, .f32⟩
  | .hbm, ⟨9, _⟩ => ⟨S32x1x128, .f32⟩
  | .hbm, ⟨10, _⟩ => ⟨S32x1x1, .f32⟩
  | .hbm, ⟨11, _⟩ => ⟨S1x32768x128, .f32⟩
  | .hbm, ⟨12, _⟩ => ⟨S32x32768x128, .f32⟩
  | .hbm, ⟨13, _⟩ => ⟨S32x32768x128, .f32⟩
  | .hbm, ⟨14, _⟩ => ⟨S32x32768x128, .f32⟩
  | .hbm, ⟨15, _⟩ => ⟨S32x32768x128, .f32⟩
  | .hbm, ⟨16, _⟩ => ⟨S32x32768x128, .f32⟩
  | .hbm, ⟨17, _⟩ => ⟨S32x32768x128, .f32⟩
  | .hbm, ⟨18, _⟩ => ⟨S_, .f32⟩
  | .hbm, ⟨19, _⟩ => ⟨S32x32768, .f32⟩
  | .hbm, ⟨20, _⟩ => ⟨S32x1, .f32⟩
  | .hbm, ⟨21, _⟩ => ⟨S_, .f32⟩
  | .hbm, ⟨22, _⟩ => ⟨S32x1, .f32⟩
  | .hbm, ⟨23, _⟩ => ⟨S32x1, .f32⟩
  | .hbm, ⟨24, _⟩ => ⟨S_, .f32⟩
  | .hbm, ⟨25, _⟩ => ⟨S32x1, .f32⟩
  | .hbm, ⟨26, _⟩ => ⟨S32x1, .f32⟩
  | .hbm, ⟨27, _⟩ => ⟨S32x32768, .f32⟩
  | .hbm, ⟨28, _⟩ => ⟨S32x32768, .f32⟩
  | .hbm, ⟨29, _⟩ => ⟨S32x32768, .f32⟩
  | .hbm, ⟨30, _⟩ => ⟨S32x32768, .f32⟩
  | .hbm, ⟨31, _⟩ => ⟨S32x32768, .f32⟩
  | .hbm, ⟨32, _⟩ => ⟨S_, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S32x1, .f32⟩
  | .hbm, ⟨38, _⟩ => ⟨S32x32768, .f32⟩
  | .hbm, ⟨39, _⟩ => ⟨S32x32768, .f32⟩
  | .hbm, ⟨40, _⟩ => ⟨S32x32768, .f32⟩
  | .hbm, ⟨41, _⟩ => ⟨S_, .f32⟩
  | .hbm, ⟨42, _⟩ => ⟨S32, .f32⟩
  | .hbm, ⟨43, _⟩ => ⟨S32x1, .f32⟩
  | .hbm, ⟨44, _⟩ => ⟨S32x32768, .f32⟩
  | .hbm, ⟨45, _⟩ => ⟨S32x32768, .f32⟩
  | .hbm, ⟨46, _⟩ => ⟨S32x128, .f32⟩
  | .hbm, ⟨47, _⟩ => ⟨S32x128, .f32⟩
  | .hbm, ⟨48, _⟩ => ⟨S32x128, .f32⟩
  | .hbm, ⟨49, _⟩ => ⟨S32x128, .f32⟩
  | .hbm, ⟨50, _⟩ => ⟨S32x1, .f32⟩
  | .hbm, ⟨51, _⟩ => ⟨S32x128, .f32⟩
  | .hbm, ⟨52, _⟩ => ⟨S32x128, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]

class Facts₀ : Prop where
  bcast_S32_S32x1_0 : S32.BroadcastsInDim S32x1 (![0] : Fin 1 → Fin S32x1.rank)
  bcast_S_S32 : S_.BroadcastsInDim S32 (![] : Fin 0 → Fin S32.rank)
  bcast_S32x128_S32x1x128_0_2 : S32x128.BroadcastsInDim S32x1x128 (![0, 2] : Fin 2 → Fin S32x1x128.rank)
  bcast_S32x1_S32x1x1_0_1 : S32x1.BroadcastsInDim S32x1x1 (![0, 1] : Fin 2 → Fin S32x1x1.rank)
  bcast_S32768x128_S1x32768x128_1_2 : S32768x128.BroadcastsInDim S1x32768x128 (![1, 2] : Fin 2 → Fin S1x32768x128.rank)
  bcast_S32x1x1_S32x32768x128_0_1_2 : S32x1x1.BroadcastsInDim S32x32768x128 (![0, 1, 2] : Fin 3 → Fin S32x32768x128.rank)
  bcast_S1x32768x128_S32x32768x128_0_1_2 : S1x32768x128.BroadcastsInDim S32x32768x128 (![0, 1, 2] : Fin 3 → Fin S32x32768x128.rank)
  bcast_S32x1x128_S32x32768x128_0_1_2 : S32x1x128.BroadcastsInDim S32x32768x128 (![0, 1, 2] : Fin 3 → Fin S32x32768x128.rank)
  reducesTo_S32x32768x128_S32x32768_d2 : S32x32768x128.ReducesTo [2] S32x32768
  h_S_ : 0 < S_.numel
  bcast_S_S32x1 : S_.BroadcastsInDim S32x1 (![] : Fin 0 → Fin S32x1.rank)
  bcast_S32x1_S32x32768_0_1 : S32x1.BroadcastsInDim S32x32768 (![0, 1] : Fin 2 → Fin S32x32768.rank)
  reducesTo_S32x32768_S32_d1 : S32x32768.ReducesTo [1] S32
  bcast_S32x1_S32x128_0_1 : S32x1.BroadcastsInDim S32x128 (![0, 1] : Fin 2 → Fin S32x128.rank)
  dot_S32x32768_S32768x128_S32x128_1_0_0_1_n_n_wf : DotDims.WF S32x32768 S32768x128 S32x128 [1] [0] [0] [1] [] []

variable [Facts₀]

def dot_S32x32768_S32768x128_S32x128_1_0_0_1_n_n : DotDims S32x32768 S32768x128 S32x128 where
  lhsContracting := [1]
  rhsContracting := [0]
  lhsNonContracting := [0]
  rhsNonContracting := [1]
  lhsBatch := []
  rhsBatch := []
  wf := dot_S32x32768_S32768x128_S32x128_1_0_0_1_n_n_wf

class Facts : Prop extends Facts₀ where

variable [Facts]
-- ==== Proof.KBitsKit.lean ====
/-
  The kernel program around its one pipelined region: what the region finds in each array when it is entered (the
  host operations before it applied to the launch memory), that the arguments are among the arrays nothing before or
  after the region writes, each input window's block at a grid point, the two conditions of the body (first step of
  a core's pass; last step of a core's pass) in closed form over the eight grid points, where the three output
  windows are idle, and the frame claim read off a run of the region with its host operations around it.
-/
import proofs.«157909_j21131239096722_2_alg».proof.Proof.Gen.Kernel.Launch
import proofs.«157909_j21131239096722_2_alg».proof.Proof.Gen.Kernel.Skeleton
import proofs.«157909_j21131239096722_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What each buffer of core `c` holds when the region is entered: the launch memory after the host operations
    that precede the region (the per-row constants `c`, `k1`, `k2` stacked into one array among them). -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only arrays of the region and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes an array of the region: each writes its own result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes the first argument (the query rows). -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the second (the per-row mixing weights). -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the third (the data bank). -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The second argument is no array of the region, and no host operation after the region writes it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query rows' staging buffer holds the whole array at every point (fetched once, never moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The data bank's current staging buffer holds the point's block of 4096 rows (fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The stacked per-row constants' staging buffer holds the whole array at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region with the host operations around it -/

/-- A run whose post has every array of the region at what the proof data says, and every other buffer as the host
    operations after the region leave it, is the frame claim: the query rows and the data bank are input windows
    (they end as the region found them, which is as launched), the mixing weights bypass the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).1 1).trans (((dats 0 c).arrAt_in 1 rfl _).trans ((hA c 1).trans (V_main_arg2 m c)))⟩) h

/-! ## The body's two conditions, over the grid -/

/-- "This is the first step of the core's pass" (the second grid coordinate is 0): the carried state is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last step of the core's pass" (the second grid coordinate is 3): the carried state is written out. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a pass's last step the three outputs are idle and not written back. -/
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- At a pass's last step they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S32x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x1 .f32 := win0_5.stage (cfg0.slots t 5)
abbrev hs0_5 (t : Fin cfg0.N) : (ms0_5 t).IsWhole := hstage0_5 ((cfg0.slots t 5).cast nbuf0_5)
/-- The three carried buffers: the weighted sum of rows, the sum of weights, the running maximum. -/
abbrev scM0_0 : Memref sig .tc .vmem S32x128 .f32 := Memref.whole cc0_scratch0
abbrev scM0_1 : Memref sig .tc .vmem S32x1 .f32 := Memref.whole cc0_scratch1
abbrev scM0_2 : Memref sig .tc .vmem S32x1 .f32 := Memref.whole cc0_scratch2
abbrev VS0_0 : View sig .tc .vmem S32x128 .f32 := scM0_0.view
abbrev VS0_1 : View sig .tc .vmem S32x1 .f32 := scM0_1.view
abbrev VS0_2 : View sig .tc .vmem S32x1 .f32 := scM0_2.view
/-- One staging buffer of each output window, through which its contents are stated. -/
abbrev VO0_3 : View sig .tc .vmem S1x32x128 .f32 := (Memref.whole cc0_stg3_0 : Memref sig .tc .vmem S1x32x128 .f32).view
abbrev VO0_4 : View sig .tc .vmem S1x32x1 .f32 := (Memref.whole cc0_stg4_0 : Memref sig .tc .vmem S1x32x1 .f32).view
abbrev VO0_5 : View sig .tc .vmem S1x32x1 .f32 := (Memref.whole cc0_stg5_0 : Memref sig .tc .vmem S1x32x1 .f32).view

/-- What the region's invariant hands the body: the three carried buffers, each owned whole at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.KBitsRunA.lean ====
/-
  The kernel body run as the first step of a core's pass: the carried state is reset (to zero sums and a running maximum of minus infinity) before the block is absorbed; the outputs are not touched.
  On whole staging buffers — the three inputs at given contents, the carried buffers at anything,
  the outputs at contents handed back untouched — the body runs to the end without a fault and leaves the inputs as they were and
  each buffer it stored into with its stores written, as a list of pieces (last store first) that the run finds.
-/
import proofs.«157909_j21131239096722_2_alg».proof.Proof.KBitsKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in this case: the pieces each stored buffer ends with, and the triple. -/
noncomputable def kernelRun0_A (c : Dev nD) (i : grid0.Coords) (arg2 : Memref sig .tc .vmem S32x128 .f32) (harg2 : arg2.IsWhole) (arg3 : Memref sig .tc .vmem S4096x128 .f32) (harg3 : arg3.IsWhole) (arg4 : Memref sig .tc .vmem S32x3 .f32) (harg4 : arg4.IsWhole) (arg5 : Memref sig .tc .vmem S1x32x128 .f32) (harg5 : arg5.IsWhole) (arg6 : Memref sig .tc .vmem S1x32x1 .f32) (harg6 : arg6.IsWhole) (arg7 : Memref sig .tc .vmem S1x32x1 .f32) (harg7 : arg7.IsWhole) (arg8 : Memref sig .tc .vmem S32x128 .f32) (harg8 : arg8.IsWhole) (arg9 : Memref sig .tc .vmem S32x1 .f32) (harg9 : arg9.IsWhole) (arg10 : Memref sig .tc .vmem S32x1 .f32) (harg10 : arg10.IsWhole) (hc0 : cond0_0 i) (hc1 : ¬cond0_1 i)
    (x0 : Vec F S32x128 .f32) (x1 : Vec F S4096x128 .f32) (x2 : Vec F S32x3 .f32) :
    Σ' (LS0 : List (View.Piece (Elt F) S32x128 .f32)) (LS1 : List (View.Piece (Elt F) S32x1 .f32)), { LS2 : List (View.Piece (Elt F) S32x1 .f32) //
      ∀ (xi3 : Vec F S1x32x128 .f32) (xi4 : Vec F S1x32x1 .f32) (xi5 : Vec F S1x32x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.KBitsRunB.lean ====
/-
  The kernel body run as a middle step of a core's pass: the block is absorbed into the carried state found; the outputs are not touched.
  On whole staging buffers — the three inputs at given contents, the carried buffers at the contents the step before left,
  the outputs at contents handed back untouched — the body runs to the end without a fault and leaves the inputs as they were and
  each buffer it stored into with its stores written, as a list of pieces (last store first) that the run finds.
-/
import proofs.«157909_j21131239096722_2_alg».proof.Proof.KBitsRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in this case: the pieces each stored buffer ends with, and the triple. -/
noncomputable def kernelRun0_B (c : Dev nD) (i : grid0.Coords) (arg2 : Memref sig .tc .vmem S32x128 .f32) (harg2 : arg2.IsWhole) (arg3 : Memref sig .tc .vmem S4096x128 .f32) (harg3 : arg3.IsWhole) (arg4 : Memref sig .tc .vmem S32x3 .f32) (harg4 : arg4.IsWhole) (arg5 : Memref sig .tc .vmem S1x32x128 .f32) (harg5 : arg5.IsWhole) (arg6 : Memref sig .tc .vmem S1x32x1 .f32) (harg6 : arg6.IsWhole) (arg7 : Memref sig .tc .vmem S1x32x1 .f32) (harg7 : arg7.IsWhole) (arg8 : Memref sig .tc .vmem S32x128 .f32) (harg8 : arg8.IsWhole) (arg9 : Memref sig .tc .vmem S32x1 .f32) (harg9 : arg9.IsWhole) (arg10 : Memref sig .tc .vmem S32x1 .f32) (harg10 : arg10.IsWhole) (hc0 : ¬cond0_0 i) (hc1 : ¬cond0_1 i)
    (x0 : Vec F S32x128 .f32) (x1 : Vec F S4096x128 .f32) (x2 : Vec F S32x3 .f32) (xs0 : Vec F S32x128 .f32) (xs1 : Vec F S32x1 .f32) (xs2 : Vec F S32x1 .f32) :
    Σ' (LS0 : List (View.Piece (Elt F) S32x128 .f32)) (LS1 : List (View.Piece (Elt F) S32x1 .f32)), { LS2 : List (View.Piece (Elt F) S32x1 .f32) //
      ∀ (xi3 : Vec F S1x32x128 .f32) (xi4 : Vec F S1x32x1 .f32) (xi5 : Vec F S1x32x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.KBitsRunC.lean ====
/-
  The kernel body run as the last step of a core's pass: the block is absorbed into the carried state found, which is then copied into the three outputs.
  On whole staging buffers — the three inputs at given contents, the carried buffers at the contents the step before left,
  the outputs at anything — the body runs to the end without a fault and leaves the inputs as they were and
  each buffer it stored into with its stores written, as a list of pieces (last store first) that the run finds.
-/
import proofs.«157909_j21131239096722_2_alg».proof.Proof.KBitsRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in this case: the pieces each stored buffer ends with, and the triple. -/
noncomputable def kernelRun0_C (c : Dev nD) (i : grid0.Coords) (arg2 : Memref sig .tc .vmem S32x128 .f32) (harg2 : arg2.IsWhole) (arg3 : Memref sig .tc .vmem S4096x128 .f32) (harg3 : arg3.IsWhole) (arg4 : Memref sig .tc .vmem S32x3 .f32) (harg4 : arg4.IsWhole) (arg5 : Memref sig .tc .vmem S1x32x128 .f32) (harg5 : arg5.IsWhole) (arg6 : Memref sig .tc .vmem S1x32x1 .f32) (harg6 : arg6.IsWhole) (arg7 : Memref sig .tc .vmem S1x32x1 .f32) (harg7 : arg7.IsWhole) (arg8 : Memref sig .tc .vmem S32x128 .f32) (harg8 : arg8.IsWhole) (arg9 : Memref sig .tc .vmem S32x1 .f32) (harg9 : arg9.IsWhole) (arg10 : Memref sig .tc .vmem S32x1 .f32) (harg10 : arg10.IsWhole) (hc0 : ¬cond0_0 i) (hc1 : cond0_1 i)
    (x0 : Vec F S32x128 .f32) (x1 : Vec F S4096x128 .f32) (x2 : Vec F S32x3 .f32) (xs0 : Vec F S32x128 .f32) (xs1 : Vec F S32x1 .f32) (xs2 : Vec F S32x1 .f32) :
    Σ' (L3 : List (View.Piece (Elt F) S1x32x128 .f32)) (L4 : List (View.Piece (Elt F) S1x32x1 .f32)) (L5 : List (View.Piece (Elt F) S1x32x1 .f32)) (LS0 : List (View.Piece (Elt F) S32x128 .f32)) (LS1 : List (View.Piece (Elt F) S32x1 .f32)), { LS2 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.Kernel.Hand

end
-- ==== Proof.KBitsFrame.lean ====
/-
  The frame of the kernel program: every weakly fair execution terminates without a fault and leaves the three
  arguments unchanged — together with what the three carried buffers (the weighted sum of rows, the sum of weights, the
  running maximum) and the three outputs hold after each of the eight grid points, by recursion on the point: at the
  first step of a core's pass the state is reset and the block absorbed, at a later step the block is absorbed into the
  state the step before left, and at the last step of a pass the state is also copied to the outputs.
-/
import proofs.«157909_j21131239096722_2_alg».proof.Proof.KBitsRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a grid point, case by case -/

/-- The body at a first step of a pass (point 0 or 4). -/
abbrev rA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
/-- The body at a middle step (points 1, 2, 5, 6), from the carried contents `xs·`. -/
abbrev rB (c : Dev nD) (t : Fin cfg0.N) (h0 : ¬t.val % 4 = 0) (h1 : ¬t.val % 4 = 3) (xs0 : Vec F S32x128 .f32) (xs1 : Vec F S32x1 .f32) (xs2 : Vec F S32x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) xs0 xs1 xs2
/-- The body at a last step (points 3, 7), from the carried contents `xs·`. -/
abbrev rC (c : Dev nD) (t : Fin cfg0.N) (h0 : ¬t.val % 4 = 0) (h1 : t.val % 4 = 3) (xs0 : Vec F S32x128 .f32) (xs1 : Vec F S32x1 .f32) (xs2 : Vec F S32x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) xs0 xs1 xs2

/-- What a first step leaves in carried buffer 0: its stores read back. -/
def sA_0 (c : Dev nD) (t : Fin cfg0.N) (h0 : t.val % 4 = 0) (h1 : ¬t.val % 4 = 3) : Vec F S32x128 .f32 :=
  VS0_0.read (Elt F) (VS0_0.writes (Elt F) VS0_0.junk (rA m c t h0 h1).1)
theorem scoverA_0 (c : Dev nD) (t : Fin cfg0.N) (h0 : t.val % 4 = 0) (h1 : ¬t.val % 4 = 3) (y : S32x128.Idx) :
    ∃ pc ∈ (rA m c t h0 h1).1, y ∈ pc.1.set :=
  View.cover_of_tiledL (rA m c t h0 h1).1 S32x128.size (by sl_kernel_rfl) y
/-- What a middle step leaves in carried buffer 0. -/
def sB_0 (c : Dev nD) (t : Fin cfg0.N) (h0 : ¬t.val % 4 = 0) (h1 : ¬t.val % 4 = 3) (xs0 : Vec F S32x128 .f32) (xs1 : Vec F S32x1 .f32) (xs2 : Vec F S32x1 .f32) : Vec F S32x128 .f32 :=
  VS0_0.read (Elt F) (VS0_0.writes (Elt F) VS0_0.junk (rB m c t h0 h1 xs0 xs1 xs2).1)
theorem scoverB_0 (c : Dev nD) (t : Fin cfg0.N) (h0 : ¬t.val % 4 = 0) (h1 : ¬t.val % 4 = 3) (xs0 : Vec F S32x128 .f32) (xs1 : Vec F S32x1 .f32) (xs2 : Vec F S32x1 .f32) (y : S32x128.Idx) :
    ∃ pc ∈ (rB m c t h0 h1 xs0 xs1 xs2).1, y ∈ pc.1.set :=
  View.cover_of_tiledL (rB m c t h0 h1 xs0 xs1 xs2).1 S32x128.size (by sl_kernel_rfl) y
/-- What a last step leaves in carried buffer 0. -/
def sC_0 (c : Dev nD) (t : Fin cfg0.N) (h0 : ¬t.val % 4 = 0) (h1 : t.val % 4 = 3) (xs0 : Vec F S32x128 .f32) (xs1 : Vec F S32x1 .f32) (xs2 : Vec F S32x1 .f32) : Vec F S32x128 .f32 :=
  VS0_0.read (Elt F) (VS0_0.writes (Elt F) VS0_0.junk (rC m c t h0 h1 xs0 xs1 xs2).2.2.2.1)
theorem scoverC_0 (c : Dev nD) (t : Fin cfg0.N) (h0 : ¬t.val % 4 = 0) (h1 : t.val % 4 = 3) (xs0 : Vec F S32x128 .f32) (xs1 : Vec F S32x1 .f32) (xs2 : Vec F S32x1 .f32) (y : S32x128.Idx) :
    ∃ pc ∈ (rC m c t h0 h1 xs0 xs1 xs2).2.2.2.1, y ∈ pc.1.set :=
  View.cover_of_tiledL (rC m c t h0 h1 xs0 xs1 xs2).2.2.2.1 S32x128.size (by sl_kernel_rfl) y

/-- What a first step leaves in carried buffer 1: its stores read back. -/
def sA_1 (c : Dev nD) (t : Fin cfg0.N) (h0 : t.val % 4 = 0) (h1 : ¬t.val % 4 = 3) : Vec F S32x1 .f32 :=
  VS0_1.read (Elt F) (VS0_1.writes (Elt F) VS0_1.junk (rA m c t h0 h1).2.1)
theorem scoverA_1 (c : Dev nD) (t : Fin cfg0.N) (h0 : t.val % 4 = 0) (h1 : ¬t.val % 4 = 3) (y : S32x1.Idx) :
    ∃ pc ∈ (rA m c t h0 h1).2.1, y ∈ pc.1.set :=
  View.cover_of_tiledL (rA m c t h0 h1).2.1 S32x1.size (by sl_kernel_rfl) y
/-- What a middle step leaves in carried buffer 1. -/
def sB_1 (c : Dev nD) (t : Fin cfg0.N) (h0 : ¬t.val % 4 = 0) (h1 : ¬t.val % 4 = 3) (xs0 : Vec F S32x128 .f32) (xs1 : Vec F S32x1 .f32) (xs2 : Vec F S32x1 .f32) : Vec F S32x1 .f32 :=
  VS0_1.read (Elt F) (VS0_1.writes (Elt F) VS0_1.junk (rB m c t h0 h1 xs0 xs1 xs2).2.1)
theorem scoverB_1 (c : Dev nD) (t : Fin cfg0.N) (h0 : ¬t.val % 4 = 0) (h1 : ¬t.val % 4 = 3) (xs0 : Vec F S32x128 .f32) (xs1 : Vec F S32x1 .f32) (xs2 : Vec F S32x1 .f32) (y : S32x1.Idx) :
    ∃ pc ∈ (rB m c t h0 h1 xs0 xs1 xs2).2.1, y ∈ pc.1.set :=
  View.cover_of_tiledL (rB m c t h0 h1 xs0 xs1 xs2).2.1 S32x1.size (by sl_kernel_rfl) y
/-- What a last step leaves in carried buffer 1. -/
def sC_1 (c : Dev nD) (t : Fin cfg0.N) (h0 : ¬t.val % 4 = 0) (h1 : t.val % 4 = 3) (xs0 : Vec F S32x128 .f32) (xs1 : Vec F S32x1 .f32) (xs2 : Vec F S32x1 .f32) : Vec F S32x1 .f32 :=
  VS0_1.read (Elt F) (VS0_1.writes (Elt F) VS0_1.junk (rC m c t h0 h1 xs0 xs1 xs2).2.2.2.2.1)
theorem scoverC_1 (c : Dev nD) (t : Fin cfg0.N) (h0 : ¬t.val % 4 = 0) (h1 : t.val % 4 = 3) (xs0 : Vec F S32x128 .f32) (xs1 : Vec F S32x1 .f32) (xs2 : Vec F S32x1 .f32) (y : S32x1.Idx) :
    ∃ pc ∈ (rC m c t h0 h1 xs0 xs1 xs2).2.2.2.2.1, y ∈ pc.1.set :=
  View.cover_of_tiledL (rC m c t h0 h1 xs0 xs1 xs2).2.2.2.2.1 S32x1.size (by sl_kernel_rfl) y

/-- What a first step leaves in carried buffer 2: its stores read back. -/
def sA_2 (c : Dev nD) (t : Fin cfg0.N) (h0 : t.val % 4 = 0) (h1 : ¬t.val % 4 = 3) : Vec F S32x1 .f32 :=
  VS0_2.read (Elt F) (VS0_2.writes (Elt F) VS0_2.junk (rA m c t h0 h1).2.2.1)
theorem scoverA_2 (c : Dev nD) (t : Fin cfg0.N) (h0 : t.val % 4 = 0) (h1 : ¬t.val % 4 = 3) (y : S32x1.Idx) :
    ∃ pc ∈ (rA m c t h0 h1).2.2.1, y ∈ pc.1.set :=
  View.cover_of_tiledL (rA m c t h0 h1).2.2.1 S32x1.size (by sl_kernel_rfl) y
/-- What a middle step leaves in carried buffer 2. -/
def sB_2 (c : Dev nD) (t : Fin cfg0.N) (h0 : ¬t.val % 4 = 0) (h1 : ¬t.val % 4 = 3) (xs0 : Vec F S32x128 .f32) (xs1 : Vec F S32x1 .f32) (xs2 : Vec F S32x1 .f32) : Vec F S32x1 .f32 :=
  VS0_2.read (Elt F) (VS0_2.writes (Elt F) VS0_2.junk (rB m c t h0 h1 xs0 xs1 xs2).2.2.1)
theorem scoverB_2 (c : Dev nD) (t : Fin cfg0.N) (h0 : ¬t.val % 4 = 0) (h1 : ¬t.val % 4 = 3) (xs0 : Vec F S32x128 .f32) (xs1 : Vec F S32x1 .f32) (xs2 : Vec F S32x1 .f32) (y : S32x1.Idx) :
    ∃ pc ∈ (rB m c t h0 h1 xs0 xs1 xs2).2.2.1, y ∈ pc.1.set :=
  View.cover_of_tiledL (rB m c t h0 h1 xs0 xs1 xs2).2.2.1 S32x1.size (by sl_kernel_rfl) y
/-- What a last step leaves in carried buffer 2. -/
def sC_2 (c : Dev nD) (t : Fin cfg0.N) (h0 : ¬t.val % 4 = 0) (h1 : t.val % 4 = 3) (xs0 : Vec F S32x128 .f32) (xs1 : Vec F S32x1 .f32) (xs2 : Vec F S32x1 .f32) : Vec F S32x1 .f32 :=
  VS0_2.read (Elt F) (VS0_2.writes (Elt F) VS0_2.junk (rC m c t h0 h1 xs0 xs1 xs2).2.2.2.2.2.1)
theorem scoverC_2 (c : Dev nD) (t : Fin cfg0.N) (h0 : ¬t.val % 4 = 0) (h1 : t.val % 4 = 3) (xs0 : Vec F S32x128 .f32) (xs1 : Vec F S32x1 .f32) (xs2 : Vec F S32x1 .f32) (y : S32x1.Idx) :
    ∃ pc ∈ (rC m c t h0 h1 xs0 xs1 xs2).2.2.2.2.2.1, y ∈ pc.1.set :=
  View.cover_of_tiledL (rC m c t h0 h1 xs0 xs1 xs2).2.2.2.2.2.1 S32x1.size (by sl_kernel_rfl) y

/-- What a last step leaves in output window 3's staging buffer. -/
def oC_3 (c : Dev nD) (t : Fin cfg0.N) (h0 : ¬t.val % 4 = 0) (h1 : t.val % 4 = 3) (xs0 : Vec F S32x128 .f32) (xs1 : Vec F S32x1 .f32) (xs2 : Vec F S32x1 .f32) : Vec F S1x32x128 .f32 :=
  VO0_3.read (Elt F) (VO0_3.writes (Elt F) VO0_3.junk (rC m c t h0 h1 xs0 xs1 xs2).1)
theorem coverC_3 (c : Dev nD) (t : Fin cfg0.N) (h0 : ¬t.val % 4 = 0) (h1 : t.val % 4 = 3) (xs0 : Vec F S32x128 .f32) (xs1 : Vec F S32x1 .f32) (xs2 : Vec F S32x1 .f32) (y : S1x32x128.Idx) :
    ∃ pc ∈ (rC m c t h0 h1 xs0 xs1 xs2).1, y ∈ pc.1.set :=
  View.cover_of_tiledL (rC m c t h0 h1 xs0 xs1 xs2).1 S1x32x128.size (by sl_kernel_rfl) y
/-- Where an output is idle nothing consults its component: a placeholder. -/
def idle_3 : Vec F S1x32x128 .f32 := VO0_3.read (Elt F) VO0_3.junk

/-- What a last step leaves in output window 4's staging buffer. -/
def oC_4 (c : Dev nD) (t : Fin cfg0.N) (h0 : ¬t.val % 4 = 0) (h1 : t.val % 4 = 3) (xs0 : Vec F S32x128 .f32) (xs1 : Vec F S32x1 .f32) (xs2 : Vec F S32x1 .f32) : Vec F S1x32x1 .f32 :=
  VO0_4.read (Elt F) (VO0_4.writes (Elt F) VO0_4.junk (rC m c t h0 h1 xs0 xs1 xs2).2.1)
theorem coverC_4 (c : Dev nD) (t : Fin cfg0.N) (h0 : ¬t.val % 4 = 0) (h1 : t.val % 4 = 3) (xs0 : Vec F S32x128 .f32) (xs1 : Vec F S32x1 .f32) (xs2 : Vec F S32x1 .f32) (y : S1x32x1.Idx) :
    ∃ pc ∈ (rC m c t h0 h1 xs0 xs1 xs2).2.1, y ∈ pc.1.set :=
  View.cover_of_tiledL (rC m c t h0 h1 xs0 xs1 xs2).2.1 S1x32x1.size (by sl_kernel_rfl) y
/-- Where an output is idle nothing consults its component: a placeholder. -/
def idle_4 : Vec F S1x32x1 .f32 := VO0_4.read (Elt F) VO0_4.junk

/-- What a last step leaves in output window 5's staging buffer. -/
def oC_5 (c : Dev nD) (t : Fin cfg0.N) (h0 : ¬t.val % 4 = 0) (h1 : t.val % 4 = 3) (xs0 : Vec F S32x128 .f32) (xs1 : Vec F S32x1 .f32) (xs2 : Vec F S32x1 .f32) : Vec F S1x32x1 .f32 :=
  VO0_5.read (Elt F) (VO0_5.writes (Elt F) VO0_5.junk (rC m c t h0 h1 xs0 xs1 xs2).2.2.1)
theorem coverC_5 (c : Dev nD) (t : Fin cfg0.N) (h0 : ¬t.val % 4 = 0) (h1 : t.val % 4 = 3) (xs0 : Vec F S32x128 .f32) (xs1 : Vec F S32x1 .f32) (xs2 : Vec F S32x1 .f32) (y : S1x32x1.Idx) :
    ∃ pc ∈ (rC m c t h0 h1 xs0 xs1 xs2).2.2.1, y ∈ pc.1.set :=
  View.cover_of_tiledL (rC m c t h0 h1 xs0 xs1 xs2).2.2.1 S1x32x1.size (by sl_kernel_rfl) y
/-- Where an output is idle nothing consults its component: a placeholder. -/
def idle_5 : Vec F S1x32x1 .f32 := VO0_5.read (Elt F) VO0_5.junk

/-! ## The state after each point -/

/-- The outputs' staging buffers (windows 3, 4, 5) and the carried buffers (0, 1, 2) after the body. -/
abbrev St (F : FTy → Type) [FloatOps F] : Type := Vec F S1x32x128 .f32 × Vec F S1x32x1 .f32 × Vec F S1x32x1 .f32 × Vec F S32x128 .f32 × Vec F S32x1 .f32 × Vec F S32x1 .f32

/-- A placeholder state (before the first point: nothing consults it, the first point resets). -/
def st0 : St F := (idle_3, idle_4, idle_5, VS0_0.read (Elt F) VS0_0.junk, VS0_1.read (Elt F) VS0_1.junk, VS0_2.read (Elt F) VS0_2.junk)

/-- One point: the case its position in the pass selects, from the state the point before left. -/
def stepAt (c : Dev nD) (t : Fin cfg0.N) (p : St F) : St F :=
  if h0 : t.val % 4 = 0 then
    (idle_3, idle_4, idle_5, sA_0 m c t h0 (by omega), sA_1 m c t h0 (by omega), sA_2 m c t h0 (by omega))
  else if h1 : t.val % 4 = 3 then
    (oC_3 m c t h0 h1 p.2.2.2.1 p.2.2.2.2.1 p.2.2.2.2.2, oC_4 m c t h0 h1 p.2.2.2.1 p.2.2.2.2.1 p.2.2.2.2.2, oC_5 m c t h0 h1 p.2.2.2.1 p.2.2.2.2.1 p.2.2.2.2.2,
     sC_0 m c t h0 h1 p.2.2.2.1 p.2.2.2.2.1 p.2.2.2.2.2, sC_1 m c t h0 h1 p.2.2.2.1 p.2.2.2.2.1 p.2.2.2.2.2, sC_2 m c t h0 h1 p.2.2.2.1 p.2.2.2.2.1 p.2.2.2.2.2)
  else
    (idle_3, idle_4, idle_5, sB_0 m c t h0 h1 p.2.2.2.1 p.2.2.2.2.1 p.2.2.2.2.2, sB_1 m c t h0 h1 p.2.2.2.1 p.2.2.2.2.1 p.2.2.2.2.2, sB_2 m c t h0 h1 p.2.2.2.1 p.2.2.2.2.1 p.2.2.2.2.2)

theorem stepAt_A (c : Dev nD) (t : Fin cfg0.N) (p : St F) (h0 : t.val % 4 = 0) (h1 : ¬t.val % 4 = 3) :
    stepAt m c t p = (idle_3, idle_4, idle_5, sA_0 m c t h0 h1, sA_1 m c t h0 h1, sA_2 m c t h0 h1) := by
  unfold stepAt; rw [dif_pos h0]
theorem stepAt_B (c : Dev nD) (t : Fin cfg0.N) (p : St F) (h0 : ¬t.val % 4 = 0) (h1 : ¬t.val % 4 = 3) :
    stepAt m c t p = (idle_3, idle_4, idle_5, sB_0 m c t h0 h1 p.2.2.2.1 p.2.2.2.2.1 p.2.2.2.2.2, sB_1 m c t h0 h1 p.2.2.2.1 p.2.2.2.2.1 p.2.2.2.2.2, sB_2 m c t h0 h1 p.2.2.2.1 p.2.2.2.2.1 p.2.2.2.2.2) := by
  unfold stepAt; rw [dif_neg h0, dif_neg h1]
theorem stepAt_C (c : Dev nD) (t : Fin cfg0.N) (p : St F) (h0 : ¬t.val % 4 = 0) (h1 : t.val % 4 = 3) :
    stepAt m c t p = (oC_3 m c t h0 h1 p.2.2.2.1 p.2.2.2.2.1 p.2.2.2.2.2, oC_4 m c t h0 h1 p.2.2.2.1 p.2.2.2.2.1 p.2.2.2.2.2, oC_5 m c t h0 h1 p.2.2.2.1 p.2.2.2.2.1 p.2.2.2.2.2,
     sC_0 m c t h0 h1 p.2.2.2.1 p.2.2.2.2.1 p.2.2.2.2.2, sC_1 m c t h0 h1 p.2.2.2.1 p.2.2.2.2.1 p.2.2.2.2.2, sC_2 m c t h0 h1 p.2.2.2.1 p.2.2.2.2.1 p.2.2.2.2.2) := by
  unfold stepAt; rw [dif_neg h0, dif_pos h1]

/-- THE RECURSION: the state after the body at position `n`. -/
def outsAt0 (c : Dev nD) : (n : ℕ) → n < cfg0.N → St F
  | 0, hn => stepAt m c ⟨0, hn⟩ st0
  | n + 1, hn => stepAt m c ⟨n + 1, hn⟩ (outsAt0 c n (Nat.lt_of_succ_lt hn))

theorem outsAt0_first (c : Dev nD) (t : Fin cfg0.N) (hz : t.val = 0) : outsAt0 m c t.val t.isLt = stepAt m c t st0 := by
  obtain ⟨n, hn⟩ := t
  cases n with
  | zero => rfl
  | succ n => exact absurd hz (Nat.succ_ne_zero n)
theorem outsAt0_later (c : Dev nD) (t : Fin cfg0.N) (hz : t.val ≠ 0) :
    outsAt0 m c t.val t.isLt = stepAt m c t (outsAt0 m c (t.val - 1) (Nat.lt_of_le_of_lt (Nat.sub_le _ _) t.isLt)) := by
  obtain ⟨n, hn⟩ := t
  cases n with
  | zero => exact absurd rfl hz
  | succ n => rfl
/-- At a first step of a pass the state does not depend on what came before. -/
theorem outsAt0_A (c : Dev nD) (t : Fin cfg0.N) (h0 : t.val % 4 = 0) (h1 : ¬t.val % 4 = 3) :
    outsAt0 m c t.val t.isLt = (idle_3, idle_4, idle_5, sA_0 m c t h0 h1, sA_1 m c t h0 h1, sA_2 m c t h0 h1) := by
  by_cases hz : t.val = 0
  · rw [outsAt0_first m c t hz, stepAt_A m c t _ h0 h1]
  · rw [outsAt0_later m c t hz, stepAt_A m c t _ h0 h1]

/-- The carried part of the state before position `n ≥ 1`. -/
abbrev prev (c : Dev nD) (n : ℕ) (hn : n < cfg0.N) : St F := outsAt0 m c n hn

/-- The region's invariant before position `n`: before the first point the carried buffers hold anything; afterwards
    each holds what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

/-! ## The proof data -/

/-- The arrays as the region finds them; after the body each input's buffer at its block and each output's at the
    state's component; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 8000000 in
/-- The body at any point. The inputs' buffers hold their blocks; the point's position in its pass selects the case;
    the invariant hands the body the carried buffers at what the point before left (at anything at the very first
    point) and takes them back at this point's contents; idle outputs are handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 4 = 0
  · have h1 : ¬t.val % 4 = 3 := by omega
    rw [Dat.leavesExact_idle (dats m 0 c) 3 t (idleAt0_3 t (fun h => h1 ((hcond0_1 t).mp h))) (noFlush0_3 t (fun h => h1 ((hcond0_1 t).mp h)))]
    rw [Dat.leavesExact_idle (dats m 0 c) 4 t (idleAt0_4 t (fun h => h1 ((hcond0_1 t).mp h))) (noFlush0_4 t (fun h => h1 ((hcond0_1 t).mp h)))]
    rw [Dat.leavesExact_idle (dats m 0 c) 5 t (idleAt0_5 t (fun h => h1 ((hcond0_1 t).mp h))) (noFlush0_5 t (fun h => h1 ((hcond0_1 t).mp h)))]
    rw [outsAt0_A m c t h0 h1]
    unfold sA_0 sA_1 sA_2; (try dsimp only)
    by_cases hz : t.val = 0
    ·
      rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((rA m c t h0 h1).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          ·
            unfold owns; iexists _; isplitr
            swap; · iexact HS0
            ipureintro; exact View.read_writes_of_cover _ _ _ _ _ (scoverA_0 m c t h0 h1)
          isplitl [HS1]
          ·
            unfold owns; iexists _; isplitr
            swap; · iexact HS1
            ipureintro; exact View.read_writes_of_cover _ _ _ _ _ (scoverA_1 m c t h0 h1)
          unfold owns; iexists _; isplitr
          swap; · iexact HS2
          ipureintro; exact View.read_writes_of_cover _ _ _ _ _ (scoverA_2 m c t h0 h1)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    ·
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((rA m c t h0 h1).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          ·
            unfold owns; iexists _; isplitr
            swap; · iexact HS0
            ipureintro; exact View.read_writes_of_cover _ _ _ _ _ (scoverA_0 m c t h0 h1)
          isplitl [HS1]
          ·
            unfold owns; iexists _; isplitr
            swap; · iexact HS1
            ipureintro; exact View.read_writes_of_cover _ _ _ _ _ (scoverA_1 m c t h0 h1)
          unfold owns; iexists _; isplitr
          swap; · iexact HS2
          ipureintro; exact View.read_writes_of_cover _ _ _ _ _ (scoverA_2 m c t h0 h1)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
  · have hz : t.val ≠ 0 := fun h => h0 (by rw [h])
    rw [PhiS_castSucc m c t, PhiS_pos m c _ _ hz, outsAt0_later m c t hz]
    by_cases h1 : t.val % 4 = 3
    ·
      rw [show (dats m 0 c).leavesExact 3 t = owns (c : Thread nD τ) (ms0_3 t) fullShare ((dats m 0 c).after 3 t) from by
        unfold Dat.leavesExact; rw [liveAt0_3 t ((hcond0_1 t).mpr h1)], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_later m c t hz, stepAt_C m c t _ h0 h1]
      unfold oC_3 oC_4 oC_5 sC_0 sC_1 sC_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((rC m c t h0 h1 _ _ _).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, ⟨%e3, H3⟩, ⟨%e4, H4⟩, ⟨%e5, H5⟩, ⟨%es0, HS0⟩, ⟨%es1, HS1⟩, ⟨%es2, HS2⟩⟩
      isplitl [HS0 HS1 HS2 Hg]
      · isplitl [HS0 HS1 HS2]
        · isplitl [HS0]
          ·
            unfold owns; iexists _; isplitr
            swap; · iexact HS0
            ipureintro; exact View.read_writes_of_cover _ _ _ _ _ (scoverC_0 m c t h0 h1 _ _ _)
          isplitl [HS1]
          ·
            unfold owns; iexists _; isplitr
            swap; · iexact HS1
            ipureintro; exact View.read_writes_of_cover _ _ _ _ _ (scoverC_1 m c t h0 h1 _ _ _)
          unfold owns; iexists _; isplitr
          swap; · iexact HS2
          ipureintro; exact View.read_writes_of_cover _ _ _ _ _ (scoverC_2 m c t h0 h1 _ _ _)
        iexact Hg
      isplitl [Ho]; · iexact Ho
      isplitl [H0]; · iexact H0
      isplitl [H1]; · iexact H1
      isplitl [H2]; · iexact H2
      isplitl [H3]
      ·
        unfold owns; iexists _; isplitr
        swap; · iexact H3
        ipureintro; exact View.read_writes_of_cover _ _ _ _ _ (coverC_3 m c t h0 h1 _ _ _)
      isplitl [H4]
      ·
        unfold owns; iexists _; isplitr
        swap; · iexact H4
        ipureintro; exact View.read_writes_of_cover _ _ _ _ _ (coverC_4 m c t h0 h1 _ _ _)
      unfold owns; iexists _; isplitr
      swap; · iexact H5
      ipureintro; exact View.read_writes_of_cover _ _ _ _ _ (coverC_5 m c t h0 h1 _ _ _)
    ·
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [stepAt_B m c t _ h0 h1]
      unfold sB_0 sB_1 sB_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((rB m c t h0 h1 _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          ·
            unfold owns; iexists _; isplitr
            swap; · iexact HS0
            ipureintro; exact View.read_writes_of_cover _ _ _ _ _ (scoverB_0 m c t h0 h1 _ _ _)
          isplitl [HS1]
          ·
            unfold owns; iexists _; isplitr
            swap; · iexact HS1
            ipureintro; exact View.read_writes_of_cover _ _ _ _ _ (scoverB_1 m c t h0 h1 _ _ _)
          unfold owns; iexists _; isplitr
          swap; · iexact HS2
          ipureintro; exact View.read_writes_of_cover _ _ _ _ _ (scoverB_2 m c t h0 h1 _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The body obligation of the region, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the carried buffers' named contents can be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of the program terminates without a fault; afterwards every array of the region holds
    what the proof data says and every other buffer what the host operations after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KIdealKit.lean ====
/-
  The kernel program around its one pipelined region: what the region finds in each array when it is entered (the
  host operations before it applied to the launch memory), that the arguments are among the arrays nothing before or
  after the region writes, each input window's block at a grid point, the two conditions of the body (first step of
  a core's pass; last step of a core's pass) in closed form over the eight grid points, where the three output
  windows are idle, and the frame claim read off a run of the region with its host operations around it.
-/
import proofs.«157909_j21131239096722_2_alg».proof.Proof.Gen.KernelIdeal.Launch
import proofs.«157909_j21131239096722_2_alg».proof.Proof.Gen.KernelIdeal.Skeleton
import proofs.«157909_j21131239096722_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What each buffer of core `c` holds when the region is entered: the launch memory after the host operations
    that precede the region (the per-row constants `c`, `k1`, `k2` stacked into one array among them). -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only arrays of the region and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes an array of the region: each writes its own result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes the first argument (the query rows). -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the second (the per-row mixing weights). -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor the third (the data bank). -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The second argument is no array of the region, and no host operation after the region writes it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query rows' staging buffer holds the whole array at every point (fetched once, never moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The data bank's current staging buffer holds the point's block of 4096 rows (fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The stacked per-row constants' staging buffer holds the whole array at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region with the host operations around it -/

/-- A run whose post has every array of the region at what the proof data says, and every other buffer as the host
    operations after the region leave it, is the frame claim: the query rows and the data bank are input windows
    (they end as the region found them, which is as launched), the mixing weights bypass the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).1 1).trans (((dats 0 c).arrAt_in 1 rfl _).trans ((hA c 1).trans (V_main_arg2 m c)))⟩) h

/-! ## The body's two conditions, over the grid -/

/-- "This is the first step of the core's pass" (the second grid coordinate is 0): the carried state is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last step of the core's pass" (the second grid coordinate is 3): the carried state is written out. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a pass's last step the three outputs are idle and not written back. -/
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- At a pass's last step they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S32x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x1 .f32 := win0_5.stage (cfg0.slots t 5)
abbrev hs0_5 (t : Fin cfg0.N) : (ms0_5 t).IsWhole := hstage0_5 ((cfg0.slots t 5).cast nbuf0_5)
/-- The three carried buffers: the weighted sum of rows, the sum of weights, the running maximum. -/
abbrev scM0_0 : Memref sig .tc .vmem S32x128 .f32 := Memref.whole cc0_scratch0
abbrev scM0_1 : Memref sig .tc .vmem S32x1 .f32 := Memref.whole cc0_scratch1
abbrev scM0_2 : Memref sig .tc .vmem S32x1 .f32 := Memref.whole cc0_scratch2
abbrev VS0_0 : View sig .tc .vmem S32x128 .f32 := scM0_0.view
abbrev VS0_1 : View sig .tc .vmem S32x1 .f32 := scM0_1.view
abbrev VS0_2 : View sig .tc .vmem S32x1 .f32 := scM0_2.view
/-- One staging buffer of each output window, through which its contents are stated. -/
abbrev VO0_3 : View sig .tc .vmem S1x32x128 .f32 := (Memref.whole cc0_stg3_0 : Memref sig .tc .vmem S1x32x128 .f32).view
abbrev VO0_4 : View sig .tc .vmem S1x32x1 .f32 := (Memref.whole cc0_stg4_0 : Memref sig .tc .vmem S1x32x1 .f32).view
abbrev VO0_5 : View sig .tc .vmem S1x32x1 .f32 := (Memref.whole cc0_stg5_0 : Memref sig .tc .vmem S1x32x1 .f32).view

/-- What the region's invariant hands the body: the three carried buffers, each owned whole at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KIdealRunA.lean ====
/-
  The kernel body run as the first step of a core's pass: the carried state is reset (to zero sums and a running maximum of minus infinity) before the block is absorbed; the outputs are not touched.
  On whole staging buffers — the three inputs at given contents, the carried buffers at anything,
  the outputs at contents handed back untouched — the body runs to the end without a fault and leaves the inputs as they were and
  each buffer it stored into with its stores written, as a list of pieces (last store first) that the run finds.
-/
import proofs.«157909_j21131239096722_2_alg».proof.Proof.KIdealKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in this case: the pieces each stored buffer ends with, and the triple. -/
noncomputable def kernelRun0_A (c : Dev nD) (i : grid0.Coords) (arg2 : Memref sig .tc .vmem S32x128 .f32) (harg2 : arg2.IsWhole) (arg3 : Memref sig .tc .vmem S4096x128 .f32) (harg3 : arg3.IsWhole) (arg4 : Memref sig .tc .vmem S32x3 .f32) (harg4 : arg4.IsWhole) (arg5 : Memref sig .tc .vmem S1x32x128 .f32) (harg5 : arg5.IsWhole) (arg6 : Memref sig .tc .vmem S1x32x1 .f32) (harg6 : arg6.IsWhole) (arg7 : Memref sig .tc .vmem S1x32x1 .f32) (harg7 : arg7.IsWhole) (arg8 : Memref sig .tc .vmem S32x128 .f32) (harg8 : arg8.IsWhole) (arg9 : Memref sig .tc .vmem S32x1 .f32) (harg9 : arg9.IsWhole) (arg10 : Memref sig .tc .vmem S32x1 .f32) (harg10 : arg10.IsWhole) (hc0 : cond0_0 i) (hc1 : ¬cond0_1 i)
    (x0 : Vec F S32x128 .f32) (x1 : Vec F S4096x128 .f32) (x2 : Vec F S32x3 .f32) :
    Σ' (LS0 : List (View.Piece (Elt F) S32x128 .f32)) (LS1 : List (View.Piece (Elt F) S32x1 .f32)), { LS2 : List (View.Piece (Elt F) S32x1 .f32) //
      ∀ (xi3 : Vec F S1x32x128 .f32) (xi4 : Vec F S1x32x1 .f32) (xi5 : Vec F S1x32x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KIdealRunB.lean ====
/-
  The kernel body run as a middle step of a core's pass: the block is absorbed into the carried state found; the outputs are not touched.
  On whole staging buffers — the three inputs at given contents, the carried buffers at the contents the step before left,
  the outputs at contents handed back untouched — the body runs to the end without a fault and leaves the inputs as they were and
  each buffer it stored into with its stores written, as a list of pieces (last store first) that the run finds.
-/
import proofs.«157909_j21131239096722_2_alg».proof.Proof.KIdealRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in this case: the pieces each stored buffer ends with, and the triple. -/
noncomputable def kernelRun0_B (c : Dev nD) (i : grid0.Coords) (arg2 : Memref sig .tc .vmem S32x128 .f32) (harg2 : arg2.IsWhole) (arg3 : Memref sig .tc .vmem S4096x128 .f32) (harg3 : arg3.IsWhole) (arg4 : Memref sig .tc .vmem S32x3 .f32) (harg4 : arg4.IsWhole) (arg5 : Memref sig .tc .vmem S1x32x128 .f32) (harg5 : arg5.IsWhole) (arg6 : Memref sig .tc .vmem S1x32x1 .f32) (harg6 : arg6.IsWhole) (arg7 : Memref sig .tc .vmem S1x32x1 .f32) (harg7 : arg7.IsWhole) (arg8 : Memref sig .tc .vmem S32x128 .f32) (harg8 : arg8.IsWhole) (arg9 : Memref sig .tc .vmem S32x1 .f32) (harg9 : arg9.IsWhole) (arg10 : Memref sig .tc .vmem S32x1 .f32) (harg10 : arg10.IsWhole) (hc0 : ¬cond0_0 i) (hc1 : ¬cond0_1 i)
    (x0 : Vec F S32x128 .f32) (x1 : Vec F S4096x128 .f32) (x2 : Vec F S32x3 .f32) (xs0 : Vec F S32x128 .f32) (xs1 : Vec F S32x1 .f32) (xs2 : Vec F S32x1 .f32) :
    Σ' (LS0 : List (View.Piece (Elt F) S32x128 .f32)) (LS1 : List (View.Piece (Elt F) S32x1 .f32)), { LS2 : List (View.Piece (Elt F) S32x1 .f32) //
      ∀ (xi3 : Vec F S1x32x128 .f32) (xi4 : Vec F S1x32x1 .f32) (xi5 : Vec F S1x32x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KIdealRunC.lean ====
/-
  The kernel body run as the last step of a core's pass: the block is absorbed into the carried state found, which is then copied into the three outputs.
  On whole staging buffers — the three inputs at given contents, the carried buffers at the contents the step before left,
  the outputs at anything — the body runs to the end without a fault and leaves the inputs as they were and
  each buffer it stored into with its stores written, as a list of pieces (last store first) that the run finds.
-/
import proofs.«157909_j21131239096722_2_alg».proof.Proof.KIdealRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in this case: the pieces each stored buffer ends with, and the triple. -/
noncomputable def kernelRun0_C (c : Dev nD) (i : grid0.Coords) (arg2 : Memref sig .tc .vmem S32x128 .f32) (harg2 : arg2.IsWhole) (arg3 : Memref sig .tc .vmem S4096x128 .f32) (harg3 : arg3.IsWhole) (arg4 : Memref sig .tc .vmem S32x3 .f32) (harg4 : arg4.IsWhole) (arg5 : Memref sig .tc .vmem S1x32x128 .f32) (harg5 : arg5.IsWhole) (arg6 : Memref sig .tc .vmem S1x32x1 .f32) (harg6 : arg6.IsWhole) (arg7 : Memref sig .tc .vmem S1x32x1 .f32) (harg7 : arg7.IsWhole) (arg8 : Memref sig .tc .vmem S32x128 .f32) (harg8 : arg8.IsWhole) (arg9 : Memref sig .tc .vmem S32x1 .f32) (harg9 : arg9.IsWhole) (arg10 : Memref sig .tc .vmem S32x1 .f32) (harg10 : arg10.IsWhole) (hc0 : ¬cond0_0 i) (hc1 : cond0_1 i)
    (x0 : Vec F S32x128 .f32) (x1 : Vec F S4096x128 .f32) (x2 : Vec F S32x3 .f32) (xs0 : Vec F S32x128 .f32) (xs1 : Vec F S32x1 .f32) (xs2 : Vec F S32x1 .f32) :
    Σ' (L3 : List (View.Piece (Elt F) S1x32x128 .f32)) (L4 : List (View.Piece (Elt F) S1x32x1 .f32)) (L5 : List (View.Piece (Elt F) S1x32x1 .f32)) (LS0 : List (View.Piece (Elt F) S32x128 .f32)) (LS1 : List (View.Piece (Elt F) S32x1 .f32)), { LS2 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.KernelIdeal.Hand

end
-- ==== Proof.KIdealFrame.lean ====
/-
  The frame of the kernel program: every weakly fair execution terminates without a fault and leaves the three
  arguments unchanged — together with what the three carried buffers (the weighted sum of rows, the sum of weights, the
  running maximum) and the three outputs hold after each of the eight grid points, by recursion on the point: at the
  first step of a core's pass the state is reset and the block absorbed, at a later step the block is absorbed into the
  state the step before left, and at the last step of a pass the state is also copied to the outputs.
-/
import proofs.«157909_j21131239096722_2_alg».proof.Proof.KIdealRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a grid point, case by case -/

/-- The body at a first step of a pass (point 0 or 4). -/
abbrev rA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
/-- The body at a middle step (points 1, 2, 5, 6), from the carried contents `xs·`. -/
abbrev rB (c : Dev nD) (t : Fin cfg0.N) (h0 : ¬t.val % 4 = 0) (h1 : ¬t.val % 4 = 3) (xs0 : Vec F S32x128 .f32) (xs1 : Vec F S32x1 .f32) (xs2 : Vec F S32x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) xs0 xs1 xs2
/-- The body at a last step (points 3, 7), from the carried contents `xs·`. -/
abbrev rC (c : Dev nD) (t : Fin cfg0.N) (h0 : ¬t.val % 4 = 0) (h1 : t.val % 4 = 3) (xs0 : Vec F S32x128 .f32) (xs1 : Vec F S32x1 .f32) (xs2 : Vec F S32x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) xs0 xs1 xs2

/-- What a first step leaves in carried buffer 0: its stores read back. -/
def sA_0 (c : Dev nD) (t : Fin cfg0.N) (h0 : t.val % 4 = 0) (h1 : ¬t.val % 4 = 3) : Vec F S32x128 .f32 :=
  VS0_0.read (Elt F) (VS0_0.writes (Elt F) VS0_0.junk (rA m c t h0 h1).1)
theorem scoverA_0 (c : Dev nD) (t : Fin cfg0.N) (h0 : t.val % 4 = 0) (h1 : ¬t.val % 4 = 3) (y : S32x128.Idx) :
    ∃ pc ∈ (rA m c t h0 h1).1, y ∈ pc.1.set :=
  View.cover_of_tiledL (rA m c t h0 h1).1 S32x128.size (by sl_kernel_rfl) y
/-- What a middle step leaves in carried buffer 0. -/
def sB_0 (c : Dev nD) (t : Fin cfg0.N) (h0 : ¬t.val % 4 = 0) (h1 : ¬t.val % 4 = 3) (xs0 : Vec F S32x128 .f32) (xs1 : Vec F S32x1 .f32) (xs2 : Vec F S32x1 .f32) : Vec F S32x128 .f32 :=
  VS0_0.read (Elt F) (VS0_0.writes (Elt F) VS0_0.junk (rB m c t h0 h1 xs0 xs1 xs2).1)
theorem scoverB_0 (c : Dev nD) (t : Fin cfg0.N) (h0 : ¬t.val % 4 = 0) (h1 : ¬t.val % 4 = 3) (xs0 : Vec F S32x128 .f32) (xs1 : Vec F S32x1 .f32) (xs2 : Vec F S32x1 .f32) (y : S32x128.Idx) :
    ∃ pc ∈ (rB m c t h0 h1 xs0 xs1 xs2).1, y ∈ pc.1.set :=
  View.cover_of_tiledL (rB m c t h0 h1 xs0 xs1 xs2).1 S32x128.size (by sl_kernel_rfl) y
/-- What a last step leaves in carried buffer 0. -/
def sC_0 (c : Dev nD) (t : Fin cfg0.N) (h0 : ¬t.val % 4 = 0) (h1 : t.val % 4 = 3) (xs0 : Vec F S32x128 .f32) (xs1 : Vec F S32x1 .f32) (xs2 : Vec F S32x1 .f32) : Vec F S32x128 .f32 :=
  VS0_0.read (Elt F) (VS0_0.writes (Elt F) VS0_0.junk (rC m c t h0 h1 xs0 xs1 xs2).2.2.2.1)
theorem scoverC_0 (c : Dev nD) (t : Fin cfg0.N) (h0 : ¬t.val % 4 = 0) (h1 : t.val % 4 = 3) (xs0 : Vec F S32x128 .f32) (xs1 : Vec F S32x1 .f32) (xs2 : Vec F S32x1 .f32) (y : S32x128.Idx) :
    ∃ pc ∈ (rC m c t h0 h1 xs0 xs1 xs2).2.2.2.1, y ∈ pc.1.set :=
  View.cover_of_tiledL (rC m c t h0 h1 xs0 xs1 xs2).2.2.2.1 S32x128.size (by sl_kernel_rfl) y

/-- What a first step leaves in carried buffer 1: its stores read back. -/
def sA_1 (c : Dev nD) (t : Fin cfg0.N) (h0 : t.val % 4 = 0) (h1 : ¬t.val % 4 = 3) : Vec F S32x1 .f32 :=
  VS0_1.read (Elt F) (VS0_1.writes (Elt F) VS0_1.junk (rA m c t h0 h1).2.1)
theorem scoverA_1 (c : Dev nD) (t : Fin cfg0.N) (h0 : t.val % 4 = 0) (h1 : ¬t.val % 4 = 3) (y : S32x1.Idx) :
    ∃ pc ∈ (rA m c t h0 h1).2.1, y ∈ pc.1.set :=
  View.cover_of_tiledL (rA m c t h0 h1).2.1 S32x1.size (by sl_kernel_rfl) y
/-- What a middle step leaves in carried buffer 1. -/
def sB_1 (c : Dev nD) (t : Fin cfg0.N) (h0 : ¬t.val % 4 = 0) (h1 : ¬t.val % 4 = 3) (xs0 : Vec F S32x128 .f32) (xs1 : Vec F S32x1 .f32) (xs2 : Vec F S32x1 .f32) : Vec F S32x1 .f32 :=
  VS0_1.read (Elt F) (VS0_1.writes (Elt F) VS0_1.junk (rB m c t h0 h1 xs0 xs1 xs2).2.1)
theorem scoverB_1 (c : Dev nD) (t : Fin cfg0.N) (h0 : ¬t.val % 4 = 0) (h1 : ¬t.val % 4 = 3) (xs0 : Vec F S32x128 .f32) (xs1 : Vec F S32x1 .f32) (xs2 : Vec F S32x1 .f32) (y : S32x1.Idx) :
    ∃ pc ∈ (rB m c t h0 h1 xs0 xs1 xs2).2.1, y ∈ pc.1.set :=
  View.cover_of_tiledL (rB m c t h0 h1 xs0 xs1 xs2).2.1 S32x1.size (by sl_kernel_rfl) y
/-- What a last step leaves in carried buffer 1. -/
def sC_1 (c : Dev nD) (t : Fin cfg0.N) (h0 : ¬t.val % 4 = 0) (h1 : t.val % 4 = 3) (xs0 : Vec F S32x128 .f32) (xs1 : Vec F S32x1 .f32) (xs2 : Vec F S32x1 .f32) : Vec F S32x1 .f32 :=
  VS0_1.read (Elt F) (VS0_1.writes (Elt F) VS0_1.junk (rC m c t h0 h1 xs0 xs1 xs2).2.2.2.2.1)
theorem scoverC_1 (c : Dev nD) (t : Fin cfg0.N) (h0 : ¬t.val % 4 = 0) (h1 : t.val % 4 = 3) (xs0 : Vec F S32x128 .f32) (xs1 : Vec F S32x1 .f32) (xs2 : Vec F S32x1 .f32) (y : S32x1.Idx) :
    ∃ pc ∈ (rC m c t h0 h1 xs0 xs1 xs2).2.2.2.2.1, y ∈ pc.1.set :=
  View.cover_of_tiledL (rC m c t h0 h1 xs0 xs1 xs2).2.2.2.2.1 S32x1.size (by sl_kernel_rfl) y

/-- What a first step leaves in carried buffer 2: its stores read back. -/
def sA_2 (c : Dev nD) (t : Fin cfg0.N) (h0 : t.val % 4 = 0) (h1 : ¬t.val % 4 = 3) : Vec F S32x1 .f32 :=
  VS0_2.read (Elt F) (VS0_2.writes (Elt F) VS0_2.junk (rA m c t h0 h1).2.2.1)
theorem scoverA_2 (c : Dev nD) (t : Fin cfg0.N) (h0 : t.val % 4 = 0) (h1 : ¬t.val % 4 = 3) (y : S32x1.Idx) :
    ∃ pc ∈ (rA m c t h0 h1).2.2.1, y ∈ pc.1.set :=
  View.cover_of_tiledL (rA m c t h0 h1).2.2.1 S32x1.size (by sl_kernel_rfl) y
/-- What a middle step leaves in carried buffer 2. -/
def sB_2 (c : Dev nD) (t : Fin cfg0.N) (h0 : ¬t.val % 4 = 0) (h1 : ¬t.val % 4 = 3) (xs0 : Vec F S32x128 .f32) (xs1 : Vec F S32x1 .f32) (xs2 : Vec F S32x1 .f32) : Vec F S32x1 .f32 :=
  VS0_2.read (Elt F) (VS0_2.writes (Elt F) VS0_2.junk (rB m c t h0 h1 xs0 xs1 xs2).2.2.1)
theorem scoverB_2 (c : Dev nD) (t : Fin cfg0.N) (h0 : ¬t.val % 4 = 0) (h1 : ¬t.val % 4 = 3) (xs0 : Vec F S32x128 .f32) (xs1 : Vec F S32x1 .f32) (xs2 : Vec F S32x1 .f32) (y : S32x1.Idx) :
    ∃ pc ∈ (rB m c t h0 h1 xs0 xs1 xs2).2.2.1, y ∈ pc.1.set :=
  View.cover_of_tiledL (rB m c t h0 h1 xs0 xs1 xs2).2.2.1 S32x1.size (by sl_kernel_rfl) y
/-- What a last step leaves in carried buffer 2. -/
def sC_2 (c : Dev nD) (t : Fin cfg0.N) (h0 : ¬t.val % 4 = 0) (h1 : t.val % 4 = 3) (xs0 : Vec F S32x128 .f32) (xs1 : Vec F S32x1 .f32) (xs2 : Vec F S32x1 .f32) : Vec F S32x1 .f32 :=
  VS0_2.read (Elt F) (VS0_2.writes (Elt F) VS0_2.junk (rC m c t h0 h1 xs0 xs1 xs2).2.2.2.2.2.1)
theorem scoverC_2 (c : Dev nD) (t : Fin cfg0.N) (h0 : ¬t.val % 4 = 0) (h1 : t.val % 4 = 3) (xs0 : Vec F S32x128 .f32) (xs1 : Vec F S32x1 .f32) (xs2 : Vec F S32x1 .f32) (y : S32x1.Idx) :
    ∃ pc ∈ (rC m c t h0 h1 xs0 xs1 xs2).2.2.2.2.2.1, y ∈ pc.1.set :=
  View.cover_of_tiledL (rC m c t h0 h1 xs0 xs1 xs2).2.2.2.2.2.1 S32x1.size (by sl_kernel_rfl) y

/-- What a last step leaves in output window 3's staging buffer. -/
def oC_3 (c : Dev nD) (t : Fin cfg0.N) (h0 : ¬t.val % 4 = 0) (h1 : t.val % 4 = 3) (xs0 : Vec F S32x128 .f32) (xs1 : Vec F S32x1 .f32) (xs2 : Vec F S32x1 .f32) : Vec F S1x32x128 .f32 :=
  VO0_3.read (Elt F) (VO0_3.writes (Elt F) VO0_3.junk (rC m c t h0 h1 xs0 xs1 xs2).1)
theorem coverC_3 (c : Dev nD) (t : Fin cfg0.N) (h0 : ¬t.val % 4 = 0) (h1 : t.val % 4 = 3) (xs0 : Vec F S32x128 .f32) (xs1 : Vec F S32x1 .f32) (xs2 : Vec F S32x1 .f32) (y : S1x32x128.Idx) :
    ∃ pc ∈ (rC m c t h0 h1 xs0 xs1 xs2).1, y ∈ pc.1.set :=
  View.cover_of_tiledL (rC m c t h0 h1 xs0 xs1 xs2).1 S1x32x128.size (by sl_kernel_rfl) y
/-- Where an output is idle nothing consults its component: a placeholder. -/
def idle_3 : Vec F S1x32x128 .f32 := VO0_3.read (Elt F) VO0_3.junk

/-- What a last step leaves in output window 4's staging buffer. -/
def oC_4 (c : Dev nD) (t : Fin cfg0.N) (h0 : ¬t.val % 4 = 0) (h1 : t.val % 4 = 3) (xs0 : Vec F S32x128 .f32) (xs1 : Vec F S32x1 .f32) (xs2 : Vec F S32x1 .f32) : Vec F S1x32x1 .f32 :=
  VO0_4.read (Elt F) (VO0_4.writes (Elt F) VO0_4.junk (rC m c t h0 h1 xs0 xs1 xs2).2.1)
theorem coverC_4 (c : Dev nD) (t : Fin cfg0.N) (h0 : ¬t.val % 4 = 0) (h1 : t.val % 4 = 3) (xs0 : Vec F S32x128 .f32) (xs1 : Vec F S32x1 .f32) (xs2 : Vec F S32x1 .f32) (y : S1x32x1.Idx) :
    ∃ pc ∈ (rC m c t h0 h1 xs0 xs1 xs2).2.1, y ∈ pc.1.set :=
  View.cover_of_tiledL (rC m c t h0 h1 xs0 xs1 xs2).2.1 S1x32x1.size (by sl_kernel_rfl) y
/-- Where an output is idle nothing consults its component: a placeholder. -/
def idle_4 : Vec F S1x32x1 .f32 := VO0_4.read (Elt F) VO0_4.junk

/-- What a last step leaves in output window 5's staging buffer. -/
def oC_5 (c : Dev nD) (t : Fin cfg0.N) (h0 : ¬t.val % 4 = 0) (h1 : t.val % 4 = 3) (xs0 : Vec F S32x128 .f32) (xs1 : Vec F S32x1 .f32) (xs2 : Vec F S32x1 .f32) : Vec F S1x32x1 .f32 :=
  VO0_5.read (Elt F) (VO0_5.writes (Elt F) VO0_5.junk (rC m c t h0 h1 xs0 xs1 xs2).2.2.1)
theorem coverC_5 (c : Dev nD) (t : Fin cfg0.N) (h0 : ¬t.val % 4 = 0) (h1 : t.val % 4 = 3) (xs0 : Vec F S32x128 .f32) (xs1 : Vec F S32x1 .f32) (xs2 : Vec F S32x1 .f32) (y : S1x32x1.Idx) :
    ∃ pc ∈ (rC m c t h0 h1 xs0 xs1 xs2).2.2.1, y ∈ pc.1.set :=
  View.cover_of_tiledL (rC m c t h0 h1 xs0 xs1 xs2).2.2.1 S1x32x1.size (by sl_kernel_rfl) y
/-- Where an output is idle nothing consults its component: a placeholder. -/
def idle_5 : Vec F S1x32x1 .f32 := VO0_5.read (Elt F) VO0_5.junk

/-! ## The state after each point -/

/-- The outputs' staging buffers (windows 3, 4, 5) and the carried buffers (0, 1, 2) after the body. -/
abbrev St (F : FTy → Type) [FloatOps F] : Type := Vec F S1x32x128 .f32 × Vec F S1x32x1 .f32 × Vec F S1x32x1 .f32 × Vec F S32x128 .f32 × Vec F S32x1 .f32 × Vec F S32x1 .f32

/-- A placeholder state (before the first point: nothing consults it, the first point resets). -/
def st0 : St F := (idle_3, idle_4, idle_5, VS0_0.read (Elt F) VS0_0.junk, VS0_1.read (Elt F) VS0_1.junk, VS0_2.read (Elt F) VS0_2.junk)

/-- One point: the case its position in the pass selects, from the state the point before left. -/
def stepAt (c : Dev nD) (t : Fin cfg0.N) (p : St F) : St F :=
  if h0 : t.val % 4 = 0 then
    (idle_3, idle_4, idle_5, sA_0 m c t h0 (by omega), sA_1 m c t h0 (by omega), sA_2 m c t h0 (by omega))
  else if h1 : t.val % 4 = 3 then
    (oC_3 m c t h0 h1 p.2.2.2.1 p.2.2.2.2.1 p.2.2.2.2.2, oC_4 m c t h0 h1 p.2.2.2.1 p.2.2.2.2.1 p.2.2.2.2.2, oC_5 m c t h0 h1 p.2.2.2.1 p.2.2.2.2.1 p.2.2.2.2.2,
     sC_0 m c t h0 h1 p.2.2.2.1 p.2.2.2.2.1 p.2.2.2.2.2, sC_1 m c t h0 h1 p.2.2.2.1 p.2.2.2.2.1 p.2.2.2.2.2, sC_2 m c t h0 h1 p.2.2.2.1 p.2.2.2.2.1 p.2.2.2.2.2)
  else
    (idle_3, idle_4, idle_5, sB_0 m c t h0 h1 p.2.2.2.1 p.2.2.2.2.1 p.2.2.2.2.2, sB_1 m c t h0 h1 p.2.2.2.1 p.2.2.2.2.1 p.2.2.2.2.2, sB_2 m c t h0 h1 p.2.2.2.1 p.2.2.2.2.1 p.2.2.2.2.2)

theorem stepAt_A (c : Dev nD) (t : Fin cfg0.N) (p : St F) (h0 : t.val % 4 = 0) (h1 : ¬t.val % 4 = 3) :
    stepAt m c t p = (idle_3, idle_4, idle_5, sA_0 m c t h0 h1, sA_1 m c t h0 h1, sA_2 m c t h0 h1) := by
  unfold stepAt; rw [dif_pos h0]
theorem stepAt_B (c : Dev nD) (t : Fin cfg0.N) (p : St F) (h0 : ¬t.val % 4 = 0) (h1 : ¬t.val % 4 = 3) :
    stepAt m c t p = (idle_3, idle_4, idle_5, sB_0 m c t h0 h1 p.2.2.2.1 p.2.2.2.2.1 p.2.2.2.2.2, sB_1 m c t h0 h1 p.2.2.2.1 p.2.2.2.2.1 p.2.2.2.2.2, sB_2 m c t h0 h1 p.2.2.2.1 p.2.2.2.2.1 p.2.2.2.2.2) := by
  unfold stepAt; rw [dif_neg h0, dif_neg h1]
theorem stepAt_C (c : Dev nD) (t : Fin cfg0.N) (p : St F) (h0 : ¬t.val % 4 = 0) (h1 : t.val % 4 = 3) :
    stepAt m c t p = (oC_3 m c t h0 h1 p.2.2.2.1 p.2.2.2.2.1 p.2.2.2.2.2, oC_4 m c t h0 h1 p.2.2.2.1 p.2.2.2.2.1 p.2.2.2.2.2, oC_5 m c t h0 h1 p.2.2.2.1 p.2.2.2.2.1 p.2.2.2.2.2,
     sC_0 m c t h0 h1 p.2.2.2.1 p.2.2.2.2.1 p.2.2.2.2.2, sC_1 m c t h0 h1 p.2.2.2.1 p.2.2.2.2.1 p.2.2.2.2.2, sC_2 m c t h0 h1 p.2.2.2.1 p.2.2.2.2.1 p.2.2.2.2.2) := by
  unfold stepAt; rw [dif_neg h0, dif_pos h1]

/-- THE RECURSION: the state after the body at position `n`. -/
def outsAt0 (c : Dev nD) : (n : ℕ) → n < cfg0.N → St F
  | 0, hn => stepAt m c ⟨0, hn⟩ st0
  | n + 1, hn => stepAt m c ⟨n + 1, hn⟩ (outsAt0 c n (Nat.lt_of_succ_lt hn))

theorem outsAt0_first (c : Dev nD) (t : Fin cfg0.N) (hz : t.val = 0) : outsAt0 m c t.val t.isLt = stepAt m c t st0 := by
  obtain ⟨n, hn⟩ := t
  cases n with
  | zero => rfl
  | succ n => exact absurd hz (Nat.succ_ne_zero n)
theorem outsAt0_later (c : Dev nD) (t : Fin cfg0.N) (hz : t.val ≠ 0) :
    outsAt0 m c t.val t.isLt = stepAt m c t (outsAt0 m c (t.val - 1) (Nat.lt_of_le_of_lt (Nat.sub_le _ _) t.isLt)) := by
  obtain ⟨n, hn⟩ := t
  cases n with
  | zero => exact absurd rfl hz
  | succ n => rfl
/-- At a first step of a pass the state does not depend on what came before. -/
theorem outsAt0_A (c : Dev nD) (t : Fin cfg0.N) (h0 : t.val % 4 = 0) (h1 : ¬t.val % 4 = 3) :
    outsAt0 m c t.val t.isLt = (idle_3, idle_4, idle_5, sA_0 m c t h0 h1, sA_1 m c t h0 h1, sA_2 m c t h0 h1) := by
  by_cases hz : t.val = 0
  · rw [outsAt0_first m c t hz, stepAt_A m c t _ h0 h1]
  · rw [outsAt0_later m c t hz, stepAt_A m c t _ h0 h1]

/-- The carried part of the state before position `n ≥ 1`. -/
abbrev prev (c : Dev nD) (n : ℕ) (hn : n < cfg0.N) : St F := outsAt0 m c n hn

/-- The region's invariant before position `n`: before the first point the carried buffers hold anything; afterwards
    each holds what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

/-! ## The proof data -/

/-- The arrays as the region finds them; after the body each input's buffer at its block and each output's at the
    state's component; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 8000000 in
/-- The body at any point. The inputs' buffers hold their blocks; the point's position in its pass selects the case;
    the invariant hands the body the carried buffers at what the point before left (at anything at the very first
    point) and takes them back at this point's contents; idle outputs are handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 4 = 0
  · have h1 : ¬t.val % 4 = 3 := by omega
    rw [Dat.leavesExact_idle (dats m 0 c) 3 t (idleAt0_3 t (fun h => h1 ((hcond0_1 t).mp h))) (noFlush0_3 t (fun h => h1 ((hcond0_1 t).mp h)))]
    rw [Dat.leavesExact_idle (dats m 0 c) 4 t (idleAt0_4 t (fun h => h1 ((hcond0_1 t).mp h))) (noFlush0_4 t (fun h => h1 ((hcond0_1 t).mp h)))]
    rw [Dat.leavesExact_idle (dats m 0 c) 5 t (idleAt0_5 t (fun h => h1 ((hcond0_1 t).mp h))) (noFlush0_5 t (fun h => h1 ((hcond0_1 t).mp h)))]
    rw [outsAt0_A m c t h0 h1]
    unfold sA_0 sA_1 sA_2; (try dsimp only)
    by_cases hz : t.val = 0
    ·
      rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((rA m c t h0 h1).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          ·
            unfold owns; iexists _; isplitr
            swap; · iexact HS0
            ipureintro; exact View.read_writes_of_cover _ _ _ _ _ (scoverA_0 m c t h0 h1)
          isplitl [HS1]
          ·
            unfold owns; iexists _; isplitr
            swap; · iexact HS1
            ipureintro; exact View.read_writes_of_cover _ _ _ _ _ (scoverA_1 m c t h0 h1)
          unfold owns; iexists _; isplitr
          swap; · iexact HS2
          ipureintro; exact View.read_writes_of_cover _ _ _ _ _ (scoverA_2 m c t h0 h1)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    ·
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((rA m c t h0 h1).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          ·
            unfold owns; iexists _; isplitr
            swap; · iexact HS0
            ipureintro; exact View.read_writes_of_cover _ _ _ _ _ (scoverA_0 m c t h0 h1)
          isplitl [HS1]
          ·
            unfold owns; iexists _; isplitr
            swap; · iexact HS1
            ipureintro; exact View.read_writes_of_cover _ _ _ _ _ (scoverA_1 m c t h0 h1)
          unfold owns; iexists _; isplitr
          swap; · iexact HS2
          ipureintro; exact View.read_writes_of_cover _ _ _ _ _ (scoverA_2 m c t h0 h1)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
  · have hz : t.val ≠ 0 := fun h => h0 (by rw [h])
    rw [PhiS_castSucc m c t, PhiS_pos m c _ _ hz, outsAt0_later m c t hz]
    by_cases h1 : t.val % 4 = 3
    ·
      rw [show (dats m 0 c).leavesExact 3 t = owns (c : Thread nD τ) (ms0_3 t) fullShare ((dats m 0 c).after 3 t) from by
        unfold Dat.leavesExact; rw [liveAt0_3 t ((hcond0_1 t).mpr h1)], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_later m c t hz, stepAt_C m c t _ h0 h1]
      unfold oC_3 oC_4 oC_5 sC_0 sC_1 sC_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((rC m c t h0 h1 _ _ _).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, ⟨%e3, H3⟩, ⟨%e4, H4⟩, ⟨%e5, H5⟩, ⟨%es0, HS0⟩, ⟨%es1, HS1⟩, ⟨%es2, HS2⟩⟩
      isplitl [HS0 HS1 HS2 Hg]
      · isplitl [HS0 HS1 HS2]
        · isplitl [HS0]
          ·
            unfold owns; iexists _; isplitr
            swap; · iexact HS0
            ipureintro; exact View.read_writes_of_cover _ _ _ _ _ (scoverC_0 m c t h0 h1 _ _ _)
          isplitl [HS1]
          ·
            unfold owns; iexists _; isplitr
            swap; · iexact HS1
            ipureintro; exact View.read_writes_of_cover _ _ _ _ _ (scoverC_1 m c t h0 h1 _ _ _)
          unfold owns; iexists _; isplitr
          swap; · iexact HS2
          ipureintro; exact View.read_writes_of_cover _ _ _ _ _ (scoverC_2 m c t h0 h1 _ _ _)
        iexact Hg
      isplitl [Ho]; · iexact Ho
      isplitl [H0]; · iexact H0
      isplitl [H1]; · iexact H1
      isplitl [H2]; · iexact H2
      isplitl [H3]
      ·
        unfold owns; iexists _; isplitr
        swap; · iexact H3
        ipureintro; exact View.read_writes_of_cover _ _ _ _ _ (coverC_3 m c t h0 h1 _ _ _)
      isplitl [H4]
      ·
        unfold owns; iexists _; isplitr
        swap; · iexact H4
        ipureintro; exact View.read_writes_of_cover _ _ _ _ _ (coverC_4 m c t h0 h1 _ _ _)
      unfold owns; iexists _; isplitr
      swap; · iexact H5
      ipureintro; exact View.read_writes_of_cover _ _ _ _ _ (coverC_5 m c t h0 h1 _ _ _)
    ·
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [stepAt_B m c t _ h0 h1]
      unfold sB_0 sB_1 sB_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((rB m c t h0 h1 _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          ·
            unfold owns; iexists _; isplitr
            swap; · iexact HS0
            ipureintro; exact View.read_writes_of_cover _ _ _ _ _ (scoverB_0 m c t h0 h1 _ _ _)
          isplitl [HS1]
          ·
            unfold owns; iexists _; isplitr
            swap; · iexact HS1
            ipureintro; exact View.read_writes_of_cover _ _ _ _ _ (scoverB_1 m c t h0 h1 _ _ _)
          unfold owns; iexists _; isplitr
          swap; · iexact HS2
          ipureintro; exact View.read_writes_of_cover _ _ _ _ _ (scoverB_2 m c t h0 h1 _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The body obligation of the region, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the carried buffers' named contents can be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of the program terminates without a fault; afterwards every array of the region holds
    what the proof data says and every other buffer what the host operations after the region leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KIdealPieces.lean ====
/-
  What each case of the body leaves in each buffer, as the body's arithmetic of the point's three input blocks and of
  the carried contents it found: the new running maximum, the rescaled sum of weights plus the block's weights, the
  rescaled weighted sum of rows plus the block's; at a pass's first step the same from the reset values; at its last
  step the outputs receive copies of the three.
-/
import proofs.«157909_j21131239096722_2_alg».proof.Proof.KIdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle step -/
set_option maxHeartbeats 4000000 in
theorem sB_2_eq (c : Dev nD) (t : Fin cfg0.N) (h0 : ¬t.val % 4 = 0) (h1 : ¬t.val % 4 = 3) (xs0 : Vec F S32x128 .f32) (xs1 : Vec F S32x1 .f32) (xs2 : Vec F S32x1 .f32) :
    sB_2 m c t h0 h1 xs0 xs1 xs2 = k0_pay3 (k0_pay11 (iblk m c 1 t) (iblk m c 0 t) (iblk m c 2 t) xs2) := by
  unfold sB_2
  rw [View.read_writes_eq_canon _ _ _ (scoverB_2 m c t h0 h1 xs0 xs1 xs2)]
  dsimp only [rB]
  unfold kernelRun0_B
  dsimp only
  try sl_unfold_words
  rw [View.canon_unit_zero hz2]
  simp only [View.readAt_eq_ld, (hs0_0 t).read_unread, (hs0_1 t).read_unread, (hs0_2 t).read_unread, (Memref.isWhole_whole cc0_scratch0).read_unread, (Memref.isWhole_whole cc0_scratch1).read_unread, (Memref.isWhole_whole cc0_scratch2).read_unread, View.ld_unit_zero (S := S32x128) hz2, View.ld_unit_zero (S := S32x1) hz2, View.ld_unit_zero (S := S4096x128) hz2, View.ld_unit_zero (S := S32x3) hz2]
  try rfl

set_option maxHeartbeats 4000000 in
theorem sB_1_eq (c : Dev nD) (t : Fin cfg0.N) (h0 : ¬t.val % 4 = 0) (h1 : ¬t.val % 4 = 3) (xs0 : Vec F S32x128 .f32) (xs1 : Vec F S32x1 .f32) (xs2 : Vec F S32x1 .f32) :
    sB_1 m c t h0 h1 xs0 xs1 xs2 = k0_pay1 (k0_pay14 (iblk m c 1 t) (iblk m c 0 t) (iblk m c 2 t) xs2 xs1) := by
  unfold sB_1
  rw [View.read_writes_eq_canon _ _ _ (scoverB_1 m c t h0 h1 xs0 xs1 xs2)]
  dsimp only [rB]
  unfold kernelRun0_B
  dsimp only
  try sl_unfold_words
  rw [View.canon_unit_zero hz2]
  simp only [View.readAt_eq_ld, (hs0_0 t).read_unread, (hs0_1 t).read_unread, (hs0_2 t).read_unread, (Memref.isWhole_whole cc0_scratch0).read_unread, (Memref.isWhole_whole cc0_scratch1).read_unread, (Memref.isWhole_whole cc0_scratch2).read_unread, View.ld_unit_zero (S := S32x128) hz2, View.ld_unit_zero (S := S32x1) hz2, View.ld_unit_zero (S := S4096x128) hz2, View.ld_unit_zero (S := S32x3) hz2]
  try rfl

set_option maxHeartbeats 4000000 in
theorem sB_0_eq (c : Dev nD) (t : Fin cfg0.N) (h0 : ¬t.val % 4 = 0) (h1 : ¬t.val % 4 = 3) (xs0 : Vec F S32x128 .f32) (xs1 : Vec F S32x1 .f32) (xs2 : Vec F S32x1 .f32) :
    sB_0 m c t h0 h1 xs0 xs1 xs2 = k0_pay2 (iblk m c 1 t) (k0_pay12 (iblk m c 1 t) (iblk m c 0 t) (iblk m c 2 t) xs2) (k0_pay13 (iblk m c 1 t) (iblk m c 0 t) (iblk m c 2 t) xs2) xs0 := by
  unfold sB_0
  rw [View.read_writes_eq_canon _ _ _ (scoverB_0 m c t h0 h1 xs0 xs1 xs2)]
  dsimp only [rB]
  unfold kernelRun0_B
  dsimp only
  try sl_unfold_words
  rw [View.canon_unit_zero hz2]
  simp only [View.readAt_eq_ld, (hs0_0 t).read_unread, (hs0_1 t).read_unread, (hs0_2 t).read_unread, (Memref.isWhole_whole cc0_scratch0).read_unread, (Memref.isWhole_whole cc0_scratch1).read_unread, (Memref.isWhole_whole cc0_scratch2).read_unread, View.ld_unit_zero (S := S32x128) hz2, View.ld_unit_zero (S := S32x1) hz2, View.ld_unit_zero (S := S4096x128) hz2, View.ld_unit_zero (S := S32x3) hz2]
  try rfl

/-! ## A first step: the same from the reset values -/
set_option maxHeartbeats 4000000 in
theorem sA_2_eq (c : Dev nD) (t : Fin cfg0.N) (h0 : t.val % 4 = 0) (h1 : ¬t.val % 4 = 3) :
    sA_2 m c t h0 h1 = k0_pay3 (k0_pay11 (iblk m c 1 t) (iblk m c 0 t) (iblk m c 2 t) (k0_pay9 (F := F))) := by
  unfold sA_2
  rw [View.read_writes_eq_canon _ _ _ (scoverA_2 m c t h0 h1)]
  dsimp only [rA]
  unfold kernelRun0_A
  dsimp only
  try sl_unfold_words
  rw [View.canon_cons_unit_zero (S := S32x1) hz2]
  simp only [View.readCov_unit_zero (S := S32x1) _ hz2, View.readCov_unit_zero (S := S32x128) _ hz2]
  simp only [View.readAt_eq_ld, (hs0_0 t).read_unread, (hs0_1 t).read_unread, (hs0_2 t).read_unread, (Memref.isWhole_whole cc0_scratch0).read_unread, (Memref.isWhole_whole cc0_scratch1).read_unread, (Memref.isWhole_whole cc0_scratch2).read_unread, View.ld_unit_zero (S := S32x128) hz2, View.ld_unit_zero (S := S32x1) hz2, View.ld_unit_zero (S := S4096x128) hz2, View.ld_unit_zero (S := S32x3) hz2]
  try rfl

set_option maxHeartbeats 4000000 in
theorem sA_1_eq (c : Dev nD) (t : Fin cfg0.N) (h0 : t.val % 4 = 0) (h1 : ¬t.val % 4 = 3) :
    sA_1 m c t h0 h1 = k0_pay1 (k0_pay14 (iblk m c 1 t) (iblk m c 0 t) (iblk m c 2 t) (k0_pay9 (F := F)) (k0_pay8 (F := F))) := by
  unfold sA_1
  rw [View.read_writes_eq_canon _ _ _ (scoverA_1 m c t h0 h1)]
  dsimp only [rA]
  unfold kernelRun0_A
  dsimp only
  try sl_unfold_words
  rw [View.canon_cons_unit_zero (S := S32x1) hz2]
  simp only [View.readCov_unit_zero (S := S32x1) _ hz2, View.readCov_unit_zero (S := S32x128) _ hz2]
  simp only [View.readAt_eq_ld, (hs0_0 t).read_unread, (hs0_1 t).read_unread, (hs0_2 t).read_unread, (Memref.isWhole_whole cc0_scratch0).read_unread, (Memref.isWhole_whole cc0_scratch1).read_unread, (Memref.isWhole_whole cc0_scratch2).read_unread, View.ld_unit_zero (S := S32x128) hz2, View.ld_unit_zero (S := S32x1) hz2, View.ld_unit_zero (S := S4096x128) hz2, View.ld_unit_zero (S := S32x3) hz2]
  try rfl

set_option maxHeartbeats 4000000 in
theorem sA_0_eq (c : Dev nD) (t : Fin cfg0.N) (h0 : t.val % 4 = 0) (h1 : ¬t.val % 4 = 3) :
    sA_0 m c t h0 h1 = k0_pay2 (iblk m c 1 t) (k0_pay12 (iblk m c 1 t) (iblk m c 0 t) (iblk m c 2 t) (k0_pay9 (F := F))) (k0_pay13 (iblk m c 1 t) (iblk m c 0 t) (iblk m c 2 t) (k0_pay9 (F := F))) (k0_pay7 (F := F)) := by
  unfold sA_0
  rw [View.read_writes_eq_canon _ _ _ (scoverA_0 m c t h0 h1)]
  dsimp only [rA]
  unfold kernelRun0_A
  dsimp only
  try sl_unfold_words
  rw [View.canon_cons_unit_zero (S := S32x128) hz2]
  simp only [View.readCov_unit_zero (S := S32x1) _ hz2, View.readCov_unit_zero (S := S32x128) _ hz2]
  simp only [View.readAt_eq_ld, (hs0_0 t).read_unread, (hs0_1 t).read_unread, (hs0_2 t).read_unread, (Memref.isWhole_whole cc0_scratch0).read_unread, (Memref.isWhole_whole cc0_scratch1).read_unread, (Memref.isWhole_whole cc0_scratch2).read_unread, View.ld_unit_zero (S := S32x128) hz2, View.ld_unit_zero (S := S32x1) hz2, View.ld_unit_zero (S := S4096x128) hz2, View.ld_unit_zero (S := S32x3) hz2]
  try rfl

/-! ## A last step: the carried buffers as at a middle step, and the outputs their copies -/
set_option maxHeartbeats 4000000 in
theorem sC_2_eq (c : Dev nD) (t : Fin cfg0.N) (h0 : ¬t.val % 4 = 0) (h1 : t.val % 4 = 3) (xs0 : Vec F S32x128 .f32) (xs1 : Vec F S32x1 .f32) (xs2 : Vec F S32x1 .f32) :
    sC_2 m c t h0 h1 xs0 xs1 xs2 = k0_pay3 (k0_pay11 (iblk m c 1 t) (iblk m c 0 t) (iblk m c 2 t) xs2) := by
  unfold sC_2
  rw [View.read_writes_eq_canon _ _ _ (scoverC_2 m c t h0 h1 xs0 xs1 xs2)]
  dsimp only [rC]
  unfold kernelRun0_C
  dsimp only
  try sl_unfold_words
  rw [View.canon_unit_zero hz2]
  simp only [View.readAt_eq_ld, (hs0_0 t).read_unread, (hs0_1 t).read_unread, (hs0_2 t).read_unread, (Memref.isWhole_whole cc0_scratch0).read_unread, (Memref.isWhole_whole cc0_scratch1).read_unread, (Memref.isWhole_whole cc0_scratch2).read_unread, View.ld_unit_zero (S := S32x128) hz2, View.ld_unit_zero (S := S32x1) hz2, View.ld_unit_zero (S := S4096x128) hz2, View.ld_unit_zero (S := S32x3) hz2]
  try rfl

set_option maxHeartbeats 4000000 in
theorem sC_1_eq (c : Dev nD) (t : Fin cfg0.N) (h0 : ¬t.val % 4 = 0) (h1 : t.val % 4 = 3) (xs0 : Vec F S32x128 .f32) (xs1 : Vec F S32x1 .f32) (xs2 : Vec F S32x1 .f32) :
    sC_1 m c t h0 h1 xs0 xs1 xs2 = k0_pay1 (k0_pay14 (iblk m c 1 t) (iblk m c 0 t) (iblk m c 2 t) xs2 xs1) := by
  unfold sC_1
  rw [View.read_writes_eq_canon _ _ _ (scoverC_1 m c t h0 h1 xs0 xs1 xs2)]
  dsimp only [rC]
  unfold kernelRun0_C
  dsimp only
  try sl_unfold_words
  rw [View.canon_unit_zero hz2]
  simp only [View.readAt_eq_ld, (hs0_0 t).read_unread, (hs0_1 t).read_unread, (hs0_2 t).read_unread, (Memref.isWhole_whole cc0_scratch0).read_unread, (Memref.isWhole_whole cc0_scratch1).read_unread, (Memref.isWhole_whole cc0_scratch2).read_unread, View.ld_unit_zero (S := S32x128) hz2, View.ld_unit_zero (S := S32x1) hz2, View.ld_unit_zero (S := S4096x128) hz2, View.ld_unit_zero (S := S32x3) hz2]
  try rfl

set_option maxHeartbeats 4000000 in
theorem sC_0_eq (c : Dev nD) (t : Fin cfg0.N) (h0 : ¬t.val % 4 = 0) (h1 : t.val % 4 = 3) (xs0 : Vec F S32x128 .f32) (xs1 : Vec F S32x1 .f32) (xs2 : Vec F S32x1 .f32) :
    sC_0 m c t h0 h1 xs0 xs1 xs2 = k0_pay2 (iblk m c 1 t) (k0_pay12 (iblk m c 1 t) (iblk m c 0 t) (iblk m c 2 t) xs2) (k0_pay13 (iblk m c 1 t) (iblk m c 0 t) (iblk m c 2 t) xs2) xs0 := by
  unfold sC_0
  rw [View.read_writes_eq_canon _ _ _ (scoverC_0 m c t h0 h1 xs0 xs1 xs2)]
  dsimp only [rC]
  unfold kernelRun0_C
  dsimp only
  try sl_unfold_words
  rw [View.canon_unit_zero hz2]
  simp only [View.readAt_eq_ld, (hs0_0 t).read_unread, (hs0_1 t).read_unread, (hs0_2 t).read_unread, (Memref.isWhole_whole cc0_scratch0).read_unread, (Memref.isWhole_whole cc0_scratch1).read_unread, (Memref.isWhole_whole cc0_scratch2).read_unread, View.ld_unit_zero (S := S32x128) hz2, View.ld_unit_zero (S := S32x1) hz2, View.ld_unit_zero (S := S4096x128) hz2, View.ld_unit_zero (S := S32x3) hz2]
  try rfl

set_option maxHeartbeats 4000000 in
theorem oC_5_eq (c : Dev nD) (t : Fin cfg0.N) (h0 : ¬t.val % 4 = 0) (h1 : t.val % 4 = 3) (xs0 : Vec F S32x128 .f32) (xs1 : Vec F S32x1 .f32) (xs2 : Vec F S32x1 .f32) :
    oC_5 m c t h0 h1 xs0 xs1 xs2 = k0_pay6 (k0_pay3 (k0_pay11 (iblk m c 1 t) (iblk m c 0 t) (iblk m c 2 t) xs2)) := by
  unfold oC_5
  rw [View.read_writes_eq_canon _ _ _ (coverC_5 m c t h0 h1 xs0 xs1 xs2)]
  dsimp only [rC]
  unfold kernelRun0_C
  dsimp only
  try sl_unfold_words
  rw [View.canon_unit_zero hz3]
  simp only [View.readCov_unit_zero (S := S32x1) _ hz2, View.readCov_unit_zero (S := S32x128) _ hz2]
  simp only [View.readAt_eq_ld, (hs0_0 t).read_unread, (hs0_1 t).read_unread, (hs0_2 t).read_unread, (Memref.isWhole_whole cc0_scratch0).read_unread, (Memref.isWhole_whole cc0_scratch1).read_unread, (Memref.isWhole_whole cc0_scratch2).read_unread, View.ld_unit_zero (S := S32x128) hz2, View.ld_unit_zero (S := S32x1) hz2, View.ld_unit_zero (S := S4096x128) hz2, View.ld_unit_zero (S := S32x3) hz2]
  try rfl

set_option maxHeartbeats 4000000 in
theorem oC_4_eq (c : Dev nD) (t : Fin cfg0.N) (h0 : ¬t.val % 4 = 0) (h1 : t.val % 4 = 3) (xs0 : Vec F S32x128 .f32) (xs1 : Vec F S32x1 .f32) (xs2 : Vec F S32x1 .f32) :
    oC_4 m c t h0 h1 xs0 xs1 xs2 = k0_pay5 (k0_pay1 (k0_pay14 (iblk m c 1 t) (iblk m c 0 t) (iblk m c 2 t) xs2 xs1)) := by
  unfold oC_4
  rw [View.read_writes_eq_canon _ _ _ (coverC_4 m c t h0 h1 xs0 xs1 xs2)]
  dsimp only [rC]
  unfold kernelRun0_C
  dsimp only
  try sl_unfold_words
  rw [View.canon_unit_zero hz3]
  simp only [View.readCov_unit_zero (S := S32x1) _ hz2, View.readCov_unit_zero (S := S32x128) _ hz2]
  simp only [View.readAt_eq_ld, (hs0_0 t).read_unread, (hs0_1 t).read_unread, (hs0_2 t).read_unread, (Memref.isWhole_whole cc0_scratch0).read_unread, (Memref.isWhole_whole cc0_scratch1).read_unread, (Memref.isWhole_whole cc0_scratch2).read_unread, View.ld_unit_zero (S := S32x128) hz2, View.ld_unit_zero (S := S32x1) hz2, View.ld_unit_zero (S := S4096x128) hz2, View.ld_unit_zero (S := S32x3) hz2]
  try rfl

set_option maxHeartbeats 4000000 in
theorem oC_3_eq (c : Dev nD) (t : Fin cfg0.N) (h0 : ¬t.val % 4 = 0) (h1 : t.val % 4 = 3) (xs0 : Vec F S32x128 .f32) (xs1 : Vec F S32x1 .f32) (xs2 : Vec F S32x1 .f32) :
    oC_3 m c t h0 h1 xs0 xs1 xs2 = k0_pay4 (k0_pay2 (iblk m c 1 t) (k0_pay12 (iblk m c 1 t) (iblk m c 0 t) (iblk m c 2 t) xs2) (k0_pay13 (iblk m c 1 t) (iblk m c 0 t) (iblk m c 2 t) xs2) xs0) := by
  unfold oC_3
  rw [View.read_writes_eq_canon _ _ _ (coverC_3 m c t h0 h1 xs0 xs1 xs2)]
  dsimp only [rC]
  unfold kernelRun0_C
  dsimp only
  try sl_unfold_words
  rw [View.canon_unit_zero hz3]
  simp only [View.readCov_unit_zero (S := S32x1) _ hz2, View.readCov_unit_zero (S := S32x128) _ hz2]
  simp only [View.readAt_eq_ld, (hs0_0 t).read_unread, (hs0_1 t).read_unread, (hs0_2 t).read_unread, (Memref.isWhole_whole cc0_scratch0).read_unread, (Memref.isWhole_whole cc0_scratch1).read_unread, (Memref.isWhole_whole cc0_scratch2).read_unread, View.ld_unit_zero (S := S32x128) hz2, View.ld_unit_zero (S := S32x1) hz2, View.ld_unit_zero (S := S4096x128) hz2, View.ld_unit_zero (S := S32x3) hz2]
  try rfl

end Cert.KernelIdeal.Hand

end
-- ==== Proof.KIdealBlocks.lean ====
/-
  The three input windows' blocks as parts of the arrays: the query rows and the stacked per-row constants are staged
  whole at every point; the data bank's block at point `t` is its rows `4096 t … 4096 t + 4095` (the eight points
  cut the 32768 rows into eight consecutive blocks, the first four seen by one core's pass, the last four by the other's).
-/
import proofs.«157909_j21131239096722_2_alg».proof.Proof.KIdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The printed index maps, decided over the grid. -/
theorem idx_in : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The query rows' block is the whole argument. -/
theorem iblk0_apply (c : Dev nD) (t : Fin cfg0.N) (x : S32x128.Idx) :
    (iblk m c 0 t : Vec F S32x128 .f32) x = (m ((c : Thread nD τ).loc main_arg0) : S32x128.Idx → Elt F .f32) x := by
  obtain ⟨e0, e1, -, -, -, -⟩ := idx_in t
  unfold iblk
  rw [View.read_apply]
  show V m c main_arg0 _ = _
  rw [V_main_arg0]
  congr 1
  funext a
  apply Fin.ext
  match a with
  | ⟨0, _⟩ => show win0_0.index t 0 * 32 + 1 * (x 0).val = (x 0).val; rw [e0]; omega
  | ⟨1, _⟩ => show win0_0.index t 1 * 128 + 1 * (x 1).val = (x 1).val; rw [e1]; omega

/-- The stacked constants' block is the whole array the host operations before the region wrote. -/
theorem iblk2_apply (c : Dev nD) (t : Fin cfg0.N) (x : S32x3.Idx) :
    (iblk m c 2 t : Vec F S32x3 .f32) x = (V m c main_v20 : S32x3.Idx → Elt F .f32) x := by
  obtain ⟨-, -, -, -, e0, e1⟩ := idx_in t
  unfold iblk
  rw [View.read_apply]
  show V m c main_v20 _ = _
  congr 1
  funext a
  apply Fin.ext
  match a with
  | ⟨0, _⟩ => show win0_2.index t 0 * 32 + 1 * (x 0).val = (x 0).val; rw [e0]; omega
  | ⟨1, _⟩ => show win0_2.index t 1 * 3 + 1 * (x 1).val = (x 1).val; rw [e1]; omega

/-- The data bank's block at point `t` is its rows from `4096 t` on. -/
theorem iblk1_apply (c : Dev nD) (t : Fin cfg0.N) (x : S4096x128.Idx) (k : S32768x128.Idx)
    (hk0 : (k 0).val = 4096 * t.val + (x 0).val) (hk1 : (k 1).val = (x 1).val) :
    (iblk m c 1 t : Vec F S4096x128 .f32) x = (m ((c : Thread nD τ).loc main_arg2) : S32768x128.Idx → Elt F .f32) k := by
  obtain ⟨-, -, e0, e1, -, -⟩ := idx_in t
  unfold iblk
  rw [View.read_apply]
  show V m c main_arg2 _ = _
  rw [V_main_arg2]
  congr 1
  funext a
  apply Fin.ext
  match a with
  | ⟨0, _⟩ => show win0_1.index t 0 * 4096 + 1 * (x 0).val = (k 0).val; rw [e0, hk0]; omega
  | ⟨1, _⟩ => show win0_1.index t 1 * 128 + 1 * (x 1).val = (k 1).val; rw [e1, hk1]; omega

end Cert.KernelIdeal.Hand

end
-- ==== Proof.KPayA.lean ====
/-
  The kernel body's stored values, read entry by entry on the extended reals: the copies.

  Each grid step keeps, per query row `b`, a running maximum, a running sum of weights and a running
  weighted sum of the data rows.  This file reads the values the body stores that involve no arithmetic:
  the new sum and the new maximum stored as they are, the three results written out under a leading unit
  axis at the last step, and the initial state `(0, 0, -∞)` written at the first step.
-/
import proofs.«157909_j21131239096722_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ### The stored copies and the initial state -/

/-- The word of `-∞` denotes `⊥`. -/
theorem ofBits_neg_inf_f32 : Ideal.ofBits .f32 0xFF800000#32 = ⊥ := by
  simp [Ideal.ofBits, Ideal.ieee]

/-- The new sum is stored as it is (a cast to its own shape). -/
theorem pay1_eq (v : FVec Ideal S32x1 .f32) : k0_pay1 v = v := by
  unfold k0_pay1; exact shapeCast_self _ _

/-- The new maximum is stored as it is (a cast to its own shape). -/
theorem pay3_eq (v : FVec Ideal S32x1 .f32) : k0_pay3 v = v := by
  unfold k0_pay3; exact shapeCast_self _ _

/-- The weighted sum written out under a leading unit axis: entry `(0, b, d)` is entry `(b, d)`. -/
theorem pay4_apply (v : Vec Ideal S32x128 .f32) (b : Fin 32) (d : Fin 128) :
    k0_pay4 v (ix3 (0 : Fin 1) b d) = v (ix2 b d) := by
  unfold k0_pay4; exact shapeCast_ab_1ab_apply _ _ _ _ _

/-- The sum written out under a leading unit axis: entry `(0, b, 0)` is entry `(b, 0)`. -/
theorem pay5_apply (v : Vec Ideal S32x1 .f32) (b : Fin 32) :
    k0_pay5 v (ix3 (0 : Fin 1) b (0 : Fin 1)) = v (ix2 b (0 : Fin 1)) := by
  unfold k0_pay5; exact shapeCast_ab_1ab_apply _ _ _ _ _

/-- The maximum written out under a leading unit axis: entry `(0, b, 0)` is entry `(b, 0)`. -/
theorem pay6_apply (v : Vec Ideal S32x1 .f32) (b : Fin 32) :
    k0_pay6 v (ix3 (0 : Fin 1) b (0 : Fin 1)) = v (ix2 b (0 : Fin 1)) := by
  unfold k0_pay6; exact shapeCast_ab_1ab_apply _ _ _ _ _

/-- The weighted sum starts at `0`. -/
theorem pay7_apply (b : Fin 32) (d : Fin 128) : k0_pay7 (F := Ideal) (ix2 b d) = 0 := by
  unfold k0_pay7; rw [shapeCast_self]; exact Ideal.ofBits_zero_f32

/-- The sum starts at `0`. -/
theorem pay8_apply (b : Fin 32) : k0_pay8 (F := Ideal) (ix2 b (0 : Fin 1)) = 0 := by
  unfold k0_pay8; rw [shapeCast_self]; exact Ideal.ofBits_zero_f32

/-- The maximum starts at `-∞`. -/
theorem pay9_apply (b : Fin 32) : k0_pay9 (F := Ideal) (ix2 b (0 : Fin 1)) = ⊥ := by
  unfold k0_pay9; rw [shapeCast_self]; exact ofBits_neg_inf_f32

end Cert.KernelIdeal.Pay

end
-- ==== Proof.KPayB.lean ====
/-
  The kernel body's arithmetic, read entry by entry on the extended reals: the online-softmax update.

  For query row `b` and the data rows `j` of the current block, with `s(b, j)` the score, `m` the carried
  maximum, `l` the carried sum and `acc` the carried weighted sum:
      m' = max m (max_j s(b, j)),   α = exp (m - m'),   p(b, j) = exp (s(b, j) - m'),
      l' = α · l + (0 + ∑_j p(b, j)),   acc'(b, d) = α · acc(b, d) + (0 + ∑_j p(b, j) · x(j, d)).
  This file reads `α`, `p`, `l'` and `acc'` at an entry, together with the layout and reduction facts they
  rest on: a column broadcast along the lanes, a vector cast to a column, a lane sum and a lane maximum
  as a sum and a fold over the lanes, and a matrix product into a zero accumulator as a sum over the
  contraction index.
-/
import proofs.«157909_j21131239096722_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«157909_j21131239096722_2_alg».proof.Proof.KPayA

noncomputable section

namespace Cert.KernelIdeal.Pay

open Cert.KernelIdeal Cert.KernelIdeal.Gen Idealize.ShloMosaic Idealize.ShloMosaic.ValueIdx

/-! ### Layout operations and reductions at an entry -/

section Layout
variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- A lane sum of a `[32, 4096]` vector, read at row `b`: the sum of the row's entries. -/
theorem rowSum_apply (src : FVec Ideal S32x4096 .f32) (h : S32x4096.Reduces [1] S32) (hφ : FKind.Formats .f32)
    (hacc : (0x00000000#32 : BitVec FTy.f32.bits) = FKind.add.neutral .f32 hφ) (b : Fin 32) :
    multiReduction (F := Ideal) .add [1] S32 src 0x00000000#32 h hφ hacc (ix1 b)
      = ∑ j : Fin 4096, src (ix2 b j) :=
  (Ideal.multiReduction_add_single src _ h hφ hacc (ix1 b)).trans
    (Finset.sum_congr rfl fun j _ => congrArg src (funext fun a => Fin.ext (by
      match a with
      | ⟨0, _⟩ => rfl
      | ⟨1, _⟩ => rfl)))

/-- A lane maximum of a `[32, 4096]` vector from the word of `-∞`, read at row `b`: the fold of `max` from
    `⊥` over the row's entries. -/
theorem rowMax_apply (src : FVec Ideal S32x4096 .f32) (h : S32x4096.Reduces [1] S32) (hφ : FKind.Formats .f32)
    (hacc : (0xFF800000#32 : BitVec FTy.f32.bits) = FKind.maximumf.neutral .f32 hφ) (b : Fin 32) :
    multiReduction (F := Ideal) .maximumf [1] S32 src 0xFF800000#32 h hφ hacc (ix1 b)
      = (Finset.univ : Finset (Fin 4096)).fold max ⊥ (fun j => src (ix2 b j)) := by
  refine (Ideal.multiReduction_maximumf_single src _ h hφ hacc (ix1 b)).trans ?_
  have e : (src ∘ h.lift (ix1 b)) = fun j : Fin 4096 => src (ix2 b j) :=
    funext fun j => congrArg src (funext fun a => Fin.ext (by
      match a with
      | ⟨0, _⟩ => rfl
      | ⟨1, _⟩ => rfl))
  rw [e, Ideal.ofBits_def, ofBits_neg_inf_f32]
  rfl

/-! ### The weights-times-data product at an entry -/

/-- Row coordinate of the left factor's entry: the output's row. -/
theorem wd_lhs_0 (i : S32x128.Idx) (q : dot_S32x4096_S4096x128_S32x128_1_0_0_1_n_n.contr.Idx) :
    (dot_S32x4096_S4096x128_S32x128_1_0_0_1_n_n.lhsIdx i q 0).val = (i 0).val := by
  unfold DotDims.lhsIdx
  rw [dif_neg (show ¬(0 : Fin S32x4096.rank) ∈ dot_S32x4096_S4096x128_S32x128_1_0_0_1_n_n.lhsBatch by decide),
    dif_pos (show (0 : Fin S32x4096.rank) ∈ dot_S32x4096_S4096x128_S32x128_1_0_0_1_n_n.lhsNonContracting by decide)]
  rfl
/-- Column coordinate of the left factor's entry: the contraction index. -/
theorem wd_lhs_1 (i : S32x128.Idx) (q : dot_S32x4096_S4096x128_S32x128_1_0_0_1_n_n.contr.Idx) :
    (dot_S32x4096_S4096x128_S32x128_1_0_0_1_n_n.lhsIdx i q 1).val = (q ⟨0, by decide⟩).val :=
  dot_S32x4096_S4096x128_S32x128_1_0_0_1_n_n.lhsIdx_val_of_single rfl i q
/-- Row coordinate of the right factor's entry: the contraction index. -/
theorem wd_rhs_0 (i : S32x128.Idx) (q : dot_S32x4096_S4096x128_S32x128_1_0_0_1_n_n.contr.Idx) :
    (dot_S32x4096_S4096x128_S32x128_1_0_0_1_n_n.rhsIdx i q 0).val = (q ⟨0, by decide⟩).val :=
  dot_S32x4096_S4096x128_S32x128_1_0_0_1_n_n.rhsIdx_val_of_single rfl i q
/-- Column coordinate of the right factor's entry: the output's column. -/
theorem wd_rhs_1 (i : S32x128.Idx) (q : dot_S32x4096_S4096x128_S32x128_1_0_0_1_n_n.contr.Idx) :
    (dot_S32x4096_S4096x128_S32x128_1_0_0_1_n_n.rhsIdx i q 1).val = (i 1).val := by
  unfold DotDims.rhsIdx
  rw [dif_neg (show ¬(1 : Fin S4096x128.rank) ∈ dot_S32x4096_S4096x128_S32x128_1_0_0_1_n_n.rhsBatch by decide),
    dif_pos (show (1 : Fin S4096x128.rank) ∈ dot_S32x4096_S4096x128_S32x128_1_0_0_1_n_n.rhsNonContracting by decide)]
  rfl

/-- The weights-times-data product into a zero accumulator, read at `(b, d)`: the sum over the data rows
    `j` of the weight `(b, j)` times the data entry `(j, d)`. -/
theorem matmul_weights_data_apply (lhs : FVec Ideal S32x4096 .bf16) (rhs : FVec Ideal S4096x128 .bf16)
    (b : Fin 32) (d : Fin 128) :
    matmul (F := Ideal) dot_S32x4096_S4096x128_S32x128_1_0_0_1_n_n none lhs rhs
        (constant (F := Ideal) S32x128 .f32 0x00000000#32) (ix2 b d)
      = ∑ j : Fin 4096, lhs (ix2 b j) * rhs (ix2 j d) := by
  show FloatOps.matmul _ _ _ _ _ _ = _
  rw [Ideal.matmul_constant_zero_apply,
    ← Equiv.sum_comp (contrEquiv1 dot_S32x4096_S4096x128_S32x128_1_0_0_1_n_n 4096 rfl rfl).symm]
  refine Finset.sum_congr rfl fun k _ => ?_
  have hk := contrEquiv1_symm_val dot_S32x4096_S4096x128_S32x128_1_0_0_1_n_n 4096 rfl rfl k
  have el : dot_S32x4096_S4096x128_S32x128_1_0_0_1_n_n.lhsIdx (ix2 b d)
      ((contrEquiv1 dot_S32x4096_S4096x128_S32x128_1_0_0_1_n_n 4096 rfl rfl).symm k) = ix2 b k :=
    funext fun a => Fin.ext (by
      match a with
      | ⟨0, _⟩ => exact wd_lhs_0 _ _
      | ⟨1, _⟩ => exact (wd_lhs_1 _ _).trans hk)
  have er : dot_S32x4096_S4096x128_S32x128_1_0_0_1_n_n.rhsIdx (ix2 b d)
      ((contrEquiv1 dot_S32x4096_S4096x128_S32x128_1_0_0_1_n_n 4096 rfl rfl).symm k) = ix2 k d :=
    funext fun a => Fin.ext (by
      match a with
      | ⟨0, _⟩ => exact (wd_rhs_0 _ _).trans hk
      | ⟨1, _⟩ => exact wd_rhs_1 _ _)
  rw [el, er]

/-! ### The rescaling factor, the weights, the new sum and the new weighted sum -/

/-- The rescaling factor of row `b`: the exponential of the old maximum minus the new one. -/
theorem pay12_apply (x1 : Vec Ideal S4096x128 .f32) (x0 : Vec Ideal S32x128 .f32) (x2 : Vec Ideal S32x3 .f32)
    (sm : Vec Ideal S32x1 .f32) (b : Fin 32) :
    k0_pay12 x1 x0 x2 sm (ix2 b (0 : Fin 1))
      = Ideal.exp (sm (ix2 b (0 : Fin 1)) - k0_pay11 x1 x0 x2 sm (ix2 b (0 : Fin 1))) := rfl

/-- The weight of data row `j` for query row `b`: the exponential of the score minus the new maximum. -/
theorem pay13_apply (x1 : Vec Ideal S4096x128 .f32) (x0 : Vec Ideal S32x128 .f32) (x2 : Vec Ideal S32x3 .f32)
    (sm : Vec Ideal S32x1 .f32) (b : Fin 32) (j : Fin 4096) :
    k0_pay13 x1 x0 x2 sm (ix2 b j)
      = Ideal.exp (k0_pay10 x1 x0 x2 (ix2 b j) - k0_pay11 x1 x0 x2 sm (ix2 b (0 : Fin 1))) := by
  unfold k0_pay13
  show Ideal.exp (k0_pay10 x1 x0 x2 (ix2 b j)
    - broadcastTo S32x4096 (k0_pay11 x1 x0 x2 sm) broadcasts_S32x1_S32x4096 (ix2 b j)) = _
  rw [broadcastTo_a1_ab_apply]

/-- The new sum of row `b`: the old sum rescaled plus the sum of the block's weights (from `0`). -/
theorem pay14_apply (x1 : Vec Ideal S4096x128 .f32) (x0 : Vec Ideal S32x128 .f32) (x2 : Vec Ideal S32x3 .f32)
    (sm sl : Vec Ideal S32x1 .f32) (b : Fin 32) :
    k0_pay14 x1 x0 x2 sm sl (ix2 b (0 : Fin 1))
      = k0_pay12 x1 x0 x2 sm (ix2 b (0 : Fin 1)) * sl (ix2 b (0 : Fin 1))
        + (0 + ∑ j : Fin 4096, k0_pay13 x1 x0 x2 sm (ix2 b j)) := by
  unfold k0_pay14
  show k0_pay12 x1 x0 x2 sm (ix2 b (0 : Fin 1)) * sl (ix2 b (0 : Fin 1))
    + shapeCast S32x1 (multiReduction (F := Ideal) .add [1] S32 (k0_pay13 x1 x0 x2 sm) 0x00000000#32
        reduces_S32x4096_S32 (.inl rfl) rfl) shapeCasts_S32_S32x1 (ix2 b (0 : Fin 1)) = _
  refine congrArg (fun z => k0_pay12 x1 x0 x2 sm (ix2 b (0 : Fin 1)) * sl (ix2 b (0 : Fin 1)) + z) ?_
  refine (shapeCast_a_a1_apply _ _ b (0 : Fin 1)).trans ?_
  exact (rowSum_apply _ _ _ _ b).trans (zero_add _).symm

/-- The new weighted sum at `(b, d)`, for ANY rescaling column `v28` and weights `v31`: the old one rescaled
    plus the sum over the data rows `j` of the weight `(b, j)` times the data entry `(j, d)` (from `0`).
    Rounding the factors to a narrower format is the identity on the extended reals. -/
theorem pay2_apply (x1 : Vec Ideal S4096x128 .f32) (v28 : FVec Ideal S32x1 .f32) (v31 : FVec Ideal S32x4096 .f32)
    (sa : Vec Ideal S32x128 .f32) (b : Fin 32) (d : Fin 128) :
    k0_pay2 x1 v28 v31 sa (ix2 b d)
      = v28 (ix2 b (0 : Fin 1)) * sa (ix2 b d) + (0 + ∑ j : Fin 4096, v31 (ix2 b j) * x1 (ix2 j d)) := by
  unfold k0_pay2
  rw [shapeCast_self]
  show broadcastTo S32x128 v28 broadcasts_S32x1_S32x128 (ix2 b d) * sa (ix2 b d)
    + matmul (F := Ideal) dot_S32x4096_S4096x128_S32x128_1_0_0_1_n_n none
        (truncf .bf16 v31 bitsLt_bf16_f32) (truncf .bf16 x1 bitsLt_bf16_f32)
        (constant (F := Ideal) S32x128 .f32 0x00000000#32) (ix2 b d) = _
  rw [broadcastTo_a1_ab_apply, matmul_weights_data_apply, zero_add]
  rfl

end Cert.KernelIdeal.Pay

end
-- ==== Proof.KPayC.lean ====
/-
  The kernel body's arithmetic, read entry by entry on the extended reals: the scores and the new maximum.

  The score of data row `j` for query row `b` is `(c_b + k1_b · ⟨q_b, x_j⟩) - k2_b · ⟨x_j, x_j⟩`, where
  `[c_b, k1_b, k2_b]` are the row's three constants, `⟨q_b, x_j⟩` is a matrix product of the queries with the
  transposed data block into a zero accumulator, and `⟨x_j, x_j⟩` a lane sum of the squared data block.
  The new maximum of row `b` is the larger of the carried one and the lane maximum of the scores, a fold
  of `max` from `-∞`.
-/
import proofs.«157909_j21131239096722_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«157909_j21131239096722_2_alg».proof.Proof.KPayB

noncomputable section

namespace Cert.KernelIdeal.Pay

open Cert.KernelIdeal Cert.KernelIdeal.Gen Idealize.ShloMosaic Idealize.ShloMosaic.ValueIdx

/-! ### The scores -/

/-- A lane sum of a `[4096, 128]` vector, read at row `j`: the sum of the row's entries. -/
theorem laneSum_data_apply (src : FVec Ideal S4096x128 .f32) (h : S4096x128.Reduces [1] S4096) (hφ : FKind.Formats .f32)
    (hacc : (0x00000000#32 : BitVec FTy.f32.bits) = FKind.add.neutral .f32 hφ) (j : Fin 4096) :
    multiReduction (F := Ideal) .add [1] S4096 src 0x00000000#32 h hφ hacc (ix1 j)
      = ∑ k : Fin 128, src (ix2 j k) :=
  (Ideal.multiReduction_add_single src _ h hφ hacc (ix1 j)).trans
    (Finset.sum_congr rfl fun k _ => congrArg src (funext fun a => Fin.ext (by
      match a with
      | ⟨0, _⟩ => rfl
      | ⟨1, _⟩ => rfl)))

/-- Row coordinate of the left factor's entry: the output's row. -/
theorem qd_lhs_0 (i : S32x4096.Idx) (q : dot_S32x128_S128x4096_S32x4096_1_0_0_1_n_n.contr.Idx) :
    (dot_S32x128_S128x4096_S32x4096_1_0_0_1_n_n.lhsIdx i q 0).val = (i 0).val := by
  unfold DotDims.lhsIdx
  rw [dif_neg (show ¬(0 : Fin S32x128.rank) ∈ dot_S32x128_S128x4096_S32x4096_1_0_0_1_n_n.lhsBatch by decide),
    dif_pos (show (0 : Fin S32x128.rank) ∈ dot_S32x128_S128x4096_S32x4096_1_0_0_1_n_n.lhsNonContracting by decide)]
  rfl
/-- Column coordinate of the left factor's entry: the contraction index. -/
theorem qd_lhs_1 (i : S32x4096.Idx) (q : dot_S32x128_S128x4096_S32x4096_1_0_0_1_n_n.contr.Idx) :
    (dot_S32x128_S128x4096_S32x4096_1_0_0_1_n_n.lhsIdx i q 1).val = (q ⟨0, by decide⟩).val :=
  dot_S32x128_S128x4096_S32x4096_1_0_0_1_n_n.lhsIdx_val_of_single rfl i q
/-- Row coordinate of the right factor's entry: the contraction index. -/
theorem qd_rhs_0 (i : S32x4096.Idx) (q : dot_S32x128_S128x4096_S32x4096_1_0_0_1_n_n.contr.Idx) :
    (dot_S32x128_S128x4096_S32x4096_1_0_0_1_n_n.rhsIdx i q 0).val = (q ⟨0, by decide⟩).val :=
  dot_S32x128_S128x4096_S32x4096_1_0_0_1_n_n.rhsIdx_val_of_single rfl i q
/-- Column coordinate of the right factor's entry: the output's column. -/
theorem qd_rhs_1 (i : S32x4096.Idx) (q : dot_S32x128_S128x4096_S32x4096_1_0_0_1_n_n.contr.Idx) :
    (dot_S32x128_S128x4096_S32x4096_1_0_0_1_n_n.rhsIdx i q 1).val = (i 1).val := by
  unfold DotDims.rhsIdx
  rw [dif_neg (show ¬(1 : Fin S128x4096.rank) ∈ dot_S32x128_S128x4096_S32x4096_1_0_0_1_n_n.rhsBatch by decide),
    dif_pos (show (1 : Fin S128x4096.rank) ∈ dot_S32x128_S128x4096_S32x4096_1_0_0_1_n_n.rhsNonContracting by decide)]
  rfl

/-- The queries-times-transposed-data product into a zero accumulator, read at `(b, j)`: the inner product
    of query row `b` with data row `j`. -/
theorem matmul_queries_data_apply (x0 : FVec Ideal S32x128 .f32) (x1 : FVec Ideal S4096x128 .f32)
    (b : Fin 32) (j : Fin 4096) :
    matmul (F := Ideal) dot_S32x128_S128x4096_S32x4096_1_0_0_1_n_n (some .fp32) x0
        (transpose S128x4096 [1, 0] x1 transposes_S4096x128_p1_0_S128x4096)
        (constant (F := Ideal) S32x4096 .f32 0x00000000#32) (ix2 b j)
      = ∑ k : Fin 128, x0 (ix2 b k) * x1 (ix2 j k) := by
  show FloatOps.matmul _ _ _ _ _ _ = _
  rw [Ideal.matmul_constant_zero_apply,
    ← Equiv.sum_comp (contrEquiv1 dot_S32x128_S128x4096_S32x4096_1_0_0_1_n_n 128 rfl rfl).symm]
  refine Finset.sum_congr rfl fun k _ => ?_
  have hk := contrEquiv1_symm_val dot_S32x128_S128x4096_S32x4096_1_0_0_1_n_n 128 rfl rfl k
  have el : dot_S32x128_S128x4096_S32x4096_1_0_0_1_n_n.lhsIdx (ix2 b j)
      ((contrEquiv1 dot_S32x128_S128x4096_S32x4096_1_0_0_1_n_n 128 rfl rfl).symm k) = ix2 b k :=
    funext fun a => Fin.ext (by
      match a with
      | ⟨0, _⟩ => exact qd_lhs_0 _ _
      | ⟨1, _⟩ => exact (qd_lhs_1 _ _).trans hk)
  have er : dot_S32x128_S128x4096_S32x4096_1_0_0_1_n_n.rhsIdx (ix2 b j)
      ((contrEquiv1 dot_S32x128_S128x4096_S32x4096_1_0_0_1_n_n 128 rfl rfl).symm k) = ix2 k j :=
    funext fun a => Fin.ext (by
      match a with
      | ⟨0, _⟩ => exact (qd_rhs_0 _ _).trans hk
      | ⟨1, _⟩ => exact qd_rhs_1 _ _)
  rw [el, er, transpose_ix2_apply]

/-- Column `c` of the per-row constants, as a column vector, read at row `b`. -/
theorem const_col_apply (x2 : FVec Ideal S32x3 .f32) (c : Fin 3) (h : S32x3.Slices ![0, c.val] S32x1) (b : Fin 32) :
    extractStridedSlice S32x1 ![0, c.val] x2 h (ix2 b (0 : Fin 1)) = x2 (ix2 b c) :=
  slice2_axis1_apply c.val x2 h b (0 : Fin 1) c rfl

/-- The score of data row `j` for query row `b`: with `[c, k1, k2]` the row's constants,
    `(c + k1 · ⟨q_b, x_j⟩) - k2 · ⟨x_j, x_j⟩`. -/
theorem pay10_apply (x1 : Vec Ideal S4096x128 .f32) (x0 : Vec Ideal S32x128 .f32) (x2 : Vec Ideal S32x3 .f32)
    (b : Fin 32) (j : Fin 4096) :
    k0_pay10 x1 x0 x2 (ix2 b j)
      = (x2 (ix2 b (0 : Fin 3)) + x2 (ix2 b (1 : Fin 3)) * ∑ k : Fin 128, x0 (ix2 b k) * x1 (ix2 j k))
        - x2 (ix2 b (2 : Fin 3)) * ∑ k : Fin 128, x1 (ix2 j k) * x1 (ix2 j k) := by
  unfold k0_pay10
  simp only [subf_apply, addf_apply, mulf_apply, shapeCast_self]
  refine congrArg₂ (fun u v => u - v) (congrArg₂ (fun u v => u + v) ?_ (congrArg₂ (fun u v => u * v) ?_ ?_))
    (congrArg₂ (fun u v => u * v) ?_ ?_)
  · refine (broadcastTo_a1_ab_apply _ _ b j).trans ?_
    exact const_col_apply x2 (0 : Fin 3) _ b
  · refine (broadcastTo_a1_ab_apply _ _ b j).trans ?_
    exact const_col_apply x2 (1 : Fin 3) _ b
  · exact matmul_queries_data_apply x0 x1 b j
  · refine (broadcastTo_a1_ab_apply _ _ b j).trans ?_
    exact const_col_apply x2 (2 : Fin 3) _ b
  · refine (broadcastTo_1b_ab_apply _ _ b j).trans ?_
    refine (shapeCast_a_1a_apply _ _ (0 : Fin 1) j).trans ?_
    exact laneSum_data_apply _ _ _ _ j
/-! ### The new maximum -/

/-- The new maximum of row `b`: the larger of the carried maximum and the maximum of the block's scores,
    taken as the fold of `max` from `⊥` over the block's data rows. -/
theorem pay11_apply (x1 : Vec Ideal S4096x128 .f32) (x0 : Vec Ideal S32x128 .f32) (x2 : Vec Ideal S32x3 .f32)
    (sm : Vec Ideal S32x1 .f32) (b : Fin 32) :
    k0_pay11 x1 x0 x2 sm (ix2 b (0 : Fin 1))
      = max (sm (ix2 b (0 : Fin 1)))
          ((Finset.univ : Finset (Fin 4096)).fold max ⊥ (fun j => k0_pay10 x1 x0 x2 (ix2 b j))) := by
  unfold k0_pay11
  show max (sm (ix2 b (0 : Fin 1)))
    (shapeCast S32x1 (multiReduction (F := Ideal) .maximumf [1] S32 (k0_pay10 x1 x0 x2) 0xFF800000#32
      reduces_S32x4096_S32 (.inl rfl) rfl) shapeCasts_S32_S32x1 (ix2 b (0 : Fin 1))) = _
  refine congrArg (fun z => max (sm (ix2 b (0 : Fin 1))) z) ?_
  exact (shapeCast_a_a1_apply _ _ b (0 : Fin 1)).trans (rowMax_apply _ _ _ _ b)

end Cert.KernelIdeal.Pay

end
-- ==== Proof.KRows.lean ====
/-
  The rows of the data bank as the grid sees them: point `t` (of eight) holds the 4096 consecutive rows from `4096 t`;
  a core's pass covers four consecutive points, so after point `t` the core has seen the rows from the start of its
  pass up to the end of block `t`. Sums and maxima over a block are sums and maxima over `Fin 4096`.
-/
import Mathlib

namespace Cert.Attn.Rows

/-- Row `j` of block `t`. -/
def rowOf (t : ℕ) (ht : t < 8) (j : Fin 4096) : Fin 32768 := ⟨4096 * t + j.val, by have := j.isLt; omega⟩

theorem rowOf_val (t : ℕ) (ht : t < 8) (j : Fin 4096) : (rowOf t ht j).val = 4096 * t + j.val := rfl

theorem rowOf_injective (t : ℕ) (ht : t < 8) : Function.Injective (rowOf t ht) := fun j j' h =>
  Fin.ext (by have := congrArg Fin.val h; simp only [rowOf_val] at this; omega)

/-- Block `t` as an embedding of its 4096 rows. -/
def rowEmb (t : ℕ) (ht : t < 8) : Fin 4096 ↪ Fin 32768 := ⟨rowOf t ht, rowOf_injective t ht⟩

/-- The rows of block `t`. -/
def blockSet (t : ℕ) (ht : t < 8) : Finset (Fin 32768) := Finset.univ.map (rowEmb t ht)

theorem mem_blockSet {t : ℕ} {ht : t < 8} {n : Fin 32768} :
    n ∈ blockSet t ht ↔ 4096 * t ≤ n.val ∧ n.val < 4096 * (t + 1) := by
  unfold blockSet
  rw [Finset.mem_map]
  constructor
  · rintro ⟨j, -, rfl⟩
    show 4096 * t ≤ (rowOf t ht j).val ∧ (rowOf t ht j).val < 4096 * (t + 1)
    rw [rowOf_val]; have := j.isLt; omega
  · intro h
    exact ⟨⟨n.val - 4096 * t, by omega⟩, Finset.mem_univ _, Fin.ext (by show 4096 * t + (n.val - 4096 * t) = n.val; omega)⟩

theorem blockSet_nonempty (t : ℕ) (ht : t < 8) : (blockSet t ht).Nonempty :=
  ⟨rowOf t ht 0, mem_blockSet.mpr (by rw [rowOf_val]; simp)⟩

/-- The rows a core has seen after point `t`: from the first block of its pass to block `t`. -/
def seen (t : ℕ) : Finset (Fin 32768) :=
  Finset.univ.filter fun n => 4096 * (4 * (t / 4)) ≤ n.val ∧ n.val < 4096 * (t + 1)

theorem mem_seen {t : ℕ} {n : Fin 32768} : n ∈ seen t ↔ 4096 * (4 * (t / 4)) ≤ n.val ∧ n.val < 4096 * (t + 1) := by
  unfold seen; rw [Finset.mem_filter]; exact ⟨fun h => h.2, fun h => ⟨Finset.mem_univ _, h⟩⟩

/-- At the first point of a pass the core has seen that point's block only. -/
theorem seen_first (t : ℕ) (ht : t < 8) (h : t % 4 = 0) : seen t = blockSet t ht := by
  ext n; rw [mem_seen, mem_blockSet]; constructor <;> intro hn <;> omega

/-- At a later point: what it had seen, and the point's block. -/
theorem seen_later (t : ℕ) (ht : t < 8) (h : ¬t % 4 = 0) : seen t = seen (t - 1) ∪ blockSet t ht := by
  ext n; rw [Finset.mem_union, mem_seen, mem_seen, mem_blockSet]; constructor
  · intro hn
    by_cases hb : 4096 * t ≤ n.val
    · exact Or.inr ⟨hb, hn.2⟩
    · exact Or.inl ⟨by omega, by omega⟩
  · rintro (hn | hn) <;> omega

theorem disjoint_seen (t : ℕ) (ht : t < 8) (h : ¬t % 4 = 0) : Disjoint (seen (t - 1)) (blockSet t ht) := by
  rw [Finset.disjoint_left]; intro n hn hb; rw [mem_seen] at hn; rw [mem_blockSet] at hb; omega

theorem seen_nonempty (t : ℕ) (ht : t < 8) : (seen t).Nonempty :=
  ⟨rowOf t ht 0, mem_seen.mpr (by rw [rowOf_val]; simp; omega)⟩

/-- The two passes see disjoint halves, and together every row. -/
theorem disjoint_halves : Disjoint (seen 3) (seen 7) := by
  rw [Finset.disjoint_left]; intro n h3 h7; rw [mem_seen] at h3 h7; omega

theorem union_halves : seen 3 ∪ seen 7 = Finset.univ := by
  ext n; rw [Finset.mem_union, mem_seen, mem_seen]
  have := n.isLt
  constructor
  · intro _; exact Finset.mem_univ _
  · intro _; by_cases h : n.val < 16384
    · left; omega
    · right; omega

/-- A sum over a block is a sum over its 4096 positions. -/
theorem sum_blockSet {M : Type*} [AddCommMonoid M] (t : ℕ) (ht : t < 8) (f : Fin 32768 → M) :
    ∑ n ∈ blockSet t ht, f n = ∑ j : Fin 4096, f (rowOf t ht j) := by
  unfold blockSet; rw [Finset.sum_map]; rfl

/-- A maximum folded over a block is the fold over its 4096 positions. -/
theorem fold_max_blockSet (t : ℕ) (ht : t < 8) (f : Fin 32768 → EReal) :
    (blockSet t ht).fold max ⊥ f = (Finset.univ : Finset (Fin 4096)).fold max ⊥ (fun j => f (rowOf t ht j)) := by
  unfold blockSet; rw [Finset.fold_map]; rfl

-- the sets are used through the lemmas above only: never normalised (a filter over 32768 rows)
attribute [irreducible] seen blockSet

end Cert.Attn.Rows
-- ==== Proof.RefSpec.lean ====
/-
  The reference's result as one explicit function of its three argument arrays, on the extended reals.

  For a row `b` (of 32), a key `n` (of 32768) and a feature `d` (of 128), with inputs `x`, coefficients `a`
  and data `D`:
    s_b        = √(a_b),                      v_b = 1 - a_b,
    q(b,n)     = 0 + ∑_d (x(b,d) - s_b · D(n,d))²            (the squared distance of the row to the scaled key),
    ℓ(b,n)     = -(64 · log v_b + (1/2 ÷ v_b) · q(b,n))       (the Gaussian log-density, up to a constant),
    M_b        = max ⊥ (max_n ℓ(b,n)),  the inner maximum folded from ⊥,
    u(b,n)     = exp (ℓ(b,n) - M_b),      L_b = 0 + ∑_n u(b,n),
    X(b,d)     = ∑_n (u(b,n) ÷ L_b) · D(n,d)                 (the softmax-weighted mean of the keys),
    out(b,d)   = (x(b,d) - s_b · X(b,d)) ÷ √(v_b).
  Every operation is the extended reals' (`÷` is `Ideal.div`, `√`, `log`, `exp` are `Ideal.sqrt`, `Ideal.log`,
  `Ideal.exp`); the three float literals `1`, `64` and `1/2` are kept as the words the program spells, and their
  values are stated once, below.
-/
import Idealize.ShloMosaic.PureOps.Ideal
import Idealize.ShloMosaic.PureOps.Ideal.Laws
import Idealize.ShloMosaic.Lib.ValueIdx
import Idealize.ShloMosaic.Lib.IdealHost

noncomputable section

namespace Cert.Attn.RefSpec

open Idealize.ShloMosaic Idealize.ShloMosaic.ValueIdx

/-- The three argument arrays' types: inputs, coefficients, data. -/
abbrev XArr : Type := (⟨2, ![32, 128]⟩ : Shape).Idx → EReal
abbrev AArr : Type := (⟨1, ![32]⟩ : Shape).Idx → EReal
abbrev DArr : Type := (⟨2, ![32768, 128]⟩ : Shape).Idx → EReal

/-- The word of `1.0`, `64.0` and `0.5` at `f32`, as the extended reals they denote. -/
abbrev cOne : EReal := Ideal.ofBits .f32 0x3F800000#32
abbrev c64 : EReal := Ideal.ofBits .f32 0x42800000#32
abbrev cHalf : EReal := Ideal.ofBits .f32 0x3F000000#32

theorem cOne_eq : cOne = 1 := Ideal.ofBits_one_f32
theorem c64_eq : c64 = ((64 : ℝ) : EReal) := by
  simp [Ideal.ofBits, Ideal.ieee, -EReal.coe_mul]; norm_num
theorem cHalf_eq : cHalf = ((1 / 2 : ℝ) : EReal) := by
  simp [Ideal.ofBits, Ideal.ieee, -EReal.coe_mul]; norm_num
/-- The word of `-inf` denotes the bottom of the extended reals. -/
theorem ofBits_neg_inf : Ideal.ofBits .f32 0xFF800000#32 = ⊥ := by
  simp [Ideal.ofBits, Ideal.ieee]

/-- `s_b = √(a_b)`. -/
def scale (a : AArr) (b : Fin 32) : EReal := Ideal.sqrt (a (ix1 b))
/-- `v_b = 1 - a_b`. -/
def var (a : AArr) (b : Fin 32) : EReal := cOne - a (ix1 b)
/-- `x(b,d) - s_b · D(n,d)`. -/
def diff (x : XArr) (a : AArr) (D : DArr) (b : Fin 32) (n : Fin 32768) (d : Fin 128) : EReal :=
  x (ix2 b d) - scale a b * D (ix2 n d)
/-- `q(b,n)`: the squared distance, summed from `0` over the features. -/
def sqDist (x : XArr) (a : AArr) (D : DArr) (b : Fin 32) (n : Fin 32768) : EReal :=
  0 + ∑ d : Fin 128, diff x a D b n d * diff x a D b n d
/-- `ℓ(b,n)`. -/
def logit (x : XArr) (a : AArr) (D : DArr) (b : Fin 32) (n : Fin 32768) : EReal :=
  -(c64 * Ideal.log (var a b) + Ideal.div cHalf (var a b) * sqDist x a D b n)
/-- `M_b`: the maximum over the keys folded from `⊥`, taken once more against `⊥`. -/
def rowMax (x : XArr) (a : AArr) (D : DArr) (b : Fin 32) : EReal :=
  max ⊥ ((Finset.univ : Finset (Fin 32768)).fold max ⊥ (fun n => logit x a D b n))
/-- `u(b,n)`. -/
def numer (x : XArr) (a : AArr) (D : DArr) (b : Fin 32) (n : Fin 32768) : EReal :=
  Ideal.exp (logit x a D b n - rowMax x a D b)
/-- `L_b`: the numerators summed from `0`. -/
def denom (x : XArr) (a : AArr) (D : DArr) (b : Fin 32) : EReal :=
  0 + ∑ n : Fin 32768, numer x a D b n
/-- `X(b,d)`: each numerator divided by the sum, then contracted with the data. -/
def mean (x : XArr) (a : AArr) (D : DArr) (b : Fin 32) (d : Fin 128) : EReal :=
  ∑ n : Fin 32768, Ideal.div (numer x a D b n) (denom x a D b) * D (ix2 n d)
/-- `out(b,d)`. -/
def out (x : XArr) (a : AArr) (D : DArr) (b : Fin 32) (d : Fin 128) : EReal :=
  Ideal.div (x (ix2 b d) - scale a b * mean x a D b d) (Ideal.sqrt (var a b))
/-- The whole result array: `out` at an index's two coordinates. -/
def outArr (x : XArr) (a : AArr) (D : DArr) : XArr := fun i => out x a D (i 0) (i 1)

end Cert.Attn.RefSpec

end
-- ==== Proof.LibOnlineSoftmaxA.lean ====
/-
  Online softmax: the scalar helpers.

  Floats are extended reals here.  Every score is a real number, so every quantity the online-softmax
  recurrence builds is the coercion of a real number; this file gathers the few facts that move the
  coercion `ℝ → EReal` through a maximum, a difference under the exponential, and a finite sum, the
  rescaling identity of the exponential weights, and the expansion of a scaled squared distance.
-/
import Mathlib
import Idealize.ShloMosaic.PureOps.Ideal

noncomputable section

namespace OnlineSoftmax

open Idealize.ShloMosaic

/-! ### Coercions -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two coerced reals is the coercion of their maximum. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The exponential of a difference of two reals, taken on the extended reals, is the coercion of
    the real exponential of the difference. -/
theorem exp_coe_sub_coe (x m : ℝ) :
    Ideal.exp ((x : EReal) - (m : EReal)) = ((Real.exp (x - m) : ℝ) : EReal) := by
  rw [← EReal.coe_sub]; rfl

/-- `-∞` minus a real is `-∞`, whose exponential is `0`. -/
theorem exp_bot_sub_coe (m : ℝ) : Ideal.exp ((⊥ : EReal) - (m : EReal)) = 0 := by
  rw [EReal.bot_sub]; rfl

/-- The fold of `max` from `-∞` over a nonempty finite set of coerced reals is the coercion of the
    real maximum. -/
theorem fold_max_coe {ι : Type*} (B : Finset ι) (hB : B.Nonempty) (ℓ : ι → ℝ) :
    B.fold max (⊥ : EReal) (fun n => (ℓ n : EReal)) = ((B.sup' hB ℓ : ℝ) : EReal) := by
  apply le_antisymm
  · refine (Finset.fold_max_le _).2 ⟨bot_le, fun n hn => ?_⟩
    exact EReal.coe_le_coe_iff.2 (Finset.le_sup' ℓ hn)
  · obtain ⟨n, hn, hmax⟩ := Finset.exists_mem_eq_sup' hB ℓ
    rw [hmax]
    exact (Finset.le_fold_max _).2 (Or.inr ⟨n, hn, le_rfl⟩)

/-- The supremum (from `-∞`) over a nonempty finite set of coerced reals is the coercion of the real
    maximum. -/
theorem sup_coe {ι : Type*} (B : Finset ι) (hB : B.Nonempty) (ℓ : ι → ℝ) :
    B.sup (fun n => (ℓ n : EReal)) = ((B.sup' hB ℓ : ℝ) : EReal) := by
  apply le_antisymm
  · refine Finset.sup_le fun n hn => ?_
    exact EReal.coe_le_coe_iff.2 (Finset.le_sup' ℓ hn)
  · obtain ⟨n, hn, hmax⟩ := Finset.exists_mem_eq_sup' hB ℓ
    rw [hmax]
    exact Finset.le_sup (f := fun n => (ℓ n : EReal)) hn

/-! ### Rescaling the exponential weights -/

/-- Moving the reference point of the weights from `a` to `b`:
    `e^(a-b) · ∑ e^(ℓ n - a) = ∑ e^(ℓ n - b)`. -/
theorem rescale_sum {ι : Type*} (S : Finset ι) (ℓ : ι → ℝ) (a b : ℝ) :
    Real.exp (a - b) * ∑ n ∈ S, Real.exp (ℓ n - a) = ∑ n ∈ S, Real.exp (ℓ n - b) := by
  rw [Finset.mul_sum]
  refine Finset.sum_congr rfl fun n _ => ?_
  rw [← Real.exp_add]; congr 1; ring

/-- Moving the reference point of the weighted values from `a` to `b`:
    `e^(a-b) · ∑ e^(ℓ n - a) · D n = ∑ e^(ℓ n - b) · D n`. -/
theorem rescale_sum_mul {ι : Type*} (S : Finset ι) (ℓ D : ι → ℝ) (a b : ℝ) :
    Real.exp (a - b) * ∑ n ∈ S, Real.exp (ℓ n - a) * D n = ∑ n ∈ S, Real.exp (ℓ n - b) * D n := by
  rw [Finset.mul_sum]
  refine Finset.sum_congr rfl fun n _ => ?_
  rw [← mul_assoc, ← Real.exp_add]; congr 2; ring

/-! ### The scaled squared distance -/

/-- Expanding a scaled squared distance: with `s · s = a`,
    `-(64 lv + (0.5 / v) ∑ (x - s y)²) = (-(64 lv + (0.5 / v) ∑ x²) + (s / v) ∑ x y) - (a / (2 v)) ∑ y²`. -/
theorem neg_scaled_sqdist_expand' {δ : Type*} (t : Finset δ) (x y : δ → ℝ) {a s v : ℝ} (lv : ℝ)
    (hs : s * s = a) (hv : v ≠ 0) :
    -(64 * lv + (0.5 / v) * ∑ d ∈ t, (x d - s * y d) * (x d - s * y d))
      = (-(64 * lv + (0.5 / v) * ∑ d ∈ t, x d * x d) + (s / v) * ∑ d ∈ t, x d * y d)
        - (a / (2 * v)) * ∑ d ∈ t, y d * y d := by
  have hsum : ∑ d ∈ t, (x d - s * y d) * (x d - s * y d)
      = ∑ d ∈ t, x d * x d - 2 * s * ∑ d ∈ t, x d * y d + a * ∑ d ∈ t, y d * y d := by
    rw [Finset.mul_sum, Finset.mul_sum, ← Finset.sum_sub_distrib, ← Finset.sum_add_distrib]
    refine Finset.sum_congr rfl fun d _ => ?_
    rw [← hs]; ring
  rw [hsum, show (0.5 : ℝ) = 1 / 2 by norm_num]
  field_simp
  ring

/-- The same with `s = √a` for `a ≥ 0`. -/
theorem neg_scaled_sqdist_expand {δ : Type*} (t : Finset δ) (x y : δ → ℝ) {a v : ℝ} (lv : ℝ)
    (ha : 0 ≤ a) (hv : v ≠ 0) :
    -(64 * lv + (0.5 / v) * ∑ d ∈ t, (x d - Real.sqrt a * y d) * (x d - Real.sqrt a * y d))
      = (-(64 * lv + (0.5 / v) * ∑ d ∈ t, x d * x d) + (Real.sqrt a / v) * ∑ d ∈ t, x d * y d)
        - (a / (2 * v)) * ∑ d ∈ t, y d * y d :=
  neg_scaled_sqdist_expand' t x y lv (Real.mul_self_sqrt ha) hv

end OnlineSoftmax

end
-- ==== Proof.LibOnlineSoftmaxB.lean ====
/-
  Online softmax: the invariant of the running state, its update by one block, the merge of two
  partial states, and the final quotient.

  Rows carry real scores `ℓ n` and real values `D n` (one column of values at a time).  After a set `S`
  of rows has been absorbed, the running state `(m, l, acc)` is
      m = max_{n ∈ S} ℓ n,   l = ∑_{n ∈ S} e^(ℓ n - m),   acc = ∑_{n ∈ S} e^(ℓ n - m) · D n,
  all three coercions of real numbers; before any row it is `(-∞, 0, 0)`.  Absorbing a block, or merging
  two states over disjoint sets of rows, moves the reference point of the weights to the new maximum,
  which multiplies the old sums by `e^(m - m')`.  The quotient `acc / l` of a state over a nonempty set
  is the softmax-weighted average of the values, which is also what the two-pass computation
  (maximum, weights, normalise, contract) gives.
-/
import Mathlib
import Idealize.ShloMosaic.PureOps.Ideal
import proofs.«157909_j21131239096722_2_alg».proof.Proof.LibOnlineSoftmaxA

noncomputable section

namespace OnlineSoftmax

open Idealize.ShloMosaic

variable {ι : Type*} {ℓ D : ι → ℝ}

/-! ### Sums of weights on the extended reals -/

/-- The sum of the weights `e^(ℓ n - M)`, computed on the extended reals, is the coercion of the real sum. -/
theorem sum_exp_coe_sub_coe (B : Finset ι) (ℓ : ι → ℝ) (M : ℝ) :
    ∑ n ∈ B, Ideal.exp ((ℓ n : EReal) - (M : EReal)) = ((∑ n ∈ B, Real.exp (ℓ n - M) : ℝ) : EReal) := by
  rw [coe_finset_sum]
  exact Finset.sum_congr rfl fun n _ => exp_coe_sub_coe _ _

/-- The sum of the weighted values `e^(ℓ n - M) · D n`, computed on the extended reals, is the coercion of
    the real sum. -/
theorem sum_exp_coe_sub_coe_mul (B : Finset ι) (ℓ D : ι → ℝ) (M : ℝ) :
    ∑ n ∈ B, Ideal.exp ((ℓ n : EReal) - (M : EReal)) * (D n : EReal)
      = ((∑ n ∈ B, Real.exp (ℓ n - M) * D n : ℝ) : EReal) := by
  rw [coe_finset_sum]
  exact Finset.sum_congr rfl fun n _ => by rw [exp_coe_sub_coe, EReal.coe_mul]

/-! ### The invariant -/

/-- The running state `(m, l, acc)` after the rows of `S`: `(-∞, 0, 0)` for no row, otherwise the
    maximum score, the sum of the weights `e^(ℓ n - max)` and the sum of the weighted values.  (Stated as
    two implications, not as a case split on `S`, so that nothing is ever decided about a concrete `S`.) -/
def Inv (ℓ D : ι → ℝ) (S : Finset ι) (m l acc : EReal) : Prop :=
  (∀ hS : S.Nonempty,
      m = ((S.sup' hS ℓ : ℝ) : EReal)
        ∧ l = ((∑ n ∈ S, Real.exp (ℓ n - S.sup' hS ℓ) : ℝ) : EReal)
        ∧ acc = ((∑ n ∈ S, Real.exp (ℓ n - S.sup' hS ℓ) * D n : ℝ) : EReal))
    ∧ (S = ∅ → m = ⊥ ∧ l = 0 ∧ acc = 0)

/-- Over a nonempty set the invariant is the three closed forms. -/
theorem inv_iff_of_nonempty {S : Finset ι} (hS : S.Nonempty) {m l acc : EReal} :
    Inv ℓ D S m l acc ↔
      m = ((S.sup' hS ℓ : ℝ) : EReal)
        ∧ l = ((∑ n ∈ S, Real.exp (ℓ n - S.sup' hS ℓ) : ℝ) : EReal)
        ∧ acc = ((∑ n ∈ S, Real.exp (ℓ n - S.sup' hS ℓ) * D n : ℝ) : EReal) :=
  ⟨fun h => h.1 hS, fun h => ⟨fun _ => h, fun e => absurd e hS.ne_empty⟩⟩

/-- Over no row the invariant is the initial state. -/
theorem inv_empty_iff {m l acc : EReal} : Inv ℓ D ∅ m l acc ↔ m = ⊥ ∧ l = 0 ∧ acc = 0 :=
  ⟨fun h => h.2 rfl, fun h => ⟨fun hS => absurd hS Finset.not_nonempty_empty, fun _ => h⟩⟩

/-- The initial state `(-∞, 0, 0)` satisfies the invariant over no row. -/
theorem inv_empty (ℓ D : ι → ℝ) : Inv ℓ D ∅ ⊥ 0 0 := inv_empty_iff.2 ⟨rfl, rfl, rfl⟩

/-- The closed forms satisfy the invariant. -/
theorem inv_of_nonempty (ℓ D : ι → ℝ) {S : Finset ι} (hS : S.Nonempty) :
    Inv ℓ D S ((S.sup' hS ℓ : ℝ) : EReal) ((∑ n ∈ S, Real.exp (ℓ n - S.sup' hS ℓ) : ℝ) : EReal)
      ((∑ n ∈ S, Real.exp (ℓ n - S.sup' hS ℓ) * D n : ℝ) : EReal) :=
  (inv_iff_of_nonempty hS).2 ⟨rfl, rfl, rfl⟩

/-! ### The final quotient -/

/-- The sum of the weights over a nonempty set is positive. -/
theorem sum_weights_pos (ℓ : ι → ℝ) {U : Finset ι} (hU : U.Nonempty) (M : ℝ) :
    0 < ∑ n ∈ U, Real.exp (ℓ n - M) :=
  Finset.sum_pos (fun n _ => Real.exp_pos _) hU

/-- The softmax-weighted average of the values `D` under the scores `ℓ` over a nonempty set of rows:
    `(∑ e^(ℓ n - max) D n) / (∑ e^(ℓ n - max))`. -/
def softmaxAvg (ℓ D : ι → ℝ) (U : Finset ι) (hU : U.Nonempty) : ℝ :=
  (∑ n ∈ U, Real.exp (ℓ n - U.sup' hU ℓ) * D n) / (∑ n ∈ U, Real.exp (ℓ n - U.sup' hU ℓ))

/-- ONE PASS.  The quotient `acc / l` of a state over a nonempty set of rows is the softmax-weighted
    average (the denominator is a positive real, so the quotient is the real quotient). -/
theorem Inv.div_eq {U : Finset ι} {m l a : EReal} (h : Inv ℓ D U m l a) (hU : U.Nonempty) :
    Ideal.div a l = ((softmaxAvg ℓ D U hU : ℝ) : EReal) := by
  obtain ⟨-, rfl, rfl⟩ := (inv_iff_of_nonempty hU).1 h
  rw [Ideal.div_coe (sum_weights_pos ℓ hU _).ne', ← EReal.coe_mul, softmaxAvg, mul_one_div]

/-- TWO PASSES.  With `Mx` the maximum score, weights `u n = e^(ℓ n - Mx)`, their sum `0 + ∑ u`, normalised
    weights `p n = u n / (0 + ∑ u)` and the contraction `0 + ∑ p n · D n`: the result is the
    softmax-weighted average. -/
theorem reference_value (ℓ D : ι → ℝ) {U : Finset ι} (hU : U.Nonempty) {Mx : EReal}
    (hMx : Mx = ((U.sup' hU ℓ : ℝ) : EReal)) :
    0 + ∑ n ∈ U, Ideal.div (Ideal.exp ((ℓ n : EReal) - Mx))
          (0 + ∑ k ∈ U, Ideal.exp ((ℓ k : EReal) - Mx)) * (D n : EReal)
      = ((softmaxAvg ℓ D U hU : ℝ) : EReal) := by
  subst hMx
  have hL := sum_weights_pos ℓ hU (U.sup' hU ℓ)
  simp only [zero_add]
  rw [softmaxAvg, Finset.sum_div, coe_finset_sum, sum_exp_coe_sub_coe]
  refine Finset.sum_congr rfl fun n _ => ?_
  rw [exp_coe_sub_coe, Ideal.div_coe hL.ne', ← EReal.coe_mul, ← EReal.coe_mul]
  congr 1
  ring

variable [DecidableEq ι]

/-- ONE BLOCK.  From a state over `S` (possibly no row yet), absorbing a nonempty block `B` disjoint from
    `S`: with `mB` the block's maximum, `m' = max m mB`, `α = e^(m - m')`,
    `l' = α l + (0 + ∑_{n ∈ B} e^(ℓ n - m'))` and `acc' = α acc + (0 + ∑_{n ∈ B} e^(ℓ n - m') D n)`,
    the new state satisfies the invariant over `S ∪ B`.  (The reduction's initial `0` is carried.) -/
theorem Inv.step' {S B : Finset ι} {m l acc mB m' α l' acc' : EReal}
    (h : Inv ℓ D S m l acc) (hB : B.Nonempty) (hd : Disjoint S B)
    (hmB : mB = ((B.sup' hB ℓ : ℝ) : EReal)) (hm' : m' = max m mB) (hα : α = Ideal.exp (m - m'))
    (hl' : l' = α * l + (0 + ∑ n ∈ B, Ideal.exp ((ℓ n : EReal) - m')))
    (hacc' : acc' = α * acc + (0 + ∑ n ∈ B, Ideal.exp ((ℓ n : EReal) - m') * (D n : EReal))) :
    Inv ℓ D (S ∪ B) m' l' acc' := by
  subst hmB hm' hα hl' hacc'
  by_cases hS : S.Nonempty
  · obtain ⟨rfl, rfl, rfl⟩ := (inv_iff_of_nonempty hS).1 h
    have hU : (S ∪ B).Nonempty := hS.mono Finset.subset_union_left
    have hM : max ((S.sup' hS ℓ : ℝ) : EReal) ((B.sup' hB ℓ : ℝ) : EReal)
        = (((S ∪ B).sup' hU ℓ : ℝ) : EReal) := by
      rw [max_coe, Finset.sup'_union hS hB]
    rw [inv_iff_of_nonempty hU, hM, exp_coe_sub_coe, sum_exp_coe_sub_coe, sum_exp_coe_sub_coe_mul,
      zero_add, zero_add, ← EReal.coe_mul, ← EReal.coe_mul, ← EReal.coe_add, ← EReal.coe_add,
      rescale_sum, rescale_sum_mul, ← Finset.sum_union hd, ← Finset.sum_union hd]
    exact ⟨rfl, rfl, rfl⟩
  · rw [Finset.not_nonempty_iff_eq_empty] at hS
    subst hS
    obtain ⟨rfl, rfl, rfl⟩ := inv_empty_iff.1 h
    rw [Finset.empty_union, inv_iff_of_nonempty hB, max_eq_right bot_le, exp_bot_sub_coe,
      sum_exp_coe_sub_coe, sum_exp_coe_sub_coe_mul, zero_mul]
    refine ⟨rfl, ?_, ?_⟩
    · rw [zero_add, zero_add]
    · rw [zero_add, zero_add]

/-- ONE BLOCK, spelled out. -/
theorem Inv.step {S B : Finset ι} {m l acc : EReal}
    (h : Inv ℓ D S m l acc) (hB : B.Nonempty) (hd : Disjoint S B) :
    Inv ℓ D (S ∪ B) (max m ((B.sup' hB ℓ : ℝ) : EReal))
      (Ideal.exp (m - max m ((B.sup' hB ℓ : ℝ) : EReal)) * l
        + (0 + ∑ n ∈ B, Ideal.exp ((ℓ n : EReal) - max m ((B.sup' hB ℓ : ℝ) : EReal))))
      (Ideal.exp (m - max m ((B.sup' hB ℓ : ℝ) : EReal)) * acc
        + (0 + ∑ n ∈ B, Ideal.exp ((ℓ n : EReal) - max m ((B.sup' hB ℓ : ℝ) : EReal)) * (D n : EReal))) :=
  h.step' hB hd rfl rfl rfl rfl rfl

/-! ### Merging two states -/

/-- TWO STATES.  Two states over disjoint nonempty sets of rows merge into the state over the union:
    with `M = max m0 m1`, `e_i = e^(m_i - M)`, the triple `(M, e0 l0 + e1 l1, e0 acc0 + e1 acc1)`. -/
theorem Inv.merge {S0 S1 : Finset ι} {m0 l0 a0 m1 l1 a1 : EReal}
    (h0 : Inv ℓ D S0 m0 l0 a0) (h1 : Inv ℓ D S1 m1 l1 a1) (hS0 : S0.Nonempty) (hS1 : S1.Nonempty)
    (hd : Disjoint S0 S1) :
    Inv ℓ D (S0 ∪ S1) (max m0 m1)
      (Ideal.exp (m0 - max m0 m1) * l0 + Ideal.exp (m1 - max m0 m1) * l1)
      (Ideal.exp (m0 - max m0 m1) * a0 + Ideal.exp (m1 - max m0 m1) * a1) := by
  obtain ⟨rfl, rfl, rfl⟩ := (inv_iff_of_nonempty hS0).1 h0
  obtain ⟨rfl, rfl, rfl⟩ := (inv_iff_of_nonempty hS1).1 h1
  have hU : (S0 ∪ S1).Nonempty := hS0.mono Finset.subset_union_left
  have hM : max ((S0.sup' hS0 ℓ : ℝ) : EReal) ((S1.sup' hS1 ℓ : ℝ) : EReal)
      = (((S0 ∪ S1).sup' hU ℓ : ℝ) : EReal) := by
    rw [max_coe, Finset.sup'_union hS0 hS1]
  rw [inv_iff_of_nonempty hU, hM, exp_coe_sub_coe, exp_coe_sub_coe]
  refine ⟨rfl, ?_, ?_⟩
  · rw [← EReal.coe_mul, ← EReal.coe_mul, ← EReal.coe_add, rescale_sum, rescale_sum,
      ← Finset.sum_union hd]
  · rw [← EReal.coe_mul, ← EReal.coe_mul, ← EReal.coe_add, rescale_sum_mul, rescale_sum_mul,
      ← Finset.sum_union hd]

/-! ### The online computation against the two-pass computation -/

/-- THE LAW, with the two-pass maximum given by an equation.  Two cores' states over disjoint nonempty
    sets of rows, merged and divided, equal the two-pass softmax-weighted contraction over all rows. -/
theorem combine' {S0 S1 : Finset ι} {m0 l0 a0 m1 l1 a1 Mx : EReal}
    (h0 : Inv ℓ D S0 m0 l0 a0) (h1 : Inv ℓ D S1 m1 l1 a1) (hS0 : S0.Nonempty) (hS1 : S1.Nonempty)
    (hd : Disjoint S0 S1) (hU : (S0 ∪ S1).Nonempty)
    (hMx : Mx = (((S0 ∪ S1).sup' hU ℓ : ℝ) : EReal)) :
    Ideal.div (Ideal.exp (m0 - max m0 m1) * a0 + Ideal.exp (m1 - max m0 m1) * a1)
        (Ideal.exp (m0 - max m0 m1) * l0 + Ideal.exp (m1 - max m0 m1) * l1)
      = 0 + ∑ n ∈ S0 ∪ S1, Ideal.div (Ideal.exp ((ℓ n : EReal) - Mx))
            (0 + ∑ k ∈ S0 ∪ S1, Ideal.exp ((ℓ k : EReal) - Mx)) * (D n : EReal) :=
  ((h0.merge h1 hS0 hS1 hd).div_eq hU).trans (reference_value ℓ D hU hMx).symm

/-- THE LAW, with the two-pass maximum taken once more against `-∞`. -/
theorem combine {S0 S1 : Finset ι} {m0 l0 a0 m1 l1 a1 : EReal}
    (h0 : Inv ℓ D S0 m0 l0 a0) (h1 : Inv ℓ D S1 m1 l1 a1) (hS0 : S0.Nonempty) (hS1 : S1.Nonempty)
    (hd : Disjoint S0 S1) (hU : (S0 ∪ S1).Nonempty) :
    Ideal.div (Ideal.exp (m0 - max m0 m1) * a0 + Ideal.exp (m1 - max m0 m1) * a1)
        (Ideal.exp (m0 - max m0 m1) * l0 + Ideal.exp (m1 - max m0 m1) * l1)
      = 0 + ∑ n ∈ S0 ∪ S1,
          Ideal.div (Ideal.exp ((ℓ n : EReal) - max ⊥ (((S0 ∪ S1).sup' hU ℓ : ℝ) : EReal)))
            (0 + ∑ k ∈ S0 ∪ S1,
              Ideal.exp ((ℓ k : EReal) - max ⊥ (((S0 ∪ S1).sup' hU ℓ : ℝ) : EReal))) * (D n : EReal) :=
  combine' h0 h1 hS0 hS1 hd hU (max_eq_right bot_le)

end OnlineSoftmax

end
-- ==== Proof.RealSpec.lean ====
/-
  The reference's row quantities over REAL inputs.

  When every entry of the inputs `x`, the coefficients `a` and the data `D` is a real number and every coefficient
  lies in `[0, 1)`, the variance `1 - a_b` is a positive real, so `log` and the two quotients by it stay real, and
  every logit is the coercion of the real number
      ℓ(b,n) = -(64 · log (1 - a_b) + (0.5 / (1 - a_b)) · ∑_d (x(b,d) - √a_b · D(n,d))²).
  The row maximum is then the real maximum over the 32768 keys, every numerator `exp (ℓ - M)` a positive real, and
  the softmax-weighted mean of the keys the coercion of the real softmax average.

  Expanding the square, the same logit is  c_b + k1_b · ⟨x_b, D_n⟩ - k2_b · ⟨D_n, D_n⟩  with the three row scalars
      c_b = -(64 · log (1 - a_b) + (0.5 / (1 - a_b)) · ⟨x_b, x_b⟩),  k1_b = √a_b / (1 - a_b),  k2_b = a_b / (2 (1 - a_b)),
  and those three scalars, computed on the extended reals from real inputs, are the coercions of these reals.
-/
import Mathlib
import Idealize.ShloMosaic.PureOps.Ideal
import proofs.«157909_j21131239096722_2_alg».proof.Proof.RefSpec
import proofs.«157909_j21131239096722_2_alg».proof.Proof.LibOnlineSoftmaxA
import proofs.«157909_j21131239096722_2_alg».proof.Proof.LibOnlineSoftmaxB

noncomputable section

namespace Cert.Attn.RealSpec

open Idealize.ShloMosaic Idealize.ShloMosaic.ValueIdx Cert.Attn.RefSpec

/-! ## The real-valued quantities -/

/-- The logit of row `b` against key `n`, as the reference arranges it. -/
def lref (xr : Fin 32 → Fin 128 → ℝ) (ar : Fin 32 → ℝ) (Dr : Fin 32768 → Fin 128 → ℝ) (b : Fin 32) (n : Fin 32768) : ℝ :=
  -(64 * Real.log (1 - ar b) + (0.5 / (1 - ar b)) * ∑ d, (xr b d - Real.sqrt (ar b) * Dr n d) * (xr b d - Real.sqrt (ar b) * Dr n d))

/-- The part of the logit that does not depend on the key. -/
def cR (xr : Fin 32 → Fin 128 → ℝ) (ar : Fin 32 → ℝ) (b : Fin 32) : ℝ :=
  -(64 * Real.log (1 - ar b) + (0.5 / (1 - ar b)) * ∑ k, xr b k * xr b k)
/-- The coefficient of the inner product of the row with the key. -/
def k1R (ar : Fin 32 → ℝ) (b : Fin 32) : ℝ := Real.sqrt (ar b) / (1 - ar b)
/-- The coefficient of the key's squared norm. -/
def k2R (ar : Fin 32 → ℝ) (b : Fin 32) : ℝ := ar b / (2 * (1 - ar b))

/-- The logit with the square expanded. -/
def lker (xr : Fin 32 → Fin 128 → ℝ) (ar : Fin 32 → ℝ) (Dr : Fin 32768 → Fin 128 → ℝ) (b : Fin 32) (n : Fin 32768) : ℝ :=
  (cR xr ar b + k1R ar b * ∑ k, xr b k * Dr n k) - k2R ar b * ∑ k, Dr n k * Dr n k

/-- Expanding the square changes nothing: `(√a)² = a` for `a ≥ 0`, and `1 - a ≠ 0`. -/
theorem lker_eq_lref {xr : Fin 32 → Fin 128 → ℝ} {ar : Fin 32 → ℝ} {Dr : Fin 32768 → Fin 128 → ℝ} {b : Fin 32}
    {n : Fin 32768} (h : 0 ≤ ar b ∧ ar b < 1) : lker xr ar Dr b n = lref xr ar Dr b n := by
  unfold lker lref cR k1R k2R
  exact (OnlineSoftmax.neg_scaled_sqdist_expand Finset.univ (xr b) (Dr n) (Real.log (1 - ar b)) h.1
    (sub_pos.2 h.2).ne').symm

/-! ## Constants and small coercion facts -/

/-- The word of `2.0`. -/
abbrev c2 : EReal := Ideal.ofBits .f32 0x40000000#32
theorem c2_eq : c2 = ((2 : ℝ) : EReal) := by
  simp [Ideal.ofBits, Ideal.ieee, -EReal.coe_mul]; norm_num
theorem cHalf_eq' : cHalf = ((0.5 : ℝ) : EReal) := by rw [cHalf_eq]; norm_num

/-- `1 - r` on the extended reals is the real `1 - r`. -/
theorem one_sub_real (r : ℝ) : cOne - (r : EReal) = ((1 - r : ℝ) : EReal) := by
  rw [cOne_eq, ← EReal.coe_one, ← EReal.coe_sub]

/-- A sum of products of coerced reals is the coercion of the real sum of products. -/
theorem sum_mul_coe {ι : Type*} [Fintype ι] (u w : ι → ℝ) :
    ∑ k, ((u k : ℝ) : EReal) * ((w k : ℝ) : EReal) = ((∑ k, u k * w k : ℝ) : EReal) := by
  rw [OnlineSoftmax.coe_finset_sum]
  exact Finset.sum_congr rfl fun k _ => (EReal.coe_mul _ _).symm

/-! ## Real witnesses of the argument arrays -/

/-- Arrays whose entries are all real, with coefficients in `[0, 1)`, have real witnesses by coordinates. -/
theorem witnesses (x : XArr) (a : AArr) (D : DArr)
    (h : (∀ i, ∃ r : ℝ, x i = r) ∧ (∀ i, ∃ r : ℝ, a i = r ∧ 0 ≤ r ∧ r < 1) ∧ (∀ i, ∃ r : ℝ, D i = r)) :
    ∃ (xr : Fin 32 → Fin 128 → ℝ) (ar : Fin 32 → ℝ) (Dr : Fin 32768 → Fin 128 → ℝ),
      (∀ b d, x (ix2 b d) = (xr b d : EReal)) ∧ (∀ b, a (ix1 b) = (ar b : EReal) ∧ 0 ≤ ar b ∧ ar b < 1)
        ∧ (∀ n d, D (ix2 n d) = (Dr n d : EReal)) := by
  obtain ⟨h1, h2, h3⟩ := h
  choose xr hxr using h1
  choose ar har using h2
  choose Dr hDr using h3
  exact ⟨fun b d => xr (ix2 b d), fun b => ar (ix1 b), fun n d => Dr (ix2 n d), fun b d => hxr _, fun b => har _,
    fun n d => hDr _⟩

/-! ## The reference's quantities are real -/

section Ref
variable {x : XArr} {a : AArr} {D : DArr} {xr : Fin 32 → Fin 128 → ℝ} {ar : Fin 32 → ℝ}
  {Dr : Fin 32768 → Fin 128 → ℝ}

/-- The scale `√a_b` is the real square root. -/
theorem scale_real (ha : ∀ b, a (ix1 b) = (ar b : EReal) ∧ 0 ≤ ar b ∧ ar b < 1) (b : Fin 32) :
    scale a b = ((Real.sqrt (ar b) : ℝ) : EReal) := by
  unfold scale
  rw [(ha b).1, Ideal.sqrt_coe, if_neg (not_lt.2 (ha b).2.1)]

/-- The variance `1 - a_b` is real. -/
theorem var_real (ha : ∀ b, a (ix1 b) = (ar b : EReal) ∧ 0 ≤ ar b ∧ ar b < 1) (b : Fin 32) :
    var a b = ((1 - ar b : ℝ) : EReal) := by
  unfold var
  rw [(ha b).1, one_sub_real]

/-- The squared distance of a row to a scaled key is real. -/
theorem sqDist_real (hx : ∀ b d, x (ix2 b d) = (xr b d : EReal))
    (ha : ∀ b, a (ix1 b) = (ar b : EReal) ∧ 0 ≤ ar b ∧ ar b < 1) (hD : ∀ n d, D (ix2 n d) = (Dr n d : EReal))
    (b : Fin 32) (n : Fin 32768) :
    sqDist x a D b n
      = ((∑ d, (xr b d - Real.sqrt (ar b) * Dr n d) * (xr b d - Real.sqrt (ar b) * Dr n d) : ℝ) : EReal) := by
  unfold sqDist
  rw [zero_add, ← sum_mul_coe]
  refine Finset.sum_congr rfl fun d _ => ?_
  unfold diff
  rw [scale_real ha, hx, hD, ← EReal.coe_mul, ← EReal.coe_sub]

/-- (M1) Every logit of the reference is the coercion of the real logit. -/
theorem logit_real (hx : ∀ b d, x (ix2 b d) = (xr b d : EReal))
    (ha : ∀ b, a (ix1 b) = (ar b : EReal) ∧ 0 ≤ ar b ∧ ar b < 1) (hD : ∀ n d, D (ix2 n d) = (Dr n d : EReal))
    (b : Fin 32) (n : Fin 32768) : logit x a D b n = ((lref xr ar Dr b n : ℝ) : EReal) := by
  have hv : 0 < 1 - ar b := sub_pos.2 (ha b).2.2
  unfold logit
  rw [sqDist_real hx ha hD, var_real ha, Ideal.log_coe, if_neg (not_le.2 hv), c64_eq, cHalf_eq',
    Ideal.div_coe hv.ne', ← EReal.coe_mul, ← EReal.coe_mul, ← EReal.coe_mul, ← EReal.coe_add, ← EReal.coe_neg,
    mul_one_div]
  rfl

/-- The row maximum is the coercion of the real maximum over the keys. -/
theorem rowMax_real (hx : ∀ b d, x (ix2 b d) = (xr b d : EReal))
    (ha : ∀ b, a (ix1 b) = (ar b : EReal) ∧ 0 ≤ ar b ∧ ar b < 1) (hD : ∀ n d, D (ix2 n d) = (Dr n d : EReal))
    (b : Fin 32) :
    rowMax x a D b = (((Finset.univ : Finset (Fin 32768)).sup' Finset.univ_nonempty (lref xr ar Dr b) : ℝ) : EReal) := by
  unfold rowMax
  have e : (fun n => logit x a D b n) = fun n => ((lref xr ar Dr b n : ℝ) : EReal) :=
    funext fun n => logit_real hx ha hD b n
  rw [e, OnlineSoftmax.fold_max_coe _ Finset.univ_nonempty, max_eq_right bot_le]

/-- (M2) The weighted mean of the keys is the coercion of the real softmax average. -/
theorem mean_real (hx : ∀ b d, x (ix2 b d) = (xr b d : EReal))
    (ha : ∀ b, a (ix1 b) = (ar b : EReal) ∧ 0 ≤ ar b ∧ ar b < 1) (hD : ∀ n d, D (ix2 n d) = (Dr n d : EReal))
    (b : Fin 32) (d : Fin 128) :
    mean x a D b d
      = ((OnlineSoftmax.softmaxAvg (lref xr ar Dr b) (fun n => Dr n d) Finset.univ Finset.univ_nonempty : ℝ) : EReal) := by
  have h := OnlineSoftmax.reference_value (lref xr ar Dr b) (fun n => Dr n d) Finset.univ_nonempty
    (Mx := rowMax x a D b) (rowMax_real hx ha hD b)
  refine Eq.trans ?_ ((zero_add _).symm.trans h)
  unfold mean denom numer
  simp only [logit_real hx ha hD, hD]

end Ref

/-! ## The three row scalars of the expanded logit, computed on the extended reals -/

/-- (K0) The key-independent part. -/
theorem k0 (xr : Fin 32 → Fin 128 → ℝ) (ar : Fin 32 → ℝ) (b : Fin 32) (h : 0 ≤ ar b ∧ ar b < 1) :
    -(c64 * Ideal.log (cOne - ((ar b : ℝ) : EReal))
        + Ideal.div cHalf (cOne - ((ar b : ℝ) : EReal)) * (0 + ∑ k : Fin 128, ((xr b k : ℝ) : EReal) * ((xr b k : ℝ) : EReal)))
      = ((cR xr ar b : ℝ) : EReal) := by
  have hv : 0 < 1 - ar b := sub_pos.2 h.2
  rw [one_sub_real, Ideal.log_coe, if_neg (not_le.2 hv), zero_add, sum_mul_coe, c64_eq, cHalf_eq',
    Ideal.div_coe hv.ne', ← EReal.coe_mul, ← EReal.coe_mul, ← EReal.coe_mul, ← EReal.coe_add, ← EReal.coe_neg,
    mul_one_div]
  rfl

/-- (K1) The coefficient of the inner product. -/
theorem k1 (ar : Fin 32 → ℝ) (b : Fin 32) (h : 0 ≤ ar b ∧ ar b < 1) :
    Ideal.div (Ideal.sqrt ((ar b : ℝ) : EReal)) (cOne - ((ar b : ℝ) : EReal)) = ((k1R ar b : ℝ) : EReal) := by
  have hv : 0 < 1 - ar b := sub_pos.2 h.2
  rw [Ideal.sqrt_coe, if_neg (not_lt.2 h.1), one_sub_real, Ideal.div_coe hv.ne', ← EReal.coe_mul, mul_one_div]
  rfl

/-- (K2) The coefficient of the key's squared norm. -/
theorem k2 (ar : Fin 32 → ℝ) (b : Fin 32) (h : 0 ≤ ar b ∧ ar b < 1) :
    Ideal.div ((ar b : ℝ) : EReal) (c2 * (cOne - ((ar b : ℝ) : EReal))) = ((k2R ar b : ℝ) : EReal) := by
  have hv : 0 < 1 - ar b := sub_pos.2 h.2
  rw [one_sub_real, c2_eq, ← EReal.coe_mul, Ideal.div_coe (mul_ne_zero two_ne_zero hv.ne'), ← EReal.coe_mul,
    mul_one_div]
  rfl

/-- (K3) The expanded logit of coerced reals is the coercion of the real expanded logit. -/
theorem k3 (c k1 k2 : ℝ) (u w : Fin 128 → ℝ) :
    ((c : EReal) + (k1 : EReal) * ∑ k : Fin 128, ((u k : ℝ) : EReal) * ((w k : ℝ) : EReal))
        - (k2 : EReal) * ∑ k : Fin 128, ((w k : ℝ) : EReal) * ((w k : ℝ) : EReal)
      = (((c + k1 * ∑ k, u k * w k) - k2 * ∑ k, w k * w k : ℝ) : EReal) := by
  rw [sum_mul_coe, sum_mul_coe, ← EReal.coe_mul, ← EReal.coe_mul, ← EReal.coe_add, ← EReal.coe_sub]

end Cert.Attn.RealSpec

end
-- ==== Proof.KPrefix.lean ====
/-
  The kernel program's host operations BEFORE its region, read at an index on the extended reals.

  From the inputs `x` and the coefficients `a` the host computes, per row `b`, the variance `v = 1 - a_b` and three
  scalars of the expanded logit,
      c  = -(64 · log v + (1/2 ÷ v) · (0 + ∑_k x(b,k)²)),    k1 = √a_b ÷ v,    k2 = a_b ÷ (2 · v),
  stacks them as the three columns of one [32, 3] array, and keeps `√a` and `v` as two [32, 1] columns.
-/
import proofs.«157909_j21131239096722_2_alg».proof.Proof.KIdealKit
import proofs.«157909_j21131239096722_2_alg».proof.Proof.RefSpec
import proofs.«157909_j21131239096722_2_alg».proof.Proof.RealSpec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Cert.Attn Cert.Attn.RefSpec Cert.Attn.RealSpec

/-! ## The operations' composed terms -/

section Terms
variable {F : FTy → Type} [FloatOps F]

/-- The variance row `1 - a`. -/
def varRow (a : FVec F S32 .f32) : FVec F S32 .f32 :=
  subf (broadcastInDim S32 ![] bcast_S_S32 (constant S_ .f32 0x3F800000#32)) a
/-- The row of `c`. -/
def cRow (x : FVec F S32x128 .f32) (a : FVec F S32 .f32) : FVec F S32 .f32 :=
  Host.negf (addf (mulf (broadcastInDim S32 ![] bcast_S_S32 (constant S_ .f32 0x42800000#32)) (Host.log (varRow a)))
    (mulf (Host.divf (broadcastInDim S32 ![] bcast_S_S32 (constant S_ .f32 0x3F000000#32)) (varRow a))
      (Host.reduceAdd (mulf x x) (constant S_ .f32 0x00000000#32) reducesTo_S32x128_S32_d1 h_S_)))
/-- The row of `k1`. -/
def k1Row (a : FVec F S32 .f32) : FVec F S32 .f32 := Host.divf (Host.sqrt a) (varRow a)
/-- The row of `k2`. -/
def k2Row (a : FVec F S32 .f32) : FVec F S32 .f32 :=
  Host.divf a (mulf (broadcastInDim S32 ![] bcast_S_S32 (constant S_ .f32 0x40000000#32)) (varRow a))
/-- A row as a [32, 1] column. -/
def col (v : FVec F S32 .f32) : FVec F S32x1 .f32 := broadcastInDim S32x1 ![0] bcast_S32_S32x1_0 v
/-- The three scalars stacked along the second axis. -/
def stacked (x : FVec F S32x128 .f32) (a : FVec F S32 .f32) : FVec F S32x3 .f32 :=
  concatenate S32x3 1 [⟨S32x1, col (cRow x a)⟩, ⟨S32x1, col (k1Row a)⟩, ⟨S32x1, col (k2Row a)⟩]
    concatenates_S32x1_S32x1_S32x1_S32x3_d1

/-- A three-operand operation's result, with each operand's contents at its own reference. -/
theorem nary3_result {Val : EltTy → Type} {r0 r1 r2 y : Ref sig .tc}
    (f : ((k : Fin 3) → ((![r0, r1, r2] : Fin 3 → Ref sig .tc) k).ty.Contents Val) → y.ty.Contents Val) (hxs hy)
    (W : Valuation τ sig Val) :
    (nary (τ := τ) ![r0, r1, r2] y f hxs hy).result W (Proc.devRef .tc y)
      = f (Fin.cons (W (Proc.devRef .tc r0)) (Fin.cons (W (Proc.devRef .tc r1)) (Fin.cons (W (Proc.devRef .tc r2)) (fun i => i.elim0)))) := by
  rw [nary_result]; congr 1; funext k; fin_cases k <;> rfl

/-- The same, in the form one rewriting pass uses (the result reference not indexed). -/
theorem nary3_result' {Val : EltTy → Type} {r0 r1 r2 y : Ref sig .tc}
    (f : ((k : Fin 3) → ((![r0, r1, r2] : Fin 3 → Ref sig .tc) k).ty.Contents Val) → y.ty.Contents Val) (hxs hy)
    (W : Valuation τ sig Val) :
    (nary (τ := τ) ![r0, r1, r2] y f hxs hy).result W (no_index (Proc.devRef .tc y))
      = f (Fin.cons (W (Proc.devRef .tc r0)) (Fin.cons (W (Proc.devRef .tc r1)) (Fin.cons (W (Proc.devRef .tc r2)) (fun i => i.elim0)))) :=
  nary3_result f hxs hy W

variable (m : (ℓ : Loc nD τ sig) → Buf (Elt F) ℓ)

/-- What the region finds in the stacked array. -/
theorem V_main_v20 (c : Dev nD) :
    (V m c main_v20 : S32x3.Idx → F .f32)
      = stacked (m ((c : Thread nD τ).loc main_arg0)) (m ((c : Thread nD τ).loc main_arg1)) := by
  dsimp only [V, V0]
  simp only [hostOps0, List.flatten_cons, List.flatten_nil, List.append_nil, List.cons_append, List.nil_append]
  simp (disch := decide) only [after_cons, after_nil, nullary_result', unary_result', binary_result', nary3_result',
    nullary_result_ne', unary_result_ne', binary_result_ne', nary_result_ne']
  rfl

/-- What it finds in the column of `√a`. -/
theorem V_main_v21 (c : Dev nD) :
    (V m c main_v21 : S32x1.Idx → F .f32) = col (Host.sqrt (m ((c : Thread nD τ).loc main_arg1))) := by
  dsimp only [V, V0]
  simp only [hostOps0, List.flatten_cons, List.flatten_nil, List.append_nil, List.cons_append, List.nil_append]
  after_results
  rfl

/-- What it finds in the column of the variance. -/
theorem V_main_v22 (c : Dev nD) :
    (V m c main_v22 : S32x1.Idx → F .f32) = col (varRow (m ((c : Thread nD τ).loc main_arg1))) := by
  dsimp only [V, V0]
  simp only [hostOps0, List.flatten_cons, List.flatten_nil, List.append_nil, List.cons_append, List.nil_append]
  after_results
  rfl

end Terms

/-! ## Read at an index, on the extended reals -/

section AtIdeal
variable (x : FVec Ideal S32x128 .f32) (a : FVec Ideal S32 .f32)

/-- A column at a row is the row's entry. -/
theorem col_apply (v : FVec Ideal S32 .f32) (b : Fin 32) : col v (ix2 b (0 : Fin 1)) = v (ix1 b) := by
  unfold col
  exact broadcastInDim_apply _ bcast_S32_S32x1_0 v _ (ix1 b) (fun c => match c with
    | ⟨0, _⟩ => by show b.val = if (32 : Nat) = 1 then 0 else b.val; rw [if_neg (by decide)])

theorem varRow_apply (b : Fin 32) : varRow a (ix1 b) = cOne - a (ix1 b) := rfl

/-- Dropping the feature axis of a (row, feature) index leaves the row. -/
theorem reduces_feat : S32x128.Reduces [1] S32 := by decide
theorem lift_feat (b : Fin 32) (k : Fin (S32x128.size 1)) :
    reduces_feat.lift (ix1 b) k = ix2 b (⟨k.val, k.isLt⟩ : Fin 128) := by
  funext c; apply Fin.ext
  fin_cases c <;> rfl

theorem cRow_apply (b : Fin 32) :
    cRow x a (ix1 b)
      = -(c64 * Ideal.log (cOne - a (ix1 b))
          + Ideal.div cHalf (cOne - a (ix1 b)) * (0 + ∑ k : Fin 128, x (ix2 b k) * x (ix2 b k))) := by
  have hs : Host.reduceAdd (F := Ideal) (mulf x x) (constant S_ .f32 0x00000000#32) reducesTo_S32x128_S32_d1 h_S_ (ix1 b)
      = 0 + ∑ k : Fin 128, x (ix2 b k) * x (ix2 b k) := by
    simp only [Host.reduceAdd, Ideal.hostReduceAdd_def]
    rw [Ideal.hostReduceAdd_single reducesTo_S32x128_S32_d1 reduces_feat]
    have h0 : (constant (F := Ideal) S_ .f32 0x00000000#32) (Shape.Idx.first h_S_) = 0 := Ideal.ofBits_zero_f32
    rw [h0]
    refine congrArg (0 + ·) (Finset.sum_congr rfl fun k _ => ?_)
    rw [lift_feat]
    rfl
  show -(c64 * Ideal.log (cOne - a (ix1 b)) + Ideal.div cHalf (cOne - a (ix1 b))
      * Host.reduceAdd (F := Ideal) (mulf x x) (constant S_ .f32 0x00000000#32) reducesTo_S32x128_S32_d1 h_S_ (ix1 b)) = _
  rw [hs]

theorem k1Row_apply (b : Fin 32) :
    k1Row a (ix1 b) = Ideal.div (Ideal.sqrt (a (ix1 b))) (cOne - a (ix1 b)) := rfl
theorem k2Row_apply (b : Fin 32) :
    k2Row a (ix1 b) = Ideal.div (a (ix1 b)) (c2 * (cOne - a (ix1 b))) := rfl

/-- Three [32, 1] pieces laid side by side: column `j` at row `b` is piece `j` at (b, 0). -/
theorem stack3_col0 {α : Type} (p0 p1 p2 : S32x1.Idx → α) (b : Fin 32) :
    concatenate S32x3 1 [⟨S32x1, p0⟩, ⟨S32x1, p1⟩, ⟨S32x1, p2⟩] concatenates_S32x1_S32x1_S32x1_S32x3_d1 (ix2 b (0 : Fin 3))
      = p0 (ix2 b (0 : Fin 1)) :=
  concatenate_apply_piece (1 : Fin S32x3.rank) [⟨S32x1, p0⟩, ⟨S32x1, p1⟩, ⟨S32x1, p2⟩]
    concatenates_S32x1_S32x1_S32x1_S32x3_d1 (ix2 b (0 : Fin 3)) 0 (by show (0 : Nat) < 3; decide) S32x1 p0 rfl rfl 0 rfl
    (ix2 b (0 : Fin 1)) (fun c hc => match c with | ⟨0, _⟩ => rfl | ⟨1, _⟩ => absurd (Fin.ext rfl) hc) rfl
theorem stack3_col1 {α : Type} (p0 p1 p2 : S32x1.Idx → α) (b : Fin 32) :
    concatenate S32x3 1 [⟨S32x1, p0⟩, ⟨S32x1, p1⟩, ⟨S32x1, p2⟩] concatenates_S32x1_S32x1_S32x1_S32x3_d1 (ix2 b (1 : Fin 3))
      = p1 (ix2 b (0 : Fin 1)) :=
  concatenate_apply_piece (1 : Fin S32x3.rank) [⟨S32x1, p0⟩, ⟨S32x1, p1⟩, ⟨S32x1, p2⟩]
    concatenates_S32x1_S32x1_S32x1_S32x3_d1 (ix2 b (1 : Fin 3)) 1 (by show (1 : Nat) < 3; decide) S32x1 p1 rfl rfl 1 rfl
    (ix2 b (0 : Fin 1)) (fun c hc => match c with | ⟨0, _⟩ => rfl | ⟨1, _⟩ => absurd (Fin.ext rfl) hc) rfl
theorem stack3_col2 {α : Type} (p0 p1 p2 : S32x1.Idx → α) (b : Fin 32) :
    concatenate S32x3 1 [⟨S32x1, p0⟩, ⟨S32x1, p1⟩, ⟨S32x1, p2⟩] concatenates_S32x1_S32x1_S32x1_S32x3_d1 (ix2 b (2 : Fin 3))
      = p2 (ix2 b (0 : Fin 1)) :=
  concatenate_apply_piece (1 : Fin S32x3.rank) [⟨S32x1, p0⟩, ⟨S32x1, p1⟩, ⟨S32x1, p2⟩]
    concatenates_S32x1_S32x1_S32x1_S32x3_d1 (ix2 b (2 : Fin 3)) 2 (by show (2 : Nat) < 3; decide) S32x1 p2 rfl rfl 2 rfl
    (ix2 b (0 : Fin 1)) (fun c hc => match c with | ⟨0, _⟩ => rfl | ⟨1, _⟩ => absurd (Fin.ext rfl) hc) rfl

theorem stacked_col0 (b : Fin 32) : stacked x a (ix2 b (0 : Fin 3)) = col (cRow x a) (ix2 b (0 : Fin 1)) :=
  stack3_col0 _ _ _ b
theorem stacked_col1 (b : Fin 32) : stacked x a (ix2 b (1 : Fin 3)) = col (k1Row a) (ix2 b (0 : Fin 1)) :=
  stack3_col1 _ _ _ b
theorem stacked_col2 (b : Fin 32) : stacked x a (ix2 b (2 : Fin 3)) = col (k2Row a) (ix2 b (0 : Fin 1)) :=
  stack3_col2 _ _ _ b

end AtIdeal

/-! ## The region's three host-written arrays at an index -/

section Prefix
variable (m : (ℓ : Loc nD τ sig) → Buf (Elt Ideal) ℓ) (c : Dev nD)

/-- The inputs and the coefficients as the launch memory holds them on core `c`. -/
abbrev argX : FVec Ideal S32x128 .f32 := m ((c : Thread nD τ).loc main_arg0)
abbrev argA : FVec Ideal S32 .f32 := m ((c : Thread nD τ).loc main_arg1)

/-- Column 0 of the stacked array: `c`. -/
theorem V_main_v20_c (b : Fin 32) :
    (V m c main_v20 : S32x3.Idx → EReal) (ix2 b (0 : Fin 3))
      = -(c64 * Ideal.log (cOne - argA m c (ix1 b))
          + Ideal.div cHalf (cOne - argA m c (ix1 b)) * (0 + ∑ k : Fin 128, argX m c (ix2 b k) * argX m c (ix2 b k))) := by
  rw [V_main_v20, stacked_col0, col_apply, cRow_apply]
/-- Column 1: `k1`. -/
theorem V_main_v20_k1 (b : Fin 32) :
    (V m c main_v20 : S32x3.Idx → EReal) (ix2 b (1 : Fin 3))
      = Ideal.div (Ideal.sqrt (argA m c (ix1 b))) (cOne - argA m c (ix1 b)) := by
  rw [V_main_v20, stacked_col1, col_apply, k1Row_apply]
/-- Column 2: `k2`. -/
theorem V_main_v20_k2 (b : Fin 32) :
    (V m c main_v20 : S32x3.Idx → EReal) (ix2 b (2 : Fin 3))
      = Ideal.div (argA m c (ix1 b)) (c2 * (cOne - argA m c (ix1 b))) := by
  rw [V_main_v20, stacked_col2, col_apply, k2Row_apply]
/-- The column of scales. -/
theorem V_main_v21_at (b : Fin 32) :
    (V m c main_v21 : S32x1.Idx → EReal) (ix2 b (0 : Fin 1)) = Ideal.sqrt (argA m c (ix1 b)) := by
  rw [V_main_v21, col_apply]
  rfl
/-- The column of variances. -/
theorem V_main_v22_at (b : Fin 32) :
    (V m c main_v22 : S32x1.Idx → EReal) (ix2 b (0 : Fin 1)) = cOne - argA m c (ix1 b) := by
  rw [V_main_v22, col_apply, varRow_apply]

end Prefix

end Cert.KernelIdeal.Hand

end
-- ==== Proof.KIdealLogit.lean ====
/-
  The kernel's scores at one grid point, over real inputs. At point `t` the body sees the whole array of inputs, the
  whole array of the stacked row scalars `[c, k1, k2]` and rows `4096 t … 4096 t + 4095` of the data; its score of
  row `b` against the block's row `j` is `(c_b + k1_b · ⟨x_b, D_n⟩) - k2_b · ⟨D_n, D_n⟩` with `n = 4096 t + j`, and
  over real inputs with coefficients in `[0, 1)` that is the coercion of the real expanded logit.
-/
import proofs.«157909_j21131239096722_2_alg».proof.Proof.KIdealBlocks
import proofs.«157909_j21131239096722_2_alg».proof.Proof.KPayC
import proofs.«157909_j21131239096722_2_alg».proof.Proof.KRows
import proofs.«157909_j21131239096722_2_alg».proof.Proof.KPrefix
import proofs.«157909_j21131239096722_2_alg».proof.Proof.RealSpec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Attn Cert.Attn.RefSpec Cert.Attn.RealSpec Cert.Attn.Rows Cert.KernelIdeal.Pay

variable (m : (ℓ : Loc nD τ sig) → Buf (Elt Ideal) ℓ) (c : Dev nD)
  (xr : Fin 32 → Fin 128 → ℝ) (ar : Fin 32 → ℝ) (Dr : Fin 32768 → Fin 128 → ℝ)

/-- The data as the launch memory holds it on core `c`. -/
abbrev argD : FVec Ideal S32768x128 .f32 := m ((c : Thread nD τ).loc main_arg2)

/-- The block of data at point `t`, entry (j, d): the real `D(4096 t + j, d)`. -/
theorem data_at (t : Fin cfg0.N) (ht : t.val < 8) (hD : ∀ n d, argD m c (ix2 n d) = ((Dr n d : ℝ) : EReal))
    (j : Fin 4096) (d : Fin 128) :
    (iblk m c 1 t : Vec Ideal S4096x128 .f32) (ix2 j d) = ((Dr (rowOf t.val ht j) d : ℝ) : EReal) :=
  (iblk1_apply m c t (ix2 j d) (ix2 (rowOf t.val ht j) d) rfl rfl).trans (hD _ _)

/-- The block of inputs at any point, entry (b, k): the real `x(b, k)`. -/
theorem query_at (t : Fin cfg0.N) (hx : ∀ b d, argX m c (ix2 b d) = ((xr b d : ℝ) : EReal)) (b : Fin 32) (k : Fin 128) :
    (iblk m c 0 t : Vec Ideal S32x128 .f32) (ix2 b k) = ((xr b k : ℝ) : EReal) :=
  (iblk0_apply m c t (ix2 b k)).trans (hx b k)

/-- The first stacked scalar of row `b`: the key-independent part of the logit. -/
theorem const_c_at (t : Fin cfg0.N) (hx : ∀ b d, argX m c (ix2 b d) = ((xr b d : ℝ) : EReal))
    (ha : ∀ b, argA m c (ix1 b) = ((ar b : ℝ) : EReal) ∧ 0 ≤ ar b ∧ ar b < 1) (b : Fin 32) :
    (iblk m c 2 t : Vec Ideal S32x3 .f32) (ix2 b (0 : Fin 3)) = ((cR xr ar b : ℝ) : EReal) := by
  refine (iblk2_apply m c t (ix2 b (0 : Fin 3))).trans ((V_main_v20_c m c b).trans ?_)
  rw [(ha b).1]
  simp only [hx]
  exact k0 xr ar b (ha b).2

/-- The second: the coefficient of the inner product. -/
theorem const_k1_at (t : Fin cfg0.N) (ha : ∀ b, argA m c (ix1 b) = ((ar b : ℝ) : EReal) ∧ 0 ≤ ar b ∧ ar b < 1)
    (b : Fin 32) : (iblk m c 2 t : Vec Ideal S32x3 .f32) (ix2 b (1 : Fin 3)) = ((k1R ar b : ℝ) : EReal) := by
  refine (iblk2_apply m c t (ix2 b (1 : Fin 3))).trans ((V_main_v20_k1 m c b).trans ?_)
  rw [(ha b).1]
  exact k1 ar b (ha b).2

/-- The third: the coefficient of the key's squared norm. -/
theorem const_k2_at (t : Fin cfg0.N) (ha : ∀ b, argA m c (ix1 b) = ((ar b : ℝ) : EReal) ∧ 0 ≤ ar b ∧ ar b < 1)
    (b : Fin 32) : (iblk m c 2 t : Vec Ideal S32x3 .f32) (ix2 b (2 : Fin 3)) = ((k2R ar b : ℝ) : EReal) := by
  refine (iblk2_apply m c t (ix2 b (2 : Fin 3))).trans ((V_main_v20_k2 m c b).trans ?_)
  rw [(ha b).1]
  exact k2 ar b (ha b).2

/-- THE SCORE at point `t`, row `b`, block row `j`: the real expanded logit of row `b` against key `4096 t + j`. -/
theorem logit_at (t : Fin cfg0.N) (ht : t.val < 8) (hx : ∀ b d, argX m c (ix2 b d) = ((xr b d : ℝ) : EReal))
    (ha : ∀ b, argA m c (ix1 b) = ((ar b : ℝ) : EReal) ∧ 0 ≤ ar b ∧ ar b < 1)
    (hD : ∀ n d, argD m c (ix2 n d) = ((Dr n d : ℝ) : EReal)) (b : Fin 32) (j : Fin 4096) :
    k0_pay10 (iblk m c 1 t) (iblk m c 0 t) (iblk m c 2 t) (ix2 b j)
      = ((lker xr ar Dr b (rowOf t.val ht j) : ℝ) : EReal) := by
  refine (pay10_apply (iblk m c 1 t) (iblk m c 0 t) (iblk m c 2 t) b j).trans ?_
  have hq : ∀ k : Fin 128, (iblk m c 0 t : Vec Ideal S32x128 .f32) (ix2 b k) = ((xr b k : ℝ) : EReal) :=
    fun k => query_at m c xr t hx b k
  have hd : ∀ k : Fin 128, (iblk m c 1 t : Vec Ideal S4096x128 .f32) (ix2 j k)
      = ((Dr (rowOf t.val ht j) k : ℝ) : EReal) := fun k => data_at m c Dr t ht hD j k
  rw [const_c_at m c xr ar t hx ha b, const_k1_at m c ar t ha b, const_k2_at m c ar t ha b]
  simp only [hq, hd]
  exact k3 (cR xr ar b) (k1R ar b) (k2R ar b) (xr b) (Dr (rowOf t.val ht j))

end Cert.KernelIdeal.Hand

end
-- ==== Proof.KFlashStep.lean ====
/-
  One grid point's update of the online-softmax invariant, read off the kernel body's stored values.

  Fix a query row `b` and a value column `d`.  The scores `ℓ n` and the values `Dc n` are real functions of
  the data-bank row `n`; at grid point `t` the body sees the 4096 rows of block `t`.  If the carried triple
  (maximum, sum, weighted sum) at `(b, d)` is the state after a set `S` of rows disjoint from the block,
  then the triple the body stores is the state after `S` and the block: the body's arithmetic is exactly
  one step of the online-softmax recurrence.  From the reset values `(-∞, 0, 0)` it is the state after the
  block alone.  At the end the two passes' states, merged and divided, give the softmax-weighted average
  over all rows.
-/
import proofs.«157909_j21131239096722_2_alg».proof.Proof.KPayC
import proofs.«157909_j21131239096722_2_alg».proof.Proof.LibOnlineSoftmaxB
import proofs.«157909_j21131239096722_2_alg».proof.Proof.KRows

noncomputable section

namespace Cert.KernelIdeal.Flash

open Cert.KernelIdeal Cert.KernelIdeal.Gen Cert.KernelIdeal.Pay OnlineSoftmax Cert.Attn.Rows Idealize.ShloMosaic
  Idealize.ShloMosaic.ValueIdx

/-- ONE GRID POINT.  With the block's scores and values real (`hlog`, `hdat`) and the carried triple the
    state after the rows `S`, disjoint from the block, the stored triple is the state after `S` and the
    block. -/
theorem flash_step (t : ℕ) (ht : t < 8) (ℓ Dc : Fin 32768 → ℝ) (S : Finset (Fin 32768))
    (x1 : Vec Ideal S4096x128 .f32) (x0 : Vec Ideal S32x128 .f32) (x2 : Vec Ideal S32x3 .f32)
    (sm sl : Vec Ideal S32x1 .f32) (sa : Vec Ideal S32x128 .f32) (b : Fin 32) (d : Fin 128)
    (hlog : ∀ j : Fin 4096, k0_pay10 x1 x0 x2 (ix2 b j) = ((ℓ (rowOf t ht j) : ℝ) : EReal))
    (hdat : ∀ j : Fin 4096, x1 (ix2 j d) = ((Dc (rowOf t ht j) : ℝ) : EReal))
    (hd : Disjoint S (blockSet t ht))
    (h : OnlineSoftmax.Inv ℓ Dc S (sm (ix2 b (0 : Fin 1))) (sl (ix2 b (0 : Fin 1))) (sa (ix2 b d))) :
    OnlineSoftmax.Inv ℓ Dc (S ∪ blockSet t ht) (k0_pay3 (k0_pay11 x1 x0 x2 sm) (ix2 b (0 : Fin 1)))
      (k0_pay1 (k0_pay14 x1 x0 x2 sm sl) (ix2 b (0 : Fin 1)))
      (k0_pay2 x1 (k0_pay12 x1 x0 x2 sm) (k0_pay13 x1 x0 x2 sm) sa (ix2 b d)) := by
  rw [pay3_eq, pay1_eq]
  have hmB : (Finset.univ : Finset (Fin 4096)).fold max ⊥ (fun j => k0_pay10 x1 x0 x2 (ix2 b j))
      = (((blockSet t ht).sup' (blockSet_nonempty t ht) ℓ : ℝ) : EReal) := by
    rw [← fold_max_coe (blockSet t ht) (blockSet_nonempty t ht) ℓ, fold_max_blockSet]
    exact congrArg (fun f => Finset.fold max ⊥ f Finset.univ) (funext hlog)
  refine h.step' (blockSet_nonempty t ht) hd hmB (pay11_apply x1 x0 x2 sm b) (pay12_apply x1 x0 x2 sm b) ?_ ?_
  · rw [pay14_apply, sum_blockSet]
    simp only [pay13_apply, hlog]
  · rw [pay2_apply, sum_blockSet]
    simp only [pay13_apply, hlog, hdat]

/-- THE FIRST POINT OF A PASS.  From the reset values `(-∞, 0, 0)` the stored triple is the state after the
    block alone. -/
theorem flash_first (t : ℕ) (ht : t < 8) (ℓ Dc : Fin 32768 → ℝ)
    (x1 : Vec Ideal S4096x128 .f32) (x0 : Vec Ideal S32x128 .f32) (x2 : Vec Ideal S32x3 .f32)
    (b : Fin 32) (d : Fin 128)
    (hlog : ∀ j : Fin 4096, k0_pay10 x1 x0 x2 (ix2 b j) = ((ℓ (rowOf t ht j) : ℝ) : EReal))
    (hdat : ∀ j : Fin 4096, x1 (ix2 j d) = ((Dc (rowOf t ht j) : ℝ) : EReal)) :
    OnlineSoftmax.Inv ℓ Dc (blockSet t ht) (k0_pay3 (k0_pay11 x1 x0 x2 (k0_pay9 (F := Ideal))) (ix2 b (0 : Fin 1)))
      (k0_pay1 (k0_pay14 x1 x0 x2 (k0_pay9 (F := Ideal)) (k0_pay8 (F := Ideal))) (ix2 b (0 : Fin 1)))
      (k0_pay2 x1 (k0_pay12 x1 x0 x2 (k0_pay9 (F := Ideal))) (k0_pay13 x1 x0 x2 (k0_pay9 (F := Ideal)))
        (k0_pay7 (F := Ideal)) (ix2 b d)) := by
  have h := flash_step t ht ℓ Dc ∅ x1 x0 x2 (k0_pay9 (F := Ideal)) (k0_pay8 (F := Ideal)) (k0_pay7 (F := Ideal))
    b d hlog hdat (Finset.disjoint_empty_left _)
    (by rw [pay9_apply, pay8_apply, pay7_apply]; exact inv_empty ℓ Dc)
  rwa [Finset.empty_union] at h

/-- The softmax-weighted average depends on the set of rows only. -/
theorem softmaxAvg_congr {ι : Type*} (ℓ D : ι → ℝ) {U U' : Finset ι} (hU : U.Nonempty) (hU' : U'.Nonempty)
    (e : U = U') : softmaxAvg ℓ D U hU = softmaxAvg ℓ D U' hU' := by
  subst e; rfl

/-- THE END.  The two passes' states, merged and divided, are the softmax-weighted average over all
    rows. -/
theorem flash_final (ℓ Dc : Fin 32768 → ℝ) {m0 l0 a0 m1 l1 a1 : EReal}
    (h0 : OnlineSoftmax.Inv ℓ Dc (seen 3) m0 l0 a0) (h1 : OnlineSoftmax.Inv ℓ Dc (seen 7) m1 l1 a1) :
    Ideal.div (Ideal.exp (m0 - max m0 m1) * a0 + Ideal.exp (m1 - max m0 m1) * a1)
        (Ideal.exp (m0 - max m0 m1) * l0 + Ideal.exp (m1 - max m0 m1) * l1)
      = ((softmaxAvg ℓ Dc Finset.univ Finset.univ_nonempty : ℝ) : EReal) := by
  have hS3 : (seen 3).Nonempty := seen_nonempty 3 (by omega)
  have hS7 : (seen 7).Nonempty := seen_nonempty 7 (by omega)
  have hU : (seen 3 ∪ seen 7).Nonempty := hS3.mono Finset.subset_union_left
  have hm := h0.merge h1 hS3 hS7 disjoint_halves
  refine (hm.div_eq hU).trans ?_
  exact congrArg _ (softmaxAvg_congr ℓ Dc hU Finset.univ_nonempty union_halves)

end Cert.KernelIdeal.Flash

end
-- ==== Proof.KIdealInv.lean ====
/-
  THE INDUCTION over the grid points. For a query row `b` and a column `d`, after grid point `n` the three carried
  buffers hold, at that row (and column), the online-softmax state of the rows the core has seen so far in its pass: the
  running maximum of the scores, the sum of the weights `exp (score − maximum)`, and the weighted sum of the data bank's
  column. At the first point of a pass the state starts from the reset values; at a later point from what the point
  before left.
-/
import proofs.«157909_j21131239096722_2_alg».proof.Proof.KIdealPieces
import proofs.«157909_j21131239096722_2_alg».proof.Proof.KIdealLogit
import proofs.«157909_j21131239096722_2_alg».proof.Proof.KFlashStep

set_option maxRecDepth 16384

noncomputable section

namespace Cert.KernelIdeal.Hand

open Cert.KernelIdeal Cert.KernelIdeal.Gen Cert.KernelIdeal.Pay Cert.KernelIdeal.Flash
open Cert.Attn.RefSpec Cert.Attn.RealSpec Cert.Attn.Rows OnlineSoftmax
open Idealize.ShloMosaic Idealize.ShloMosaic.TcCoe Idealize.ShloMosaic.ValueIdx Idealize.SL.Sem

variable (m : (ℓ : Loc nD τ sig) → Buf (Elt Ideal) ℓ) (c : Dev nD)
variable (xr : Fin 32 → Fin 128 → ℝ) (ar : Fin 32 → ℝ) (Dr : Fin 32768 → Fin 128 → ℝ)

/-- The recursion's own equation at a later position. -/
theorem outsAt0_succ (k : ℕ) (hn : k + 1 < cfg0.N) :
    outsAt0 m c (k + 1) hn = stepAt m c ⟨k + 1, hn⟩ (outsAt0 m c k (Nat.lt_of_succ_lt hn)) := rfl

-- from here on the recursion is never opened
attribute [local irreducible] outsAt0

set_option maxHeartbeats 4000000 in
/-- The invariant after every grid point. -/
theorem inv_at (hx : ∀ b d, argX m c (ix2 b d) = ((xr b d : ℝ) : EReal))
    (ha : ∀ b, argA m c (ix1 b) = ((ar b : ℝ) : EReal) ∧ 0 ≤ ar b ∧ ar b < 1)
    (hD : ∀ n d, argD m c (ix2 n d) = ((Dr n d : ℝ) : EReal)) (b : Fin 32) (d : Fin 128) :
    ∀ (n : ℕ) (hn : n < cfg0.N),
      OnlineSoftmax.Inv (lker xr ar Dr b) (fun r => Dr r d) (seen n)
        ((outsAt0 m c n hn).2.2.2.2.2 (ix2 b (0 : Fin 1))) ((outsAt0 m c n hn).2.2.2.2.1 (ix2 b (0 : Fin 1)))
        ((outsAt0 m c n hn).2.2.2.1 (ix2 b d)) := by
  have hN : cfg0.N = 8 := N_0
  intro n
  induction n with
  | zero =>
    intro hn
    have h8 : 0 < 8 := by omega
    have e : outsAt0 m c 0 hn = _ := outsAt0_A m c ⟨0, hn⟩ (Nat.zero_mod 4) (by show ¬(0 % 4 = 3); decide)
    rw [e]
    dsimp only
    rw [sA_2_eq, sA_1_eq, sA_0_eq, seen_first 0 h8 (Nat.zero_mod 4)]
    exact flash_first 0 h8 (lker xr ar Dr b) (fun r => Dr r d) (iblk m c 1 ⟨0, hn⟩) (iblk m c 0 ⟨0, hn⟩) (iblk m c 2 ⟨0, hn⟩) b d
      (fun j => logit_at m c xr ar Dr ⟨0, hn⟩ h8 hx ha hD b j) (fun j => data_at m c Dr ⟨0, hn⟩ h8 hD j d)
  | succ k ih =>
    intro hn
    have h8 : k + 1 < 8 := by omega
    by_cases h0 : (k + 1) % 4 = 0
    · have h1 : ¬(k + 1) % 4 = 3 := by omega
      have e : outsAt0 m c (k + 1) hn = _ := outsAt0_A m c ⟨k + 1, hn⟩ h0 h1
      rw [e]
      dsimp only
      rw [sA_2_eq, sA_1_eq, sA_0_eq, seen_first (k + 1) h8 h0]
      exact flash_first (k + 1) h8 (lker xr ar Dr b) (fun r => Dr r d) (iblk m c 1 ⟨k + 1, hn⟩) (iblk m c 0 ⟨k + 1, hn⟩) (iblk m c 2 ⟨k + 1, hn⟩) b d
        (fun j => logit_at m c xr ar Dr ⟨k + 1, hn⟩ h8 hx ha hD b j) (fun j => data_at m c Dr ⟨k + 1, hn⟩ h8 hD j d)
    · have hk := ih (Nat.lt_of_succ_lt hn)
      have hs : seen (k + 1) = seen k ∪ blockSet (k + 1) h8 := seen_later (k + 1) h8 h0
      have hdj : Disjoint (seen k) (blockSet (k + 1) h8) := disjoint_seen (k + 1) h8 h0
      rw [outsAt0_succ m c k hn, hs]
      by_cases h1 : (k + 1) % 4 = 3
      · rw [stepAt_C m c ⟨k + 1, hn⟩ _ h0 h1]
        dsimp only
        rw [sC_2_eq, sC_1_eq, sC_0_eq]
        exact flash_step (k + 1) h8 (lker xr ar Dr b) (fun r => Dr r d) (seen k) (iblk m c 1 ⟨k + 1, hn⟩) (iblk m c 0 ⟨k + 1, hn⟩) (iblk m c 2 ⟨k + 1, hn⟩)
          (outsAt0 m c k (Nat.lt_of_succ_lt hn)).2.2.2.2.2 (outsAt0 m c k (Nat.lt_of_succ_lt hn)).2.2.2.2.1 (outsAt0 m c k (Nat.lt_of_succ_lt hn)).2.2.2.1 b d
          (fun j => logit_at m c xr ar Dr ⟨k + 1, hn⟩ h8 hx ha hD b j) (fun j => data_at m c Dr ⟨k + 1, hn⟩ h8 hD j d) hdj hk
      · rw [stepAt_B m c ⟨k + 1, hn⟩ _ h0 h1]
        dsimp only
        rw [sB_2_eq, sB_1_eq, sB_0_eq]
        exact flash_step (k + 1) h8 (lker xr ar Dr b) (fun r => Dr r d) (seen k) (iblk m c 1 ⟨k + 1, hn⟩) (iblk m c 0 ⟨k + 1, hn⟩) (iblk m c 2 ⟨k + 1, hn⟩)
          (outsAt0 m c k (Nat.lt_of_succ_lt hn)).2.2.2.2.2 (outsAt0 m c k (Nat.lt_of_succ_lt hn)).2.2.2.2.1 (outsAt0 m c k (Nat.lt_of_succ_lt hn)).2.2.2.1 b d
          (fun j => logit_at m c xr ar Dr ⟨k + 1, hn⟩ h8 hx ha hD b j) (fun j => data_at m c Dr ⟨k + 1, hn⟩ h8 hD j d) hdj hk

/-- What the last step of a pass copies to the outputs is the carried state it leaves: at position `n` with
    `n % 4 = 3`, the three outputs' staging buffers hold the carried buffers' contents (under one more leading axis). -/
theorem outs_at_last (n : ℕ) (hn : n < cfg0.N) (h1 : n % 4 = 3) (b : Fin 32) (d : Fin 128) :
    (outsAt0 m c n hn).1 (ix3 (0 : Fin 1) b d) = (outsAt0 m c n hn).2.2.2.1 (ix2 b d)
    ∧ (outsAt0 m c n hn).2.1 (ix3 (0 : Fin 1) b (0 : Fin 1)) = (outsAt0 m c n hn).2.2.2.2.1 (ix2 b (0 : Fin 1))
    ∧ (outsAt0 m c n hn).2.2.1 (ix3 (0 : Fin 1) b (0 : Fin 1)) = (outsAt0 m c n hn).2.2.2.2.2 (ix2 b (0 : Fin 1)) := by
  have h0 : ¬n % 4 = 0 := by omega
  have hz : (⟨n, hn⟩ : Fin cfg0.N).val ≠ 0 := by show n ≠ 0; omega
  have e : outsAt0 m c n hn = _ := outsAt0_later m c ⟨n, hn⟩ hz
  rw [e, stepAt_C m c ⟨n, hn⟩ _ h0 h1]
  dsimp only
  rw [oC_3_eq, oC_4_eq, oC_5_eq, sC_0_eq, sC_1_eq, sC_2_eq]
  exact ⟨pay4_apply _ b d, pay5_apply _ b, pay6_apply _ b⟩

end Cert.KernelIdeal.Hand

end
-- ==== Proof.KIdealArrays.lean ====
/-
  The three output arrays after the run. Each is two slabs along its leading axis, one per core: slab 0 is what the
  last step of the first core's pass (grid point 3) wrote back, slab 1 what the last step of the second core's pass
  (grid point 7) wrote back. These are the only write-backs, and the two blocks cover the array.
-/
import proofs.«157909_j21131239096722_2_alg».proof.Proof.KIdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt3 : 3 < cfg0.N := by rw [show cfg0.N = 8 from N_0]; decide
theorem lt7 : 7 < cfg0.N := by rw [show cfg0.N = 8 from N_0]; decide

/-- The outputs' index maps, decided over the grid: block (core, 0, 0), the core being `t / 4`. -/
theorem idx_out : ∀ t : Fin cfg0.N,
    win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = 0 ∧ win0_4.index t (2 : Fin 3) = 0
    ∧ win0_5.index t (0 : Fin 3) = t.val / 4 ∧ win0_5.index t (1 : Fin 3) = 0 ∧ win0_5.index t (2 : Fin 3) = 0 :=
  (by decide +kernel : ∀ t : Fin grid0.N, _)

/-- The state after position `n`, at an equal position. -/
theorem outsAt0_congr (c : Dev nD) {n n' : ℕ} (h : n = n') (hn : n < cfg0.N) :
    outsAt0 m c n hn = outsAt0 m c n' (h ▸ hn) := by subst h; rfl

-- the recursion is never opened here: positions are compared as numbers only
attribute [local irreducible] outsAt0

/-! ## Output window 3 -/

/-- An index of the array, within its slab. -/
def low3 (i : S2x32x128.Idx) : S1x32x128.Idx := fun a => match a with
  | ⟨0, _⟩ => (0 : Fin 1)
  | ⟨1, _⟩ => i 1
  | ⟨2, _⟩ => i 2

/-- The array after the run: slab 0 from point 3, slab 1 from point 7. -/
def G3 (c : Dev nD) : S2x32x128.Idx → Elt F .f32 := fun i =>
  if (i 0).val = 0 then (outsAt0 m c 3 lt3).1 (low3 i) else (outsAt0 m c 7 lt7).1 (low3 i)

set_option maxHeartbeats 1600000 in
/-- What a write-back writes is its slab of `G3`. -/
theorem flushed3_eq (c : Dev nD) (t : Fin cfg0.N) (hf : (cfg0.win 3).flush t = true) :
    (dats m 0 c).flushed 3 t = ((cfg0.win 3).blk t).view.read (Elt F) (G3 m c) := by
  have hN : cfg0.N = 8 := N_0
  have h3 : t.val % 4 = 3 := (flush0_3 t).mp hf
  have ht : t.val = 3 ∨ t.val = 7 := by have := t.isLt; omega
  show (cfg0.win 3).cut (grid0.coords t) ((dats m 0 c).after 3 t) = _
  rw [after0_3]
  funext j
  rw [View.read_apply, cast_eq]
  have hj0 : (j 0).val = 0 := Nat.lt_one_iff.mp (j 0).isLt
  have hj1 : (j 1).val < 32 := (j 1).isLt
  have hj2 : (j 2).val < 128 := (j 2).isLt
  obtain ⟨i0, i1, i2, -, -, -, -, -, -⟩ := idx_out t
  rcases ht with h | h
  · have e0 : ((((cfg0.win 3).blk t).view.emb j) 0).val = 0 := by
      show win0_3.index t 0 * 1 + 1 * (j 0).val = 0
      rw [i0]; omega
    unfold G3
    rw [if_pos e0, outsAt0_congr m c h t.isLt]
    refine congrArg (outsAt0 m c 3 lt3).1 (?_ : (j : S1x32x128.Idx) = low3 _)
    funext a
    apply Fin.ext
    match a with
    | ⟨0, _⟩ => show (j 0).val = 0; exact hj0
    | ⟨1, _⟩ => show (j 1).val = win0_3.index t 1 * 32 + 1 * (j 1).val; rw [i1]; omega
    | ⟨2, _⟩ => show (j 2).val = win0_3.index t 2 * 128 + 1 * (j 2).val; rw [i2]; omega
  · have e0 : ¬((((cfg0.win 3).blk t).view.emb j) 0).val = 0 := by
      show ¬(win0_3.index t 0 * 1 + 1 * (j 0).val = 0)
      rw [i0]; omega
    unfold G3
    rw [if_neg e0, outsAt0_congr m c h t.isLt]
    refine congrArg (outsAt0 m c 7 lt7).1 (?_ : (j : S1x32x128.Idx) = low3 _)
    funext a
    apply Fin.ext
    match a with
    | ⟨0, _⟩ => show (j 0).val = 0; exact hj0
    | ⟨1, _⟩ => show (j 1).val = win0_3.index t 1 * 32 + 1 * (j 1).val; rw [i1]; omega
    | ⟨2, _⟩ => show (j 2).val = win0_3.index t 2 * 128 + 1 * (j 2).val; rw [i2]; omega

set_option maxHeartbeats 1600000 in
/-- The two written-back blocks cover the array, so it ends at `G3`. -/
theorem final3 (c : Dev nD) : (dats m 0 c).arrAt 3 cfg0.N = G3 m c :=
  (dats m 0 c).arrAt_eq_of_cover 3 (G3 m c) (flushed3_eq m c) fun i => by
    have h0 : (i 0 : Nat) < 2 := (i 0).isLt
    have h1 : (i 1 : Nat) < 32 := (i 1).isLt
    have h2 : (i 2 : Nat) < 128 := (i 2).isLt
    by_cases hq : (i 0).val = 0
    · refine ⟨t0_3, (flush0_3 t0_3).mpr rfl, ?_⟩
      show i ∈ ((View.whole main_v23_0).slice (win0_3.rect t0_3)).set
      rw [View.set_slice_whole, Rect.mem_set_unit]
      intro a
      match a with
      | ⟨0, _⟩ => show win0_3.index t0_3 0 * win0_3.size 0 ≤ (i 0 : Nat) ∧ (i 0 : Nat) < win0_3.index t0_3 0 * win0_3.size 0 + win0_3.xsize (grid0.coords t0_3) 0
                  rw [show win0_3.index t0_3 0 * win0_3.size 0 = 0 from by decide +kernel, show win0_3.xsize (grid0.coords t0_3) 0 = 1 from by decide +kernel]; omega
      | ⟨1, _⟩ => show win0_3.index t0_3 1 * win0_3.size 1 ≤ (i 1 : Nat) ∧ (i 1 : Nat) < win0_3.index t0_3 1 * win0_3.size 1 + win0_3.xsize (grid0.coords t0_3) 1
                  rw [show win0_3.index t0_3 1 * win0_3.size 1 = 0 from by decide +kernel, show win0_3.xsize (grid0.coords t0_3) 1 = 32 from by decide +kernel]; omega
      | ⟨2, _⟩ => show win0_3.index t0_3 2 * win0_3.size 2 ≤ (i 2 : Nat) ∧ (i 2 : Nat) < win0_3.index t0_3 2 * win0_3.size 2 + win0_3.xsize (grid0.coords t0_3) 2
                  rw [show win0_3.index t0_3 2 * win0_3.size 2 = 0 from by decide +kernel, show win0_3.xsize (grid0.coords t0_3) 2 = 128 from by decide +kernel]; omega
    · refine ⟨t0_7, (flush0_3 t0_7).mpr rfl, ?_⟩
      show i ∈ ((View.whole main_v23_0).slice (win0_3.rect t0_7)).set
      rw [View.set_slice_whole, Rect.mem_set_unit]
      intro a
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 1 from by decide +kernel, show win0_3.xsize (grid0.coords t0_7) 0 = 1 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 32 from by decide +kernel]; omega
      | ⟨2, _⟩ => show win0_3.index t0_7 2 * win0_3.size 2 ≤ (i 2 : Nat) ∧ (i 2 : Nat) < win0_3.index t0_7 2 * win0_3.size 2 + win0_3.xsize (grid0.coords t0_7) 2
                  rw [show win0_3.index t0_7 2 * win0_3.size 2 = 0 from by decide +kernel, show win0_3.xsize (grid0.coords t0_7) 2 = 128 from by decide +kernel]; omega

/-! ## Output window 4 -/

/-- An index of the array, within its slab. -/
def low4 (i : S2x32x1.Idx) : S1x32x1.Idx := fun a => match a with
  | ⟨0, _⟩ => (0 : Fin 1)
  | ⟨1, _⟩ => i 1
  | ⟨2, _⟩ => i 2

/-- The array after the run: slab 0 from point 3, slab 1 from point 7. -/
def G4 (c : Dev nD) : S2x32x1.Idx → Elt F .f32 := fun i =>
  if (i 0).val = 0 then (outsAt0 m c 3 lt3).2.1 (low4 i) else (outsAt0 m c 7 lt7).2.1 (low4 i)

set_option maxHeartbeats 1600000 in
/-- What a write-back writes is its slab of `G4`. -/
theorem flushed4_eq (c : Dev nD) (t : Fin cfg0.N) (hf : (cfg0.win 4).flush t = true) :
    (dats m 0 c).flushed 4 t = ((cfg0.win 4).blk t).view.read (Elt F) (G4 m c) := by
  have hN : cfg0.N = 8 := N_0
  have h3 : t.val % 4 = 3 := (flush0_4 t).mp hf
  have ht : t.val = 3 ∨ t.val = 7 := by have := t.isLt; omega
  show (cfg0.win 4).cut (grid0.coords t) ((dats m 0 c).after 4 t) = _
  rw [after0_4]
  funext j
  rw [View.read_apply, cast_eq]
  have hj0 : (j 0).val = 0 := Nat.lt_one_iff.mp (j 0).isLt
  have hj1 : (j 1).val < 32 := (j 1).isLt
  have hj2 : (j 2).val < 1 := (j 2).isLt
  obtain ⟨-, -, -, i0, i1, i2, -, -, -⟩ := idx_out t
  rcases ht with h | h
  · have e0 : ((((cfg0.win 4).blk t).view.emb j) 0).val = 0 := by
      show win0_4.index t 0 * 1 + 1 * (j 0).val = 0
      rw [i0]; omega
    unfold G4
    rw [if_pos e0, outsAt0_congr m c h t.isLt]
    refine congrArg (outsAt0 m c 3 lt3).2.1 (?_ : (j : S1x32x1.Idx) = low4 _)
    funext a
    apply Fin.ext
    match a with
    | ⟨0, _⟩ => show (j 0).val = 0; exact hj0
    | ⟨1, _⟩ => show (j 1).val = win0_4.index t 1 * 32 + 1 * (j 1).val; rw [i1]; omega
    | ⟨2, _⟩ => show (j 2).val = win0_4.index t 2 * 1 + 1 * (j 2).val; rw [i2]; omega
  · have e0 : ¬((((cfg0.win 4).blk t).view.emb j) 0).val = 0 := by
      show ¬(win0_4.index t 0 * 1 + 1 * (j 0).val = 0)
      rw [i0]; omega
    unfold G4
    rw [if_neg e0, outsAt0_congr m c h t.isLt]
    refine congrArg (outsAt0 m c 7 lt7).2.1 (?_ : (j : S1x32x1.Idx) = low4 _)
    funext a
    apply Fin.ext
    match a with
    | ⟨0, _⟩ => show (j 0).val = 0; exact hj0
    | ⟨1, _⟩ => show (j 1).val = win0_4.index t 1 * 32 + 1 * (j 1).val; rw [i1]; omega
    | ⟨2, _⟩ => show (j 2).val = win0_4.index t 2 * 1 + 1 * (j 2).val; rw [i2]; omega

set_option maxHeartbeats 1600000 in
/-- The two written-back blocks cover the array, so it ends at `G4`. -/
theorem final4 (c : Dev nD) : (dats m 0 c).arrAt 4 cfg0.N = G4 m c :=
  (dats m 0 c).arrAt_eq_of_cover 4 (G4 m c) (flushed4_eq m c) fun i => by
    have h0 : (i 0 : Nat) < 2 := (i 0).isLt
    have h1 : (i 1 : Nat) < 32 := (i 1).isLt
    have h2 : (i 2 : Nat) < 1 := (i 2).isLt
    by_cases hq : (i 0).val = 0
    · refine ⟨t0_3, (flush0_4 t0_3).mpr rfl, ?_⟩
      show i ∈ ((View.whole main_v23_1).slice (win0_4.rect t0_3)).set
      rw [View.set_slice_whole, Rect.mem_set_unit]
      intro a
      match a with
      | ⟨0, _⟩ => show win0_4.index t0_3 0 * win0_4.size 0 ≤ (i 0 : Nat) ∧ (i 0 : Nat) < win0_4.index t0_3 0 * win0_4.size 0 + win0_4.xsize (grid0.coords t0_3) 0
                  rw [show win0_4.index t0_3 0 * win0_4.size 0 = 0 from by decide +kernel, show win0_4.xsize (grid0.coords t0_3) 0 = 1 from by decide +kernel]; omega
      | ⟨1, _⟩ => show win0_4.index t0_3 1 * win0_4.size 1 ≤ (i 1 : Nat) ∧ (i 1 : Nat) < win0_4.index t0_3 1 * win0_4.size 1 + win0_4.xsize (grid0.coords t0_3) 1
                  rw [show win0_4.index t0_3 1 * win0_4.size 1 = 0 from by decide +kernel, show win0_4.xsize (grid0.coords t0_3) 1 = 32 from by decide +kernel]; omega
      | ⟨2, _⟩ => show win0_4.index t0_3 2 * win0_4.size 2 ≤ (i 2 : Nat) ∧ (i 2 : Nat) < win0_4.index t0_3 2 * win0_4.size 2 + win0_4.xsize (grid0.coords t0_3) 2
                  rw [show win0_4.index t0_3 2 * win0_4.size 2 = 0 from by decide +kernel, show win0_4.xsize (grid0.coords t0_3) 2 = 1 from by decide +kernel]; omega
    · refine ⟨t0_7, (flush0_4 t0_7).mpr rfl, ?_⟩
      show i ∈ ((View.whole main_v23_1).slice (win0_4.rect t0_7)).set
      rw [View.set_slice_whole, Rect.mem_set_unit]
      intro a
      match a with
      | ⟨0, _⟩ => show win0_4.index t0_7 0 * win0_4.size 0 ≤ (i 0 : Nat) ∧ (i 0 : Nat) < win0_4.index t0_7 0 * win0_4.size 0 + win0_4.xsize (grid0.coords t0_7) 0
                  rw [show win0_4.index t0_7 0 * win0_4.size 0 = 1 from by decide +kernel, show win0_4.xsize (grid0.coords t0_7) 0 = 1 from by decide +kernel]; omega
      | ⟨1, _⟩ => show win0_4.index t0_7 1 * win0_4.size 1 ≤ (i 1 : Nat) ∧ (i 1 : Nat) < win0_4.index t0_7 1 * win0_4.size 1 + win0_4.xsize (grid0.coords t0_7) 1
                  rw [show win0_4.index t0_7 1 * win0_4.size 1 = 0 from by decide +kernel, show win0_4.xsize (grid0.coords t0_7) 1 = 32 from by decide +kernel]; omega
      | ⟨2, _⟩ => show win0_4.index t0_7 2 * win0_4.size 2 ≤ (i 2 : Nat) ∧ (i 2 : Nat) < win0_4.index t0_7 2 * win0_4.size 2 + win0_4.xsize (grid0.coords t0_7) 2
                  rw [show win0_4.index t0_7 2 * win0_4.size 2 = 0 from by decide +kernel, show win0_4.xsize (grid0.coords t0_7) 2 = 1 from by decide +kernel]; omega

/-! ## Output window 5 -/

/-- An index of the array, within its slab. -/
def low5 (i : S2x32x1.Idx) : S1x32x1.Idx := fun a => match a with
  | ⟨0, _⟩ => (0 : Fin 1)
  | ⟨1, _⟩ => i 1
  | ⟨2, _⟩ => i 2

/-- The array after the run: slab 0 from point 3, slab 1 from point 7. -/
def G5 (c : Dev nD) : S2x32x1.Idx → Elt F .f32 := fun i =>
  if (i 0).val = 0 then (outsAt0 m c 3 lt3).2.2.1 (low5 i) else (outsAt0 m c 7 lt7).2.2.1 (low5 i)

set_option maxHeartbeats 1600000 in
/-- What a write-back writes is its slab of `G5`. -/
theorem flushed5_eq (c : Dev nD) (t : Fin cfg0.N) (hf : (cfg0.win 5).flush t = true) :
    (dats m 0 c).flushed 5 t = ((cfg0.win 5).blk t).view.read (Elt F) (G5 m c) := by
  have hN : cfg0.N = 8 := N_0
  have h3 : t.val % 4 = 3 := (flush0_5 t).mp hf
  have ht : t.val = 3 ∨ t.val = 7 := by have := t.isLt; omega
  show (cfg0.win 5).cut (grid0.coords t) ((dats m 0 c).after 5 t) = _
  rw [after0_5]
  funext j
  rw [View.read_apply, cast_eq]
  have hj0 : (j 0).val = 0 := Nat.lt_one_iff.mp (j 0).isLt
  have hj1 : (j 1).val < 32 := (j 1).isLt
  have hj2 : (j 2).val < 1 := (j 2).isLt
  obtain ⟨-, -, -, -, -, -, i0, i1, i2⟩ := idx_out t
  rcases ht with h | h
  · have e0 : ((((cfg0.win 5).blk t).view.emb j) 0).val = 0 := by
      show win0_5.index t 0 * 1 + 1 * (j 0).val = 0
      rw [i0]; omega
    unfold G5
    rw [if_pos e0, outsAt0_congr m c h t.isLt]
    refine congrArg (outsAt0 m c 3 lt3).2.2.1 (?_ : (j : S1x32x1.Idx) = low5 _)
    funext a
    apply Fin.ext
    match a with
    | ⟨0, _⟩ => show (j 0).val = 0; exact hj0
    | ⟨1, _⟩ => show (j 1).val = win0_5.index t 1 * 32 + 1 * (j 1).val; rw [i1]; omega
    | ⟨2, _⟩ => show (j 2).val = win0_5.index t 2 * 1 + 1 * (j 2).val; rw [i2]; omega
  · have e0 : ¬((((cfg0.win 5).blk t).view.emb j) 0).val = 0 := by
      show ¬(win0_5.index t 0 * 1 + 1 * (j 0).val = 0)
      rw [i0]; omega
    unfold G5
    rw [if_neg e0, outsAt0_congr m c h t.isLt]
    refine congrArg (outsAt0 m c 7 lt7).2.2.1 (?_ : (j : S1x32x1.Idx) = low5 _)
    funext a
    apply Fin.ext
    match a with
    | ⟨0, _⟩ => show (j 0).val = 0; exact hj0
    | ⟨1, _⟩ => show (j 1).val = win0_5.index t 1 * 32 + 1 * (j 1).val; rw [i1]; omega
    | ⟨2, _⟩ => show (j 2).val = win0_5.index t 2 * 1 + 1 * (j 2).val; rw [i2]; omega

set_option maxHeartbeats 1600000 in
/-- The two written-back blocks cover the array, so it ends at `G5`. -/
theorem final5 (c : Dev nD) : (dats m 0 c).arrAt 5 cfg0.N = G5 m c :=
  (dats m 0 c).arrAt_eq_of_cover 5 (G5 m c) (flushed5_eq m c) fun i => by
    have h0 : (i 0 : Nat) < 2 := (i 0).isLt
    have h1 : (i 1 : Nat) < 32 := (i 1).isLt
    have h2 : (i 2 : Nat) < 1 := (i 2).isLt
    by_cases hq : (i 0).val = 0
    · refine ⟨t0_3, (flush0_5 t0_3).mpr rfl, ?_⟩
      show i ∈ ((View.whole main_v23_2).slice (win0_5.rect t0_3)).set
      rw [View.set_slice_whole, Rect.mem_set_unit]
      intro a
      match a with
      | ⟨0, _⟩ => show win0_5.index t0_3 0 * win0_5.size 0 ≤ (i 0 : Nat) ∧ (i 0 : Nat) < win0_5.index t0_3 0 * win0_5.size 0 + win0_5.xsize (grid0.coords t0_3) 0
                  rw [show win0_5.index t0_3 0 * win0_5.size 0 = 0 from by decide +kernel, show win0_5.xsize (grid0.coords t0_3) 0 = 1 from by decide +kernel]; omega
      | ⟨1, _⟩ => show win0_5.index t0_3 1 * win0_5.size 1 ≤ (i 1 : Nat) ∧ (i 1 : Nat) < win0_5.index t0_3 1 * win0_5.size 1 + win0_5.xsize (grid0.coords t0_3) 1
                  rw [show win0_5.index t0_3 1 * win0_5.size 1 = 0 from by decide +kernel, show win0_5.xsize (grid0.coords t0_3) 1 = 32 from by decide +kernel]; omega
      | ⟨2, _⟩ => show win0_5.index t0_3 2 * win0_5.size 2 ≤ (i 2 : Nat) ∧ (i 2 : Nat) < win0_5.index t0_3 2 * win0_5.size 2 + win0_5.xsize (grid0.coords t0_3) 2
                  rw [show win0_5.index t0_3 2 * win0_5.size 2 = 0 from by decide +kernel, show win0_5.xsize (grid0.coords t0_3) 2 = 1 from by decide +kernel]; omega
    · refine ⟨t0_7, (flush0_5 t0_7).mpr rfl, ?_⟩
      show i ∈ ((View.whole main_v23_2).slice (win0_5.rect t0_7)).set
      rw [View.set_slice_whole, Rect.mem_set_unit]
      intro a
      match a with
      | ⟨0, _⟩ => show win0_5.index t0_7 0 * win0_5.size 0 ≤ (i 0 : Nat) ∧ (i 0 : Nat) < win0_5.index t0_7 0 * win0_5.size 0 + win0_5.xsize (grid0.coords t0_7) 0
                  rw [show win0_5.index t0_7 0 * win0_5.size 0 = 1 from by decide +kernel, show win0_5.xsize (grid0.coords t0_7) 0 = 1 from by decide +kernel]; omega
      | ⟨1, _⟩ => show win0_5.index t0_7 1 * win0_5.size 1 ≤ (i 1 : Nat) ∧ (i 1 : Nat) < win0_5.index t0_7 1 * win0_5.size 1 + win0_5.xsize (grid0.coords t0_7) 1
                  rw [show win0_5.index t0_7 1 * win0_5.size 1 = 0 from by decide +kernel, show win0_5.xsize (grid0.coords t0_7) 1 = 32 from by decide +kernel]; omega
      | ⟨2, _⟩ => show win0_5.index t0_7 2 * win0_5.size 2 ≤ (i 2 : Nat) ∧ (i 2 : Nat) < win0_5.index t0_7 2 * win0_5.size 2 + win0_5.xsize (grid0.coords t0_7) 2
                  rw [show win0_5.index t0_7 2 * win0_5.size 2 = 0 from by decide +kernel, show win0_5.xsize (grid0.coords t0_7) 2 = 1 from by decide +kernel]; omega

end Cert.KernelIdeal.Hand

end
-- ==== Proof.KTail.lean ====
/-
  The kernel program's host operations AFTER its region, as one pure function of the arrays they read, and that
  function read at an index on the extended reals.

  The region leaves, per core-half `h` (of 2) and row `b`, a partial maximum `m_h(b)`, a partial sum of weights
  `l_h(b)` and a partial weighted sum of the data `acc_h(b, d)`. The host merges the two halves:
      M = max m_0 m_1,   e_h = exp (m_h - M),   l = e_0 · l_0 + e_1 · l_1,   acc = e_0 · acc_0 + e_1 · acc_1,
  and finishes as the reference does:  out(b, d) = (x(b,d) - √a_b · (acc(b,d) ÷ l(b))) ÷ √(1 - a_b).
-/
import proofs.«157909_j21131239096722_2_alg».proof.Proof.KIdealKit
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

/-! ## The operations' composed term -/

section Terms
variable {F : FTy → Type} [FloatOps F]

/-- Half 0 of a [2, 32, 1] array, as a [32, 1] column. -/
def half0 (O : FVec F S2x32x1 .f32) : FVec F S32x1 .f32 :=
  shapeCast S32x1 (extractStridedSlice S1x32x1 ![0, 0, 0] O slices_S2x32x1_S1x32x1_0_0_0) shapeCasts_S1x32x1_S32x1
/-- Half 1 of a [2, 32, 1] array, as a [32, 1] column. -/
def half1 (O : FVec F S2x32x1 .f32) : FVec F S32x1 .f32 :=
  shapeCast S32x1 (extractStridedSlice S1x32x1 ![1, 0, 0] O slices_S2x32x1_S1x32x1_1_0_0) shapeCasts_S1x32x1_S32x1
/-- Half 0 of a [2, 32, 128] array, as a [32, 128] array. -/
def wideHalf0 (O : FVec F S2x32x128 .f32) : FVec F S32x128 .f32 :=
  shapeCast S32x128 (extractStridedSlice S1x32x128 ![0, 0, 0] O slices_S2x32x128_S1x32x128_0_0_0)
    shapeCasts_S1x32x128_S32x128
/-- Half 1 of a [2, 32, 128] array, as a [32, 128] array. -/
def wideHalf1 (O : FVec F S2x32x128 .f32) : FVec F S32x128 .f32 :=
  shapeCast S32x128 (extractStridedSlice S1x32x128 ![1, 0, 0] O slices_S2x32x128_S1x32x128_1_0_0)
    shapeCasts_S1x32x128_S32x128
/-- A [32, 1] column repeated along the features. -/
def wide (v : FVec F S32x1 .f32) : FVec F S32x128 .f32 := broadcastInDim S32x128 ![0, 1] bcast_S32x1_S32x128_0_1 v

/-- The merged maximum. -/
def mergedMax (O5 : FVec F S2x32x1 .f32) : FVec F S32x1 .f32 := maximumf (half0 O5) (half1 O5)
/-- The two halves' rescaling factors. -/
def factor0 (O5 : FVec F S2x32x1 .f32) : FVec F S32x1 .f32 := Host.exp (subf (half0 O5) (mergedMax O5))
def factor1 (O5 : FVec F S2x32x1 .f32) : FVec F S32x1 .f32 := Host.exp (subf (half1 O5) (mergedMax O5))
/-- The merged sum of weights. -/
def mergedSum (O4 O5 : FVec F S2x32x1 .f32) : FVec F S32x1 .f32 :=
  addf (mulf (factor0 O5) (half0 O4)) (mulf (factor1 O5) (half1 O4))
/-- The merged weighted sum of the data. -/
def mergedAcc (O3 : FVec F S2x32x128 .f32) (O5 : FVec F S2x32x1 .f32) : FVec F S32x128 .f32 :=
  addf (mulf (wide (factor0 O5)) (wideHalf0 O3)) (mulf (wide (factor1 O5)) (wideHalf1 O3))
/-- The host operations after the region, composed. -/
def tailFn (X : FVec F S32x128 .f32) (SA VA : FVec F S32x1 .f32) (O3 : FVec F S2x32x128 .f32)
    (O4 O5 : FVec F S2x32x1 .f32) : FVec F S32x128 .f32 :=
  Host.divf (subf X (mulf (wide SA) (Host.divf (mergedAcc O3 O5) (wide (mergedSum O4 O5))))) (wide (Host.sqrt VA))

set_option maxHeartbeats 4000000 in
/-- From ANY contents of the buffers, the result buffer after the 33 operations is `tailFn` of the six arrays they
    read. -/
theorem after_hostOps1 (W : Valuation τ sig (Elt F)) :
    (StableHlo.after (hostOps1 (F := F)) W (Proc.devRef .tc main_v56) : S32x128.Idx → F .f32)
      = tailFn (W (Proc.devRef .tc main_arg0)) (W (Proc.devRef .tc main_v21)) (W (Proc.devRef .tc main_v22))
          (W (Proc.devRef .tc main_v23_0)) (W (Proc.devRef .tc main_v23_1)) (W (Proc.devRef .tc main_v23_2)) := by
  unfold hostOps1
  after_results_simp
  rfl

end Terms

/-! ## Read at an index, on the extended reals -/

section AtIdeal

theorem half0_apply (O : FVec Ideal S2x32x1 .f32) (b : Fin 32) :
    half0 O (ix2 b (0 : Fin 1)) = O (ix3 (0 : Fin 2) b (0 : Fin 1)) := by
  unfold half0
  rw [shapeCast_1ab_ab_apply]
  exact extractStridedSlice_apply _ O slices_S2x32x1_S1x32x1_0_0_0 _ (ix3 (0 : Fin 2) b (0 : Fin 1)) (fun c => match c with
    | ⟨0, _⟩ => rfl
    | ⟨1, _⟩ => by show b.val = 0 + b.val; omega
    | ⟨2, _⟩ => rfl)
theorem half1_apply (O : FVec Ideal S2x32x1 .f32) (b : Fin 32) :
    half1 O (ix2 b (0 : Fin 1)) = O (ix3 (1 : Fin 2) b (0 : Fin 1)) := by
  unfold half1
  rw [shapeCast_1ab_ab_apply]
  exact extractStridedSlice_apply _ O slices_S2x32x1_S1x32x1_1_0_0 _ (ix3 (1 : Fin 2) b (0 : Fin 1)) (fun c => match c with
    | ⟨0, _⟩ => rfl
    | ⟨1, _⟩ => by show b.val = 0 + b.val; omega
    | ⟨2, _⟩ => rfl)
theorem wideHalf0_apply (O : FVec Ideal S2x32x128 .f32) (b : Fin 32) (d : Fin 128) :
    wideHalf0 O (ix2 b d) = O (ix3 (0 : Fin 2) b d) := by
  unfold wideHalf0
  rw [shapeCast_1ab_ab_apply]
  exact extractStridedSlice_apply _ O slices_S2x32x128_S1x32x128_0_0_0 _ (ix3 (0 : Fin 2) b d) (fun c => match c with
    | ⟨0, _⟩ => rfl
    | ⟨1, _⟩ => by show b.val = 0 + b.val; omega
    | ⟨2, _⟩ => by show d.val = 0 + d.val; omega)
theorem wideHalf1_apply (O : FVec Ideal S2x32x128 .f32) (b : Fin 32) (d : Fin 128) :
    wideHalf1 O (ix2 b d) = O (ix3 (1 : Fin 2) b d) := by
  unfold wideHalf1
  rw [shapeCast_1ab_ab_apply]
  exact extractStridedSlice_apply _ O slices_S2x32x128_S1x32x128_1_0_0 _ (ix3 (1 : Fin 2) b d) (fun c => match c with
    | ⟨0, _⟩ => rfl
    | ⟨1, _⟩ => by show b.val = 0 + b.val; omega
    | ⟨2, _⟩ => by show d.val = 0 + d.val; omega)
theorem wide_apply (v : FVec Ideal S32x1 .f32) (b : Fin 32) (d : Fin 128) : wide v (ix2 b d) = v (ix2 b (0 : Fin 1)) := by
  unfold wide
  exact broadcastInDim_apply _ bcast_S32x1_S32x128_0_1 v _ (ix2 b (0 : Fin 1)) (fun c => match c with
    | ⟨0, _⟩ => by show b.val = if (32 : Nat) = 1 then 0 else b.val; rw [if_neg (by decide)]
    | ⟨1, _⟩ => by show 0 = if (1 : Nat) = 1 then 0 else d.val; rw [if_pos rfl])

/-- The merged maximum at a row. -/
def maxAt (O5 : FVec Ideal S2x32x1 .f32) (b : Fin 32) : EReal :=
  max (O5 (ix3 (0 : Fin 2) b (0 : Fin 1))) (O5 (ix3 (1 : Fin 2) b (0 : Fin 1)))
/-- The two rescaling factors at a row. -/
def e0At (O5 : FVec Ideal S2x32x1 .f32) (b : Fin 32) : EReal :=
  Ideal.exp (O5 (ix3 (0 : Fin 2) b (0 : Fin 1)) - maxAt O5 b)
def e1At (O5 : FVec Ideal S2x32x1 .f32) (b : Fin 32) : EReal :=
  Ideal.exp (O5 (ix3 (1 : Fin 2) b (0 : Fin 1)) - maxAt O5 b)

theorem factor0_apply (O5 : FVec Ideal S2x32x1 .f32) (b : Fin 32) : factor0 O5 (ix2 b (0 : Fin 1)) = e0At O5 b := by
  show Ideal.exp (half0 O5 (ix2 b (0 : Fin 1)) - max (half0 O5 (ix2 b (0 : Fin 1))) (half1 O5 (ix2 b (0 : Fin 1)))) = _
  rw [half0_apply, half1_apply]
  rfl
theorem factor1_apply (O5 : FVec Ideal S2x32x1 .f32) (b : Fin 32) : factor1 O5 (ix2 b (0 : Fin 1)) = e1At O5 b := by
  show Ideal.exp (half1 O5 (ix2 b (0 : Fin 1)) - max (half0 O5 (ix2 b (0 : Fin 1))) (half1 O5 (ix2 b (0 : Fin 1)))) = _
  rw [half0_apply, half1_apply]
  rfl
theorem mergedSum_apply (O4 O5 : FVec Ideal S2x32x1 .f32) (b : Fin 32) :
    mergedSum O4 O5 (ix2 b (0 : Fin 1))
      = e0At O5 b * O4 (ix3 (0 : Fin 2) b (0 : Fin 1)) + e1At O5 b * O4 (ix3 (1 : Fin 2) b (0 : Fin 1)) := by
  show factor0 O5 (ix2 b (0 : Fin 1)) * half0 O4 (ix2 b (0 : Fin 1))
      + factor1 O5 (ix2 b (0 : Fin 1)) * half1 O4 (ix2 b (0 : Fin 1)) = _
  rw [factor0_apply, factor1_apply, half0_apply, half1_apply]
theorem mergedAcc_apply (O3 : FVec Ideal S2x32x128 .f32) (O5 : FVec Ideal S2x32x1 .f32) (b : Fin 32) (d : Fin 128) :
    mergedAcc O3 O5 (ix2 b d) = e0At O5 b * O3 (ix3 (0 : Fin 2) b d) + e1At O5 b * O3 (ix3 (1 : Fin 2) b d) := by
  show wide (factor0 O5) (ix2 b d) * wideHalf0 O3 (ix2 b d) + wide (factor1 O5) (ix2 b d) * wideHalf1 O3 (ix2 b d) = _
  rw [wide_apply, wide_apply, factor0_apply, factor1_apply, wideHalf0_apply, wideHalf1_apply]

/-- THE TAIL AT AN INDEX. -/
theorem tailFn_apply (X : FVec Ideal S32x128 .f32) (SA VA : FVec Ideal S32x1 .f32) (O3 : FVec Ideal S2x32x128 .f32)
    (O4 O5 : FVec Ideal S2x32x1 .f32) (b : Fin 32) (d : Fin 128) :
    tailFn X SA VA O3 O4 O5 (ix2 b d)
      = Ideal.div (X (ix2 b d) - SA (ix2 b (0 : Fin 1))
            * Ideal.div (e0At O5 b * O3 (ix3 (0 : Fin 2) b d) + e1At O5 b * O3 (ix3 (1 : Fin 2) b d))
                (e0At O5 b * O4 (ix3 (0 : Fin 2) b (0 : Fin 1)) + e1At O5 b * O4 (ix3 (1 : Fin 2) b (0 : Fin 1))))
          (Ideal.sqrt (VA (ix2 b (0 : Fin 1)))) := by
  show Ideal.div (X (ix2 b d) - wide SA (ix2 b d)
        * Ideal.div (mergedAcc O3 O5 (ix2 b d)) (wide (mergedSum O4 O5) (ix2 b d))) (wide (Host.sqrt VA) (ix2 b d)) = _
  rw [wide_apply, wide_apply, wide_apply, mergedAcc_apply, mergedSum_apply]
  rfl

end AtIdeal

end Cert.KernelIdeal.Hand

end
-- ==== Proof.KIdealValue.lean ====
/-
  THE KERNEL PROGRAM'S RESULT. The host operations after the region combine the two cores' states — with `M` the larger of
  the two running maxima, each core's sums are rescaled by `exp (its maximum − M)` and added — divide the combined
  weighted sum by the combined sum of weights, and finish with `(x − √α · quotient) / √(1 − α)`. By the induction over the
  grid points each core's state is the online-softmax state of its half of the rows, so the quotient is the softmax
  average of the data bank's column over all rows, which is what the reference computes directly.
-/
import proofs.«157909_j21131239096722_2_alg».proof.Proof.KIdealInv
import proofs.«157909_j21131239096722_2_alg».proof.Proof.KIdealArrays
import proofs.«157909_j21131239096722_2_alg».proof.Proof.KTail

set_option maxRecDepth 16384

noncomputable section

namespace Cert.KernelIdeal.Hand

open Cert.KernelIdeal Cert.KernelIdeal.Gen Cert.KernelIdeal.Pay Cert.KernelIdeal.Flash
open Cert.Attn.RefSpec Cert.Attn.RealSpec Cert.Attn.Rows OnlineSoftmax
open Idealize.ShloMosaic Idealize.ShloMosaic.TcCoe Idealize.ShloMosaic.ValueIdx Idealize.SL.Sem

variable (m : (ℓ : Loc nD τ sig) → Buf (Elt Ideal) ℓ) (c : Dev nD)
variable (xr : Fin 32 → Fin 128 → ℝ) (ar : Fin 32 → ℝ) (Dr : Fin 32768 → Fin 128 → ℝ)

attribute [local irreducible] outsAt0

/-- The program's result array as the function the host operations after the region compute of the query rows, the
    two per-row columns `√α` and `1 − α`, and the three output arrays. -/
def kres : FVec Ideal S32x128 .f32 :=
  tailFn (argX m c) (V m c main_v21) (V m c main_v22) (G3 m c) (G4 m c) (G5 m c)

set_option maxHeartbeats 4000000 in
/-- What the frame run's post says the result buffer holds is `kres`. -/
theorem result_tail :
    (Pipeline.afterTail₀ cfgs (dats m) 0 (V0 m) [hostOps1] c main_v56 : S32x128.Idx → EReal) = kres m c := by
  unfold Pipeline.afterTail₀ kres
  show StableHlo.after hostOps1 (Pipeline.withArrays spec0 c (V0 m c) fun w => (dats m 0 c).arrAt w cfg0.N) (Proc.devRef .tc main_v56) = _
  rw [after_hostOps1 (F := Ideal)]
  have e0 : (Pipeline.withArrays spec0 c (V0 m c) (fun w => (dats m 0 c).arrAt w cfg0.N)) (Proc.devRef .tc main_arg0) = argX m c :=
    (Pipeline.withArrays_arr spec0 launch0.win.arr_inj c _ _ 0).trans (((dats m 0 c).arrAt_in 0 rfl _).trans ((A_eq m c 0).trans (V_main_arg0 m c)))
  have e3 : (Pipeline.withArrays spec0 c (V0 m c) (fun w => (dats m 0 c).arrAt w cfg0.N)) (Proc.devRef .tc main_v23_0) = G3 m c :=
    (Pipeline.withArrays_arr spec0 launch0.win.arr_inj c _ _ 3).trans (final3 m c)
  have e4 : (Pipeline.withArrays spec0 c (V0 m c) (fun w => (dats m 0 c).arrAt w cfg0.N)) (Proc.devRef .tc main_v23_1) = G4 m c :=
    (Pipeline.withArrays_arr spec0 launch0.win.arr_inj c _ _ 4).trans (final4 m c)
  have e5 : (Pipeline.withArrays spec0 c (V0 m c) (fun w => (dats m 0 c).arrAt w cfg0.N)) (Proc.devRef .tc main_v23_2) = G5 m c :=
    (Pipeline.withArrays_arr spec0 launch0.win.arr_inj c _ _ 5).trans (final5 m c)
  have e21 : (Pipeline.withArrays spec0 c (V0 m c) (fun w => (dats m 0 c).arrAt w cfg0.N)) (Proc.devRef .tc main_v21) = V m c main_v21 :=
    Pipeline.withArrays_of_ne spec0 c (V0 m c) _ main_v21 (by exact (by decide : ∀ w, Pipeline.arrRef spec0 w ≠ main_v21))
  have e22 : (Pipeline.withArrays spec0 c (V0 m c) (fun w => (dats m 0 c).arrAt w cfg0.N)) (Proc.devRef .tc main_v22) = V m c main_v22 :=
    Pipeline.withArrays_of_ne spec0 c (V0 m c) _ main_v22 (by exact (by decide : ∀ w, Pipeline.arrRef spec0 w ≠ main_v22))
  rw [e0, e3, e4, e5, e21, e22]

/-- An index of slab `q`, within the slab. -/
theorem low3_ix3 (q : Fin 2) (b : Fin 32) (d : Fin 128) : low3 (ix3 q b d) = ix3 (0 : Fin 1) b d := by
  funext a; match a with | ⟨0, _⟩ => rfl | ⟨1, _⟩ => rfl | ⟨2, _⟩ => rfl
theorem low4_ix3 (q : Fin 2) (b : Fin 32) : low4 (ix3 q b (0 : Fin 1)) = ix3 (0 : Fin 1) b (0 : Fin 1) := by
  funext a; match a with | ⟨0, _⟩ => rfl | ⟨1, _⟩ => rfl | ⟨2, _⟩ => rfl
theorem low5_ix3 (q : Fin 2) (b : Fin 32) : low5 (ix3 q b (0 : Fin 1)) = ix3 (0 : Fin 1) b (0 : Fin 1) := by
  funext a; match a with | ⟨0, _⟩ => rfl | ⟨1, _⟩ => rfl | ⟨2, _⟩ => rfl

/-- The output arrays' slabs are the carried states the two passes end with. -/
theorem G3_slab0 (b : Fin 32) (d : Fin 128) : G3 m c (ix3 (0 : Fin 2) b d) = (outsAt0 m c 3 lt3).2.2.2.1 (ix2 b d) := by
  unfold G3; rw [if_pos (show ((0 : Fin 2) : ℕ) = 0 from rfl), low3_ix3]; exact (outs_at_last m c 3 lt3 rfl b d).1
theorem G3_slab1 (b : Fin 32) (d : Fin 128) : G3 m c (ix3 (1 : Fin 2) b d) = (outsAt0 m c 7 lt7).2.2.2.1 (ix2 b d) := by
  unfold G3; rw [if_neg (show ¬(((1 : Fin 2) : ℕ) = 0) from by decide), low3_ix3]; exact (outs_at_last m c 7 lt7 rfl b d).1
theorem G4_slab0 (b : Fin 32) : G4 m c (ix3 (0 : Fin 2) b (0 : Fin 1)) = (outsAt0 m c 3 lt3).2.2.2.2.1 (ix2 b (0 : Fin 1)) := by
  unfold G4; rw [if_pos (show ((0 : Fin 2) : ℕ) = 0 from rfl), low4_ix3]; exact (outs_at_last m c 3 lt3 rfl b 0).2.1
theorem G4_slab1 (b : Fin 32) : G4 m c (ix3 (1 : Fin 2) b (0 : Fin 1)) = (outsAt0 m c 7 lt7).2.2.2.2.1 (ix2 b (0 : Fin 1)) := by
  unfold G4; rw [if_neg (show ¬(((1 : Fin 2) : ℕ) = 0) from by decide), low4_ix3]; exact (outs_at_last m c 7 lt7 rfl b 0).2.1
theorem G5_slab0 (b : Fin 32) : G5 m c (ix3 (0 : Fin 2) b (0 : Fin 1)) = (outsAt0 m c 3 lt3).2.2.2.2.2 (ix2 b (0 : Fin 1)) := by
  unfold G5; rw [if_pos (show ((0 : Fin 2) : ℕ) = 0 from rfl), low5_ix3]; exact (outs_at_last m c 3 lt3 rfl b 0).2.2
theorem G5_slab1 (b : Fin 32) : G5 m c (ix3 (1 : Fin 2) b (0 : Fin 1)) = (outsAt0 m c 7 lt7).2.2.2.2.2 (ix2 b (0 : Fin 1)) := by
  unfold G5; rw [if_neg (show ¬(((1 : Fin 2) : ℕ) = 0) from by decide), low5_ix3]; exact (outs_at_last m c 7 lt7 rfl b 0).2.2

set_option maxHeartbeats 4000000 in
/-- THE VALUE: under the precondition's witnesses, the kernel program's result at `(b, d)` is the reference's. -/
theorem kres_apply (hx : ∀ b d, argX m c (ix2 b d) = ((xr b d : ℝ) : EReal))
    (ha : ∀ b, argA m c (ix1 b) = ((ar b : ℝ) : EReal) ∧ 0 ≤ ar b ∧ ar b < 1)
    (hD : ∀ n d, argD m c (ix2 n d) = ((Dr n d : ℝ) : EReal)) (b : Fin 32) (d : Fin 128) :
    kres m c (ix2 b d) = Cert.Attn.RefSpec.out (argX m c) (argA m c) (argD m c) b d := by
  unfold kres
  rw [tailFn_apply]
  unfold e0At e1At maxAt
  rw [G3_slab0, G3_slab1, G4_slab0, G4_slab1, G5_slab0, G5_slab1, V_main_v21_at, V_main_v22_at]
  rw [flash_final (lker xr ar Dr b) (fun r => Dr r d) (inv_at m c xr ar Dr hx ha hD b d 3 lt3) (inv_at m c xr ar Dr hx ha hD b d 7 lt7)]
  have hl : lker xr ar Dr b = lref xr ar Dr b := funext fun n => lker_eq_lref (ha b).2
  unfold Cert.Attn.RefSpec.out
  rw [mean_real hx ha hD b d, hl]
  rfl

end Cert.KernelIdeal.Hand

end
-- ==== Proof.RefFrame.lean ====
/-
  The reference program runs and leaves its three argument arrays unchanged: this is the generated run of the host
  program (every weakly fair execution terminates with the result at the operations' composed term and the arguments
  unchanged) with the conjunct about the result dropped.
-/
import proofs.«157909_j21131239096722_2_alg».proof.Defs
import proofs.«157909_j21131239096722_2_alg».proof.Proof.Gen.ReferenceIdeal
import proofs.«157909_j21131239096722_2_alg».proof.Proof.Gen.Pre_finite_inputs
import proofs.«157909_j21131239096722_2_alg».proof.Proof.Gen.ReferenceIdeal.Run

noncomputable section

open Idealize.ShloMosaic Idealize.ShloMosaic.TcCoe Idealize.SL.Sem

namespace Cert.Proof.RefFrame

/-- The reference terminates on every weakly fair execution, without fault, and its arguments end as they began. -/
theorem frame_ri :
    @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

end Cert.Proof.RefFrame

end
-- ==== Proof.RefLogit.lean ====
/-
  The reference's logits read at an index: the stage that holds `-(64 · log v + (1/2 ÷ v) · q)`, with every
  broadcast of a row's scalar or of a key's features read through to the argument arrays, is the specification's
  `logit` at the index's row and key.
-/
import proofs.«157909_j21131239096722_2_alg».proof.Proof.Gen.ReferenceIdeal.Read
import proofs.«157909_j21131239096722_2_alg».proof.Proof.RefSpec

noncomputable section

namespace Cert.ReferenceIdeal.RefValue

open Cert.ReferenceIdeal Cert.ReferenceIdeal.Gen Cert.ReferenceIdeal.Read Idealize.ShloMosaic Idealize.ShloMosaic.ValueIdx
open Cert.Attn

variable (x : FVec Ideal S32x128 .f32) (a : FVec Ideal S32 .f32) (D : FVec Ideal S32768x128 .f32)

/-! ### The row scalars: the scale `√a` and the variance `1 - a`, as columns -/

/-- The column of scales at a row is `√(a_b)`. -/
theorem scale_col (j : S32x1.Idx) : val_main_v1 (F := Ideal) a j = RefSpec.scale a (j 0) := by
  rw [val_main_v1_apply, val_main_v0_apply]
  exact congrArg (fun k => Ideal.sqrt (a k)) (funext fun c => Fin.ext (by match c with | ⟨0, _⟩ => rfl))

/-- The column of variances at a row is `1 - a_b`. -/
theorem var_col (j : S32x1.Idx) : val_main_v4 (F := Ideal) a j = RefSpec.var a (j 0) := by
  rw [val_main_v4_apply, val_main_v3_apply, val_main_v2_apply, val_main_cst_apply]
  exact congrArg (fun k => RefSpec.cOne - a k) (funext fun c => Fin.ext (by match c with | ⟨0, _⟩ => rfl))

/-! ### The squared distance -/

/-- One term of the squared distance: the difference of the row's feature and the scaled key's. -/
theorem diff_at (t : S32x32768x128.Idx) :
    val_main_v12 (F := Ideal) x a D t = RefSpec.diff x a D (t 0) (t 1) (t 2) := by
  rw [val_main_v12_apply, val_main_v11_apply, val_main_v5_apply, val_main_v10_apply, val_main_v8_apply,
    val_main_v6_apply, scale_col, val_main_v9_apply, val_main_v7_apply]
  have e1 : idx_main_v5 (idx_main_v11 t) = ix2 (t 0) (t 2) :=
    funext fun c => Fin.ext (by match c with | ⟨0, _⟩ => rfl | ⟨1, _⟩ => rfl)
  have e2 : idx_main_v7 (idx_main_v9 t) = ix2 (t 1) (t 2) :=
    funext fun c => Fin.ext (by match c with | ⟨0, _⟩ => rfl | ⟨1, _⟩ => rfl)
  rw [e1, e2]
  rfl

/-- The squared distance of a row to a key: the sum from `0` over the features. -/
theorem sqDist_at (i : S32x32768.Idx) :
    val_main_v14 (F := Ideal) x a D i = RefSpec.sqDist x a D (i 0) (i 1) := by
  rw [val_main_v14_apply, val_main_cst_0_apply, Ideal.ofBits_def, Ideal.ofBits_zero_f32]
  refine congrArg (0 + ·) (Finset.sum_congr rfl fun k _ => ?_)
  rw [val_main_v13_apply, diff_at]
  rfl

/-! ### The logits -/

/-- The reference's logits at (row, key). -/
theorem logit_at (i : S32x32768.Idx) :
    val_main_v24 (F := Ideal) x a D i = RefSpec.logit x a D (i 0) (i 1) := by
  rw [val_main_v24_apply, val_main_v23_apply, val_main_v22_apply, val_main_v17_apply, val_main_v16_apply,
    val_main_cst_1_apply, val_main_v15_apply, var_col, val_main_v21_apply, val_main_v20_apply, val_main_v19_apply,
    val_main_v18_apply, val_main_cst_2_apply, var_col, sqDist_at]
  rfl

end Cert.ReferenceIdeal.RefValue

end
-- ==== Proof.RefMax.lean ====
/-
  The reference's row maximum. The maximum over the keys is a `reduce` whose body is `max` and whose initial value
  is the word of `-inf`: at a row it is the fold of `max` from `⊥` over the 32768 keys of the logits at that row;
  the program then takes the maximum of that and `-inf` once more.
-/
import proofs.«157909_j21131239096722_2_alg».proof.Proof.RefLogit
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Attn

variable (x : FVec Ideal S32x128 .f32) (a : FVec Ideal S32 .f32) (D : FVec Ideal S32768x128 .f32)

/-- Dropping the key axis of a (row, key) index leaves the row. -/
theorem reduces_keys : S32x32768.Reduces [1] S32 := by decide

/-- The row `b` with key `k` put back is (b, k). -/
theorem lift_keys (b : Fin 32) (k : Fin (S32x32768.size 1)) :
    reduces_keys.lift (ix1 b) k = ix2 b (⟨k.val, k.isLt⟩ : Fin 32768) := by
  funext c; apply Fin.ext
  fin_cases c <;> rfl

/-- The reduce over the keys at a row: the fold of `max` from `⊥` of that row's logits. -/
theorem keyMax_at (j : S32.Idx) :
    val_main_v25 (F := Ideal) x a D j
      = (Finset.univ : Finset (Fin 32768)).fold max ⊥ (fun n => RefSpec.logit x a D (j 0) n) := by
  obtain ⟨b, rfl⟩ : ∃ b : Fin 32, j = ix1 b := ⟨j 0, eq_ix1 j⟩
  unfold val_main_v25
  rw [Host.reduce_eq_fold_single FloatOps.maximumf _ _ reducesTo_S32x32768_S32_d1 reduces_keys h_S_]
  have hf : (val_main_v24 (F := Ideal) x a D ∘ reduces_keys.lift (ix1 b))
      = fun n : Fin 32768 => RefSpec.logit x a D b n := funext fun k => by
    show val_main_v24 (F := Ideal) x a D (reduces_keys.lift (ix1 b) k) = _
    rw [lift_keys, logit_at]
    rfl
  have hi : val_main_cst_3 (F := Ideal) (Shape.Idx.first h_S_) = (⊥ : EReal) := RefSpec.ofBits_neg_inf
  rw [hi]
  exact congrArg (fun f => Finset.fold max (⊥ : EReal) f (Finset.univ : Finset (Fin 32768))) hf

/-- The row maximum the program subtracts: the fold above, taken against `⊥` once more. -/
theorem rowMax_at (j : S32.Idx) : val_main_v27 (F := Ideal) x a D j = RefSpec.rowMax x a D (j 0) := by
  rw [val_main_v27_apply, val_main_v26_apply, val_main_cst_4_apply, keyMax_at]
  show max (Ideal.ofBits .f32 0xFF800000#32) _ = _
  rw [RefSpec.ofBits_neg_inf]
  rfl

end Cert.ReferenceIdeal.RefValue

end
-- ==== Proof.RefValue.lean ====
/-
  The reference's result array is the specification's: the numerators `exp (ℓ - M)`, their sum from `0`, the
  quotients contracted with the data (the `dot_general`, one contracted axis: the keys), and the last affine step
  `(x - s · X) ÷ √v`, each read at an index from the stage before it.
-/
import proofs.«157909_j21131239096722_2_alg».proof.Proof.RefMax

noncomputable section

namespace Cert.ReferenceIdeal.RefValue

open Cert.ReferenceIdeal Cert.ReferenceIdeal.Gen Cert.ReferenceIdeal.Read Idealize.ShloMosaic Idealize.ShloMosaic.ValueIdx
open Cert.Attn

variable (x : FVec Ideal S32x128 .f32) (a : FVec Ideal S32 .f32) (D : FVec Ideal S32768x128 .f32)

/-- The numerators: `exp` of the logit less the row maximum. -/
theorem numer_at (j : S32x32768.Idx) :
    val_main_v31 (F := Ideal) x a D j = RefSpec.numer x a D (j 0) (j 1) := by
  rw [val_main_v31_apply, val_main_v30_apply, logit_at, val_main_v29_apply, val_main_v28_apply, rowMax_at]
  rfl

/-- The denominators: a row's numerators summed from `0`. -/
theorem denom_at (k : S32.Idx) : val_main_v32 (F := Ideal) x a D k = RefSpec.denom x a D (k 0) := by
  rw [val_main_v32_apply, val_main_cst_5_apply, Ideal.ofBits_def, Ideal.ofBits_zero_f32]
  refine congrArg (0 + ·) (Finset.sum_congr rfl fun n _ => ?_)
  rw [numer_at]
  rfl

/-- The weights: each numerator divided by its row's sum. -/
theorem weight_at (j : S32x32768.Idx) :
    val_main_v35 (F := Ideal) x a D j
      = Ideal.div (RefSpec.numer x a D (j 0) (j 1)) (RefSpec.denom x a D (j 0)) := by
  rw [val_main_v35_apply, numer_at, val_main_v34_apply, val_main_v33_apply, denom_at]
  rfl

/-- The weighted mean of the keys: the contraction of the weights with the data over the keys. -/
theorem mean_at (i : S32x128.Idx) : val_main_v36 (F := Ideal) x a D i = RefSpec.mean x a D (i 0) (i 1) := by
  rw [val_main_v36_apply]
  refine Finset.sum_congr rfl fun n _ => ?_
  rw [weight_at]
  have e : ridx_main_v36 i n = ix2 n (i 1) :=
    funext fun c => Fin.ext (by match c with | ⟨0, _⟩ => rfl | ⟨1, _⟩ => rfl)
  rw [e]
  rfl

/-- The result at (row, feature). -/
theorem out_at (b : Fin 32) (d : Fin 128) :
    val_main_v42 (F := Ideal) x a D (ix2 b d) = RefSpec.out x a D b d := by
  rw [val_main_v42_apply, val_main_v39_apply, val_main_v38_apply, val_main_v37_apply, scale_col, mean_at,
    val_main_v41_apply, val_main_v40_apply, var_col]
  rfl

/-- THE REFERENCE IS THE SPECIFICATION: the last stage of the run, as a whole array. -/
theorem ref_eq : val_main_v42 (F := Ideal) x a D = RefSpec.outArr x a D := by
  funext i
  obtain ⟨b, d, rfl⟩ : ∃ (b : Fin 32) (d : Fin 128), i = ix2 b d := ⟨i 0, i 1, eq_ix2 i⟩
  exact out_at x a D b d

end Cert.ReferenceIdeal.RefValue

end
-- ==== Proof.PreDecode.lean ====
/-
  The precondition decoded. `finite_inputs` is the conjunction of five `all`s: every entry of the inputs, of the
  coefficients and of the data has absolute value below `+inf`; every coefficient is at least `0`; every coefficient
  is below `1`. On the extended reals an entry whose absolute value `max v (-v)` is below `⊤` is neither `⊤` nor
  `⊥`, so it is a real number; and the two comparisons of a real coefficient with the words of `0.0` and `1.0`
  are the order of the reals.
-/
import proofs.«157909_j21131239096722_2_alg».proof.Pre_finite_inputs
import proofs.«157909_j21131239096722_2_alg».proof.Proof.Gen.Pre_finite_inputs
import Idealize.ShloMosaic.PureOps.Ideal
import Idealize.ShloMosaic.PureOps.Ideal.Laws
import Idealize.ShloMosaic.Lib.ValueIdx
import Idealize.ShloMosaic.Lib.IdealHost
import Idealize.ShloMosaic.Lib.ReduceAll

noncomputable section

namespace Cert.Pre_finite_inputs.Decode

open Cert.Pre_finite_inputs Idealize.ShloMosaic Idealize.ShloMosaic.ValueIdx

/-- The scalar shape has one index. -/
instance : Subsingleton S_.Idx := ⟨fun a b => funext fun d => d.elim0⟩

theorem ofBool_eq_one (b : Bool) : BitVec.ofBool b = 1#1 ↔ b = true := by cases b <;> decide

/-- An extended real whose absolute value is below the word of `+inf` is a real number. -/
theorem real_of_abs_lt_inf (v : EReal)
    (h : Ideal.cmp .olt (max v (-v)) (Ideal.ofBits .f32 0x7F800000#32) = 1#1) : ∃ r : ℝ, v = r := by
  have ht : Ideal.ofBits .f32 0x7F800000#32 = ⊤ := by simp [Ideal.ofBits, Ideal.ieee]
  rw [ht] at h
  unfold Ideal.cmp at h
  rw [ofBool_eq_one] at h
  have h' : max v (-v) < ⊤ := by simpa using h
  induction v using EReal.rec with
  | bot => simp at h'
  | top => simp at h'
  | coe r => exact ⟨r, rfl⟩

/-- A real at least the word of `0.0` is nonnegative. -/
theorem nonneg_of_ge_zero (r : ℝ)
    (h : Ideal.cmp .oge (r : EReal) (Ideal.ofBits .f32 0x00000000#32) = 1#1) : 0 ≤ r := by
  rw [Ideal.ofBits_zero_f32] at h
  unfold Ideal.cmp at h
  rw [ofBool_eq_one] at h
  have h' : (0 : EReal) ≤ (r : EReal) := by simpa using h
  exact EReal.coe_nonneg.1 h'

/-- A real below the word of `1.0` is below one. -/
theorem lt_one_of_lt_one (r : ℝ)
    (h : Ideal.cmp .olt (r : EReal) (Ideal.ofBits .f32 0x3F800000#32) = 1#1) : r < 1 := by
  rw [Ideal.ofBits_one_f32] at h
  unfold Ideal.cmp at h
  rw [ofBool_eq_one] at h
  have h' : (r : EReal) < (1 : EReal) := by simpa using h
  exact_mod_cast h'

/-- THE PRECONDITION DECODED: every entry of the three arrays is a real number, and every coefficient lies in
    `[0, 1)`. -/
theorem pre_decode (x : FVec Ideal S32x128 .f32) (a : FVec Ideal S32 .f32) (D : FVec Ideal S32768x128 .f32)
    (h : @Cert.Pre_finite_inputs.fn Cert.Pre_finite_inputs.Gen.facts Ideal _ x a D = fun _ => 1#1) :
    (∀ i, ∃ r : ℝ, x i = r) ∧ (∀ i, ∃ r : ℝ, a i = r ∧ 0 ≤ r ∧ r < 1) ∧ (∀ i, ∃ r : ℝ, D i = r) := by
  have e := congrFun h ix0
  dsimp only [Cert.Pre_finite_inputs.fn, Cert.Pre_finite_inputs.fn_part1] at e
  change IntOp.andi (IntOp.andi (IntOp.andi (IntOp.andi _ _) _) _) _ = 1#1 at e
  rw [IntOp.andi_eq_one, IntOp.andi_eq_one, IntOp.andi_eq_one, IntOp.andi_eq_one] at e
  obtain ⟨⟨⟨⟨hx, ha⟩, hD⟩, hge⟩, hlt⟩ := e
  have hx' := Host.reduce_andi_all _ _ _ _ _ hx
  have ha' := Host.reduce_andi_all _ _ _ _ _ ha
  have hD' := Host.reduce_andi_all _ _ _ _ _ hD
  have hge' := Host.reduce_andi_all _ _ _ _ _ hge
  have hlt' := Host.reduce_andi_all _ _ _ _ _ hlt
  refine ⟨fun i => real_of_abs_lt_inf (x i) (hx' i), fun i => ?_, fun i => real_of_abs_lt_inf (D i) (hD' i)⟩
  obtain ⟨r, hr⟩ := real_of_abs_lt_inf (a i) (ha' i)
  have h0 := hge' i
  have h1 := hlt' i
  refine ⟨r, hr, nonneg_of_ge_zero r ?_, lt_one_of_lt_one r ?_⟩
  · rw [← hr]; exact h0
  · rw [← hr]; exact h1

end Cert.Pre_finite_inputs.Decode

end
-- ==== Proof.lean ====
/-
  The proof of `Cert.Claim`: the three frames, the (empty) ideal-pass ledger, and the algebraic claim.

  THE ALGEBRAIC CLAIM. Per row `b` both programs compute, on the extended reals,
      out(b, d) = (x(b,d) - √a_b · X(b,d)) ÷ √(1 - a_b),
  where `X(b, ·)` is the softmax-weighted mean of the 32768 data rows under the logits
      ℓ(b,n) = -(64 · log (1 - a_b) + (1/2 ÷ (1 - a_b)) · ∑_d (x(b,d) - √a_b · D(n,d))²).
  The reference computes the logits as written, takes the maximum over all keys, normalises the weights
  `exp (ℓ - M)` by their sum and contracts them with the data (RefValue: its result array is the specification
  `RefSpec.outArr`). The kernel expands the square into three per-row scalars, walks the keys in eight blocks of 4096
  — two passes of four blocks — carrying a running maximum, a running sum of weights and a running weighted sum,
  rescaling them whenever the maximum grows, and merges the two passes on the host (KIdealValue: its result array
  is `kres`, equal entry by entry to the same specification). The two agree when every entry of the inputs is a
  real number and every coefficient lies in `[0, 1)` — which is what the precondition says (PreDecode) —: then
  every logit is real, every weight a positive real, the sums of weights positive reals, and the rescalings
  and the two normalisations are identities of real numbers.

  THE FRAMES. Each program terminates on every weakly fair execution, faulting nowhere, with its three arguments
  unchanged: the kernel programs by the run of their one pipelined region with the host operations around it
  (KBitsFrame, KIdealFrame), the reference by the run of its straight line of host operations (RefFrame).
  The ideal pass rewrote nothing in the kernel, so `preserves` has no conjunct.
-/
import proofs.«157909_j21131239096722_2_alg».proof.Defs
import proofs.«157909_j21131239096722_2_alg».proof.Proof.Gen.Kernel
import proofs.«157909_j21131239096722_2_alg».proof.Proof.Gen.KernelIdeal
import proofs.«157909_j21131239096722_2_alg».proof.Proof.Gen.ReferenceIdeal
import proofs.«157909_j21131239096722_2_alg».proof.Proof.Gen.Pre_finite_inputs
import proofs.«157909_j21131239096722_2_alg».proof.Proof.KBitsFrame
import proofs.«157909_j21131239096722_2_alg».proof.Proof.KIdealFrame
import proofs.«157909_j21131239096722_2_alg».proof.Proof.KIdealValue
import proofs.«157909_j21131239096722_2_alg».proof.Proof.RefFrame
import proofs.«157909_j21131239096722_2_alg».proof.Proof.RefValue
import proofs.«157909_j21131239096722_2_alg».proof.Proof.PreDecode
import proofs.«157909_j21131239096722_2_alg».proof.Proof.RealSpec
import Idealize.ShloMosaic.Adequacy
import Idealize.ShloMosaic.Init

set_option maxRecDepth 16384

noncomputable section

open Idealize.ShloMosaic Idealize.ShloMosaic.TcCoe Idealize.ShloMosaic.ValueIdx Idealize.SL.Sem

/-! ## The kernel's run with its result named -/

namespace Cert.Proof.KernelSide

open Cert.KernelIdeal Cert.KernelIdeal.Gen Cert.KernelIdeal.Hand
open Idealize.ShloMosaic.Pipeline (Dat)

/-- Every weakly fair execution of the idealized kernel terminates with its result array at `kres` and its three
    arguments as launched: the run of the region with the host operations around it, the result buffer read through
    the host operations after the region. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v56) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v56 (Pipeline.mem_restRefs_of main_v56 (by decide) (by decide))).trans (result_tail m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).1 1).trans (((dats m 0 c).arrAt_in 1 rfl _).trans ((A_eq m c 1).trans (V_main_arg2 m c)))⟩)
    (run_main (F := Ideal) m ρ)

end Cert.Proof.KernelSide

/-! ## The claims -/

namespace Cert.Proof

open Cert.KernelIdeal.Hand (kres result_tail kres_apply)

theorem frame_p : @Cert.frame_Kernel Cert.Kernel.Gen.facts Cert.Pre_finite_inputs.Gen.facts :=
  fun m ρ _ => Cert.Kernel.Hand.frame (F := Bits) m ρ
theorem frame_pi : @Cert.frame_KernelIdeal Cert.KernelIdeal.Gen.facts Cert.Pre_finite_inputs.Gen.facts :=
  fun m ρ _ => Cert.KernelIdeal.Hand.frame (F := Ideal) m ρ
theorem frame_ri : @Cert.frame_ReferenceIdeal Cert.ReferenceIdeal.Gen.facts Cert.Pre_finite_inputs.Gen.facts :=
  Cert.Proof.RefFrame.frame_ri

/-- The ideal pass rewrote no operation: nothing to preserve. -/
theorem preserves : Cert.preserves_Kernel_KernelIdeal := trivial

/-- On every core both result arrays are the specification's: the reference's by `ref_eq`, read at the kernel's
    arguments since the two memories agree on them; the kernel's entry by entry (`kres_apply`), over the real witnesses
    of the arguments that the precondition provides. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => kres m c, Cert.Proof.KernelSide.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v42_eq, Cert.ReferenceIdeal.RefValue.ref_eq, (hagree c).1,
    (hagree c).2.1, (hagree c).2.2]
  funext i
  obtain ⟨b, d, rfl⟩ : ∃ (b : Fin 32) (d : Fin 128), i = ix2 b d := ⟨i 0, i 1, eq_ix2 i⟩
  obtain ⟨xr, ar, Dr, hx, ha, hD⟩ := Cert.Attn.RealSpec.witnesses _ _ _
    (Cert.Pre_finite_inputs.Decode.pre_decode _ _ _ (hpre c))
  exact (kres_apply m c xr ar Dr hx ha hD b d).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
